-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S3x64 .f32) (main_arg12 : FVec F S64x40 .f32) (main_arg13 : FVec F S40 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S64x40 .f32 := Host.absf main_arg12
  let main_cst_20 : FVec F S_ .f32 := constant S_ .f32 0x7F800000#32
  let main_v55 : FVec F S64x40 .f32 := broadcastInDim S64x40 ![] bcast_S_S64x40 main_cst_20
  let main_v56 : IVec S64x40 1 := cmpf .olt main_v54 main_v55
  let main_c_21 : IVec S_ 1 := constantI S_ 1 1#1
  let main_v57 : IVec S_ 1 := (fun x v => Host.reduce IntOp.andi x v reducesTo_S64x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  let main_cst_24 : FVec F S_ .f32 := constant S_ .f32 0x00000000#32
  let main_v64 : FVec F S3x64 .f32 := broadcastInDim S3x64 ![] bcast_S_S3x64 main_cst_24
  let main_v65 : IVec S3x64 1 := cmpf .oge main_arg11 main_v64
  let main_c_25 : IVec S_ 1 := constantI S_ 1 1#1
  let main_v66 : IVec S_ 1 := (fun x v => Host.reduce IntOp.andi x v reducesTo_S3x64_S_d0_1 h_S_) main_v65 main_c_25
  let main_v67 : IVec S_ 1 := andi main_v63 main_v66
  main_v67

def fn_part2 {F : FTy → Type} [FloatOps F] (main_arg8 : FVec F S3x64 .f32) (main_arg9 : FVec F S3x64 .f32) (main_arg10 : FVec F S3x64 .f32) (main_arg11 : FVec F S3x64 .f32) (main_arg12 : FVec F S64x40 .f32) (main_arg13 : FVec F S40 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg11
  let main_cst_18 : FVec F S_ .f32 := constant S_ .f32 0x7F800000#32
  let main_v50 : FVec F S3x64 .f32 := broadcastInDim S3x64 ![] bcast_S_S3x64 main_cst_18
  fn_part3 (F := F) main_arg11 main_arg12 main_arg13 main_v48 main_v49 main_v50

def fn_part1 {F : FTy → Type} [FloatOps F] (main_arg5 : FVec F S3x64 .f32) (main_arg6 : FVec F S3x64x64 .f32) (main_arg7 : FVec F S3x64 .f32) (main_arg8 : FVec F S3x64 .f32) (main_arg9 : FVec F S3x64 .f32) (main_arg10 : FVec F S3x64 .f32) (main_arg11 : FVec F S3x64 .f32) (main_arg12 : FVec F S64x40 .f32) (main_arg13 : FVec F S40 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x64 .f32) (main_arg3 : FVec F S64 .f32) (main_arg4 : FVec F S3x64x64 .f32) (main_arg5 : FVec F S3x64 .f32) (main_arg6 : FVec F S3x64x64 .f32) (main_arg7 : FVec F S3x64 .f32) (main_arg8 : FVec F S3x64 .f32) (main_arg9 : FVec F S3x64 .f32) (main_arg10 : FVec F S3x64 .f32) (main_arg11 : FVec F S3x64 .f32) (main_arg12 : FVec F S64x40 .f32) (main_arg13 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S1x64x64 : Shape := ⟨3, ![1, 64, 64]⟩
abbrev S64x64 : Shape := ⟨2, ![64, 64]⟩
abbrev S800000x64 : Shape := ⟨2, ![800000, 64]⟩
abbrev S2000x64 : Shape := ⟨2, ![2000, 64]⟩
abbrev S2000x1 : Shape := ⟨2, ![2000, 1]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 191
  | .vmem => 75
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S3x64x64, .f32⟩
  | 5 => ⟨S3x64, .f32⟩
  | 6 => ⟨S3x64x64, .f32⟩
  | 7 => ⟨S3x64, .f32⟩
  | 8 => ⟨S3x64, .f32⟩
  | 9 => ⟨S3x64, .f32⟩
  | 10 => ⟨S3x64, .f32⟩
  | 11 => ⟨S3x64, .f32⟩
  | 12 => ⟨S64x40, .f32⟩
  | 13 => ⟨S40, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S50000, .f32⟩
  | 48 => ⟨S50000x1, .f32⟩
  | 49 => ⟨S1x64, .f32⟩
  | 50 => ⟨S50000x64, .f32⟩
  | 51 => ⟨S1x64x64, .f32⟩
  | 52 => ⟨S64x64, .f32⟩
  | 53 => ⟨S1x64x64, .f32⟩
  | 54 => ⟨S64x64, .f32⟩
  | 55 => ⟨S50000x64, .f32⟩
  | 56 => ⟨S50000x64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S800000x1, .f32⟩
  | 67 => ⟨S800000x64, .f32⟩
  | 68 => ⟨S800000x64, .f32⟩
  | 69 => ⟨S_, .f32⟩
  | 70 => ⟨S50000x64, .f32⟩
  | 71 => ⟨S800000x1, .i32⟩
  | 72 => ⟨S50000x64, .f32⟩
  | 73 => ⟨S1x64, .f32⟩
  | 74 => ⟨S64, .f32⟩
  | 75 => ⟨S1x64, .f32⟩
  | 76 => ⟨S64, .f32⟩
  | 77 => ⟨S64, .f32⟩
  | 78 => ⟨S1x64, .f32⟩
  | 79 => ⟨S64, .f32⟩
  | 80 => ⟨S1x64, .f32⟩
  | 81 => ⟨S64, .f32⟩
  | 82 => ⟨S_, .f32⟩
  | 83 => ⟨S64, .f32⟩
  | 84 => ⟨S64, .f32⟩
  | 85 => ⟨S64, .f32⟩
  | 86 => ⟨S64, .f32⟩
  | 87 => ⟨S1x64, .f32⟩
  | 88 => ⟨S64, .f32⟩
  | 89 => ⟨S1x64, .f32⟩
  | 90 => ⟨S64, .f32⟩
  | 91 => ⟨S64, .f32⟩
  | 92 => ⟨S64, .f32⟩
  | 93 => ⟨S1x64, .f32⟩
  | 94 => ⟨S1x64, .f32⟩
  | 95 => ⟨S1x64, .f32⟩
  | 96 => ⟨S50000x64, .f32⟩
  | 97 => ⟨S1x64x64, .f32⟩
  | 98 => ⟨S64x64, .f32⟩
  | 99 => ⟨S1x64x64, .f32⟩
  | 100 => ⟨S64x64, .f32⟩
  | 101 => ⟨S50000x64, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x1, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S1x64, .f32⟩
  | 120 => ⟨S64, .f32⟩
  | 121 => ⟨S1x64, .f32⟩
  | 122 => ⟨S64, .f32⟩
  | 123 => ⟨S64, .f32⟩
  | 124 => ⟨S1x64, .f32⟩
  | 125 => ⟨S64, .f32⟩
  | 126 => ⟨S1x64, .f32⟩
  | 127 => ⟨S64, .f32⟩
  | _ => ⟨S50000x128, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S64, .f32⟩
  | 5 => ⟨S1x64, .f32⟩
  | 6 => ⟨S64, .f32⟩
  | 7 => ⟨S1x64, .f32⟩
  | 8 => ⟨S64, .f32⟩
  | 9 => ⟨S64, .f32⟩
  | 10 => ⟨S64, .f32⟩
  | 11 => ⟨S1x64, .f32⟩
  | 12 => ⟨S1x64, .f32⟩
  | 13 => ⟨S1x64, .f32⟩
  | 14 => ⟨S50000x64, .f32⟩
  | 15 => ⟨S1x64x64, .f32⟩
  | 16 => ⟨S64x64, .f32⟩
  | 17 => ⟨S1x64x64, .f32⟩
  | 18 => ⟨S64x64, .f32⟩
  | 19 => ⟨S50000x64, .f32⟩
  | 20 => ⟨S50000x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S800000x1, .f32⟩
  | 31 => ⟨S800000x64, .f32⟩
  | 32 => ⟨S800000x64, .f32⟩
  | 33 => ⟨S_, .f32⟩
  | 34 => ⟨S50000x64, .f32⟩
  | 35 => ⟨S800000x1, .i32⟩
  | 36 => ⟨S50000x64, .f32⟩
  | 37 => ⟨S1x64, .f32⟩
  | 38 => ⟨S64, .f32⟩
  | 39 => ⟨S1x64, .f32⟩
  | 40 => ⟨S64, .f32⟩
  | 41 => ⟨S64, .f32⟩
  | 42 => ⟨S1x64, .f32⟩
  | 43 => ⟨S64, .f32⟩
  | 44 => ⟨S1x64, .f32⟩
  | 45 => ⟨S64, .f32⟩
  | 46 => ⟨S_, .f32⟩
  | 47 => ⟨S64, .f32⟩
  | 48 => ⟨S64, .f32⟩
  | 49 => ⟨S64, .f32⟩
  | 50 => ⟨S64, .f32⟩
  | 51 => ⟨S1x64, .f32⟩
  | 52 => ⟨S64, .f32⟩
  | 53 => ⟨S1x64, .f32⟩
  | 54 => ⟨S64, .f32⟩
  | 55 => ⟨S64, .f32⟩
  | 56 => ⟨S64, .f32⟩
  | 57 => ⟨S1x64, .f32⟩
  | 58 => ⟨S1x64, .f32⟩
  | 59 => ⟨S1x64, .f32⟩
  | 60 => ⟨S50000x64, .f32⟩
  | 61 => ⟨S1x40, .f32⟩
  | 62 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x1, .f32⟩
  | .local _ .vmem, ⟨21, _⟩ => ⟨S2000x1, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | .local _ .vmem, ⟨27, _⟩ => ⟨S5000x64, .f32⟩
  | .local _ .vmem, ⟨28, _⟩ => ⟨S5000x64, .f32⟩
  | .local _ .vmem, ⟨29, _⟩ => ⟨S64x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x1, .f32⟩
  | .local _ .vmem, ⟨42, _⟩ => ⟨S2000x1, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S2000x64, .f32⟩
  | .local _ .vmem, ⟨47, _⟩ => ⟨S2000x64, .f32⟩
  | .local _ .vmem, ⟨48, _⟩ => ⟨S5000x64, .f32⟩
  | .local _ .vmem, ⟨49, _⟩ => ⟨S5000x64, .f32⟩
  | .local _ .vmem, ⟨50, _⟩ => ⟨S64x64, .f32⟩
  | .local _ .vmem, ⟨51, _⟩ => ⟨S64x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S2000x1, .f32⟩
  | .local _ .vmem, ⟨63, _⟩ => ⟨S2000x1, .f32⟩
  | .local _ .vmem, ⟨64, _⟩ => ⟨S1x64, .f32⟩
  | .local _ .vmem, ⟨65, _⟩ => ⟨S1x64, .f32⟩
  | .local _ .vmem, ⟨66, _⟩ => ⟨S1x64, .f32⟩
  | .local _ .vmem, ⟨67, _⟩ => ⟨S2000x64, .f32⟩
  | .local _ .vmem, ⟨68, _⟩ => ⟨S2000x64, .f32⟩
  | .local _ .vmem, ⟨69, _⟩ => ⟨S5000x64, .f32⟩
  | .local _ .vmem, ⟨70, _⟩ => ⟨S5000x64, .f32⟩
  | .local _ .vmem, ⟨71, _⟩ => ⟨S64x40, .f32⟩
  | .local _ .vmem, ⟨72, _⟩ => ⟨S1x40, .f32⟩
  | .local _ .vmem, ⟨73, _⟩ => ⟨S5000x40, .f32⟩
  | .local _ .vmem, ⟨74, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34_0 : Ref sig .tc := ⟨.hbm, 55, rfl⟩
abbrev main_v34_1 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75_0 : Ref sig .tc := ⟨.hbm, 101, rfl⟩
abbrev main_v75_1 : Ref sig .tc := ⟨.hbm, 102, rfl⟩
abbrev main_c_9 : Ref sig .tc := ⟨.hbm, 103, rfl⟩
abbrev main_v76 : Ref sig .tc := ⟨.hbm, 104, rfl⟩
abbrev main_v77 : Ref sig .tc := ⟨.hbm, 105, rfl⟩
abbrev main_c_10 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_11 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_12 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116_0 : Ref sig .tc := ⟨.hbm, 147, rfl⟩
abbrev main_v116_1 : Ref sig .tc := ⟨.hbm, 148, rfl⟩
abbrev main_c_13 : Ref sig .tc := ⟨.hbm, 149, rfl⟩
abbrev main_v117 : Ref sig .tc := ⟨.hbm, 150, rfl⟩
abbrev main_v118 : Ref sig .tc := ⟨.hbm, 151, rfl⟩
abbrev main_c_14 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_15 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_16 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg7_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg3_1 : Ref sig .tc := ⟨.vmem, 53, rfl⟩
abbrev cc5_stg4_0 : Ref sig .tc := ⟨.vmem, 54, rfl⟩
abbrev cc5_stg4_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg3_1 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg6_0 : Ref sig .tc := ⟨.vmem, 66, rfl⟩
abbrev cc6_stg7_0 : Ref sig .tc := ⟨.vmem, 67, rfl⟩
abbrev cc6_stg7_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg3_1 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32
abbrev cc3_sem4_0 : DmaSem sig := 33
abbrev cc3_sem4_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem7_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem3_1 : DmaSem sig := 53
abbrev cc5_sem4_0 : DmaSem sig := 54
abbrev cc5_sem4_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem3_1 : DmaSem sig := 63
abbrev cc6_sem4_0 : DmaSem sig := 64
abbrev cc6_sem5_0 : DmaSem sig := 65
abbrev cc6_sem6_0 : DmaSem sig := 66
abbrev cc6_sem7_0 : DmaSem sig := 67
abbrev cc6_sem7_1 : DmaSem sig := 68
abbrev cc7_sem0_0 : DmaSem sig := 69
abbrev cc7_sem0_1 : DmaSem sig := 70
abbrev cc7_sem1_0 : DmaSem sig := 71
abbrev cc7_sem2_0 : DmaSem sig := 72
abbrev cc7_sem3_0 : DmaSem sig := 73
abbrev cc7_sem3_1 : DmaSem sig := 74

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x40 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x40 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S3x64x64_S1x64x64_0_0_0 : S3x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64_S1x64_0_0 : S3x64.Slices ![0, 0] S1x64
  shapeCasts_S1x64_S64 : S1x64.ShapeCasts S64
  bcast_S_S64 : S_.BroadcastsInDim S64 (![] : Fin 0 → Fin S64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  broadcasts_S1x64_S2000x64 : S1x64.Broadcasts S2000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S50000x64.size a
  hwx2_7 : ∀ i : grid2.Coords, EltTy.bits .f32 = 32 ∨ (Rect.block (s := S50000x64) S2000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S50000x1.size a
  hwx4_3 : ∀ i : grid4.Coords, EltTy.bits .f32 = 32 ∨ (Rect.block (s := S50000x1) S2000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x64.size a ≤ S50000x64.size a
  hwx4_7 : ∀ i : grid4.Coords, EltTy.bits .f32 = 32 ∨ (Rect.block (s := S50000x64) S2000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x1.size a ≤ S50000x1.size a
  hwx6_3 : ∀ i : grid6.Coords, EltTy.bits .f32 = 32 ∨ (Rect.block (s := S50000x1) S2000x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x64.size a ≤ S50000x64.size a
  hwx6_7 : ∀ i : grid6.Coords, EltTy.bits .f32 = 32 ∨ (Rect.block (s := S50000x64) S2000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x40.size a ≤ S64x40.size a
  hwx7_1 : ∀ i : grid7.Coords, EltTy.bits .f32 = 32 ∨ (Rect.block (s := S64x40) S64x40.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x40.size a ≤ S1x40.size a
  hwx7_2 : ∀ i : grid7.Coords, EltTy.bits .f32 = 32 ∨ (Rect.block (s := S1x40) S1x40.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x40.size a ≤ S50000x40.size a
  hwx7_3 : ∀ i : grid7.Coords, EltTy.bits .f32 = 32 ∨ (Rect.block (s := S50000x40) S5000x40.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34_0) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34_1) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70) S2000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v70) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75_0) S5000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v75_1) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v88) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75_0) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75_1) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v27) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v108) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v109) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v110) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v111) S2000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v111) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v113) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v115) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v116_0) S5000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v116_1) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v129) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v116_0) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v116_1) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v27) S2000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v149) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v150) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v151) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v152) S2000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v152) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S64x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v153) S1x40.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v154) S5000x40.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S1x64 : Shape := ⟨2, ![1, 64]⟩
abbrev S1x64x64 : Shape := ⟨3, ![1, 64, 64]⟩
abbrev S64x64 : Shape := ⟨2, ![64, 64]⟩
abbrev S800000x64 : Shape := ⟨2, ![800000, 64]⟩
abbrev S50000x40 : Shape := ⟨2, ![50000, 40]⟩
abbrev S1x40 : Shape := ⟨2, ![1, 40]⟩

abbrev nBuf : Space → Nat
  | .hbm => 240
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S3x64x64, .f32⟩
  | 5 => ⟨S3x64, .f32⟩
  | 6 => ⟨S3x64x64, .f32⟩
  | 7 => ⟨S3x64, .f32⟩
  | 8 => ⟨S3x64, .f32⟩
  | 9 => ⟨S3x64, .f32⟩
  | 10 => ⟨S3x64, .f32⟩
  | 11 => ⟨S3x64, .f32⟩
  | 12 => ⟨S64x40, .f32⟩
  | 13 => ⟨S40, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S50000, .f32⟩
  | 48 => ⟨S50000x1, .f32⟩
  | 49 => ⟨S50000x64, .f32⟩
  | 50 => ⟨S1x64, .f32⟩
  | 51 => ⟨S50000x64, .f32⟩
  | 52 => ⟨S50000x64, .f32⟩
  | 53 => ⟨S1x64x64, .f32⟩
  | 54 => ⟨S64x64, .f32⟩
  | 55 => ⟨S1x64, .f32⟩
  | 56 => ⟨S64, .f32⟩
  | 57 => ⟨S50000x64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S800000x1, .f32⟩
  | 68 => ⟨S800000x64, .f32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S50000x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S1x64x64, .f32⟩
  | 81 => ⟨S64x64, .f32⟩
  | 82 => ⟨S50000x64, .f32⟩
  | 83 => ⟨S50000x64, .f32⟩
  | 84 => ⟨S1x64, .f32⟩
  | 85 => ⟨S64, .f32⟩
  | 86 => ⟨S1x64, .f32⟩
  | 87 => ⟨S50000x64, .f32⟩
  | 88 => ⟨S50000x64, .f32⟩
  | 89 => ⟨S1x64, .f32⟩
  | 90 => ⟨S64, .f32⟩
  | 91 => ⟨S1x64, .f32⟩
  | 92 => ⟨S50000x64, .f32⟩
  | 93 => ⟨S50000x64, .f32⟩
  | 94 => ⟨S1x64, .f32⟩
  | 95 => ⟨S64, .f32⟩
  | 96 => ⟨S1x64, .f32⟩
  | 97 => ⟨S64, .f32⟩
  | 98 => ⟨S_, .f32⟩
  | 99 => ⟨S64, .f32⟩
  | 100 => ⟨S64, .f32⟩
  | 101 => ⟨S64, .f32⟩
  | 102 => ⟨S64, .f32⟩
  | 103 => ⟨S1x64, .f32⟩
  | 104 => ⟨S50000x64, .f32⟩
  | 105 => ⟨S50000x64, .f32⟩
  | 106 => ⟨S1x64, .f32⟩
  | 107 => ⟨S64, .f32⟩
  | 108 => ⟨S1x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S1x64x64, .f32⟩
  | 115 => ⟨S64x64, .f32⟩
  | 116 => ⟨S1x64, .f32⟩
  | 117 => ⟨S64, .f32⟩
  | 118 => ⟨S50000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S50000x128, .f32⟩

abbrev hbmTy0_1 (i : Nat) : BufTy := match i % 128 with
  | 0 => ⟨S800000x1, .f32⟩
  | 1 => ⟨S800000x64, .f32⟩
  | 2 => ⟨S800000x64, .f32⟩
  | 3 => ⟨S_, .f32⟩
  | 4 => ⟨S50000x64, .f32⟩
  | 5 => ⟨S800000x1, .i32⟩
  | 6 => ⟨S50000x64, .f32⟩
  | 7 => ⟨S50000x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S1x64x64, .f32⟩
  | 14 => ⟨S64x64, .f32⟩
  | 15 => ⟨S50000x64, .f32⟩
  | 16 => ⟨S50000x64, .f32⟩
  | 17 => ⟨S1x64, .f32⟩
  | 18 => ⟨S64, .f32⟩
  | 19 => ⟨S1x64, .f32⟩
  | 20 => ⟨S50000x64, .f32⟩
  | 21 => ⟨S50000x64, .f32⟩
  | 22 => ⟨S1x64, .f32⟩
  | 23 => ⟨S64, .f32⟩
  | 24 => ⟨S1x64, .f32⟩
  | 25 => ⟨S50000x64, .f32⟩
  | 26 => ⟨S50000x64, .f32⟩
  | 27 => ⟨S1x64, .f32⟩
  | 28 => ⟨S64, .f32⟩
  | 29 => ⟨S1x64, .f32⟩
  | 30 => ⟨S64, .f32⟩
  | 31 => ⟨S_, .f32⟩
  | 32 => ⟨S64, .f32⟩
  | 33 => ⟨S64, .f32⟩
  | 34 => ⟨S64, .f32⟩
  | 35 => ⟨S64, .f32⟩
  | 36 => ⟨S1x64, .f32⟩
  | 37 => ⟨S50000x64, .f32⟩
  | 38 => ⟨S50000x64, .f32⟩
  | 39 => ⟨S1x64, .f32⟩
  | 40 => ⟨S64, .f32⟩
  | 41 => ⟨S1x64, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S1x64x64, .f32⟩
  | 48 => ⟨S64x64, .f32⟩
  | 49 => ⟨S1x64, .f32⟩
  | 50 => ⟨S64, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x1, .f32⟩
  | 62 => ⟨S800000x64, .f32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S50000x64, .f32⟩
  | 69 => ⟨S50000x64, .f32⟩
  | 70 => ⟨S50000x64, .f32⟩
  | 71 => ⟨S1x64, .f32⟩
  | 72 => ⟨S50000x64, .f32⟩
  | 73 => ⟨S50000x64, .f32⟩
  | 74 => ⟨S1x64x64, .f32⟩
  | 75 => ⟨S64x64, .f32⟩
  | 76 => ⟨S50000x64, .f32⟩
  | 77 => ⟨S50000x64, .f32⟩
  | 78 => ⟨S1x64, .f32⟩
  | 79 => ⟨S64, .f32⟩
  | 80 => ⟨S1x64, .f32⟩
  | 81 => ⟨S50000x64, .f32⟩
  | 82 => ⟨S50000x64, .f32⟩
  | 83 => ⟨S1x64, .f32⟩
  | 84 => ⟨S64, .f32⟩
  | 85 => ⟨S1x64, .f32⟩
  | 86 => ⟨S50000x64, .f32⟩
  | 87 => ⟨S50000x64, .f32⟩
  | 88 => ⟨S1x64, .f32⟩
  | 89 => ⟨S64, .f32⟩
  | 90 => ⟨S1x64, .f32⟩
  | 91 => ⟨S64, .f32⟩
  | 92 => ⟨S_, .f32⟩
  | 93 => ⟨S64, .f32⟩
  | 94 => ⟨S64, .f32⟩
  | 95 => ⟨S64, .f32⟩
  | 96 => ⟨S64, .f32⟩
  | 97 => ⟨S1x64, .f32⟩
  | 98 => ⟨S50000x64, .f32⟩
  | 99 => ⟨S50000x64, .f32⟩
  | 100 => ⟨S1x64, .f32⟩
  | 101 => ⟨S64, .f32⟩
  | 102 => ⟨S1x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S50000x40, .f32⟩
  | 109 => ⟨S1x40, .f32⟩
  | 110 => ⟨S50000x40, .f32⟩
  | 111 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_8 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call0_cst : Ref sig .tc := ⟨.hbm, 111, rfl⟩
abbrev main_call0_v0 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_9 : Ref sig .tc := ⟨.hbm, 119, rfl⟩
abbrev main_v92 : Ref sig .tc := ⟨.hbm, 120, rfl⟩
abbrev main_v93 : Ref sig .tc := ⟨.hbm, 121, rfl⟩
abbrev main_c_10 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_11 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_12 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_call1_cst : Ref sig .tc := ⟨.hbm, 172, rfl⟩
abbrev main_call1_v0 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_c_13 : Ref sig .tc := ⟨.hbm, 180, rfl⟩
abbrev main_v147 : Ref sig .tc := ⟨.hbm, 181, rfl⟩
abbrev main_v148 : Ref sig .tc := ⟨.hbm, 182, rfl⟩
abbrev main_c_14 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_15 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_cst_16 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_call2_cst : Ref sig .tc := ⟨.hbm, 233, rfl⟩
abbrev main_call2_v0 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x40_S50000x40_1_0_0_1_n_n_wf : DotDims.WF S50000x64 S64x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.KRun.lean ====
/-
  The kernel program's run with its result named: at the compiled mesh, from any memory with zero counters, every
  weakly fair execution of the program terminates without a fault, the buffer that holds the result ends at what the
  walk through the program's segments leaves there, and the argument arrays end as launched. The segments, their
  thread states and the launch are those of the program's frame; only the reading of the final memory keeps one more
  buffer.
-/
import proofs.«155966_j60198261620971_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_blocks : θ_run defs (onTc (τ := τ) (main (F := F))) ⟨m, fun _ => 0, ρ⟩ (fun r => ∀ c : Dev nD,
      r.2.mem ((c.tc : Thread nD τ).loc main_v154) = W16 m ρ c (Proc.devRef .tc main_v154)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v154 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c)⟩)

end Cert.KernelIdeal.KVal

end
-- ==== Proof.KKeep.lean ====
/-
  Buffers that a stretch of host operations does not write, and that a kernel region does not write back, keep their
  contents: each lemma walks one buffer back from the boundary where it is read to the boundary where it was written
  (or to the launch memory, for an argument), one boundary at a time.
-/
import proofs.«155966_j60198261620971_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.Sem
open Cert.KernelIdeal Cert.KernelIdeal.Gen

/-- A buffer none of a stretch's operations writes holds after the stretch what it held before. -/
macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable {F : FTy → Type} [FloatOps F]

variable (m : (ℓ : Loc nD τ sig) → Buf (Elt F) ℓ) (ρ : Dev nD → PrngReg) (c : Dev nD)

theorem keep_arg0_1 : W1 m ρ c (Proc.devRef .tc main_arg0) = m ((c : Thread nD τ).loc main_arg0) :=
  calc W1 m ρ c (Proc.devRef .tc main_arg0)
    _ = W0 m ρ c (Proc.devRef .tc main_arg0) := by host_keep hostOps0
    _ = m ((c : Thread nD τ).loc main_arg0) := rfl

theorem keep_arg2_1 : W1 m ρ c (Proc.devRef .tc main_arg2) = m ((c : Thread nD τ).loc main_arg2) :=
  calc W1 m ρ c (Proc.devRef .tc main_arg2)
    _ = W0 m ρ c (Proc.devRef .tc main_arg2) := by host_keep hostOps0
    _ = m ((c : Thread nD τ).loc main_arg2) := rfl

theorem keep_arg4_2 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by host_keep hostOps0
    _ = m ((c : Thread nD τ).loc main_arg4) := rfl

theorem keep_arg4_6 : W6 m ρ c (Proc.devRef .tc main_arg4) = W2 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keep hostOps2
    _ = W3 m ρ c (Proc.devRef .tc main_arg4) := W4_of_ne m ρ c main_arg4 (by decide)
    _ = W2 m ρ c (Proc.devRef .tc main_arg4) := by host_keep hostOps1

theorem keep_arg4_10 : W10 m ρ c (Proc.devRef .tc main_arg4) = W6 m ρ c (Proc.devRef .tc main_arg4) :=
  calc W10 m ρ c (Proc.devRef .tc main_arg4)
    _ = W9 m ρ c (Proc.devRef .tc main_arg4) := W10_of_ne m ρ c main_arg4 (by decide)
    _ = W8 m ρ c (Proc.devRef .tc main_arg4) := by host_keep hostOps4
    _ = W7 m ρ c (Proc.devRef .tc main_arg4) := W8_of_ne m ρ c main_arg4 (by decide)
    _ = W6 m ρ c (Proc.devRef .tc main_arg4) := by host_keep hostOps3

theorem keep_arg6_2 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_keep hostOps0
    _ = m ((c : Thread nD τ).loc main_arg6) := rfl

theorem keep_arg6_6 : W6 m ρ c (Proc.devRef .tc main_arg6) = W2 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keep hostOps2
    _ = W3 m ρ c (Proc.devRef .tc main_arg6) := W4_of_ne m ρ c main_arg6 (by decide)
    _ = W2 m ρ c (Proc.devRef .tc main_arg6) := by host_keep hostOps1

theorem keep_arg6_10 : W10 m ρ c (Proc.devRef .tc main_arg6) = W6 m ρ c (Proc.devRef .tc main_arg6) :=
  calc W10 m ρ c (Proc.devRef .tc main_arg6)
    _ = W9 m ρ c (Proc.devRef .tc main_arg6) := W10_of_ne m ρ c main_arg6 (by decide)
    _ = W8 m ρ c (Proc.devRef .tc main_arg6) := by host_keep hostOps4
    _ = W7 m ρ c (Proc.devRef .tc main_arg6) := W8_of_ne m ρ c main_arg6 (by decide)
    _ = W6 m ρ c (Proc.devRef .tc main_arg6) := by host_keep hostOps3

theorem keep_arg5_4 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keep hostOps1
    _ = W1 m ρ c (Proc.devRef .tc main_arg5) := W2_of_ne m ρ c main_arg5 (by decide)
    _ = W0 m ρ c (Proc.devRef .tc main_arg5) := by host_keep hostOps0
    _ = m ((c : Thread nD τ).loc main_arg5) := rfl

theorem keep_arg5_8 : W8 m ρ c (Proc.devRef .tc main_arg5) = W4 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := by host_keep hostOps3
    _ = W5 m ρ c (Proc.devRef .tc main_arg5) := W6_of_ne m ρ c main_arg5 (by decide)
    _ = W4 m ρ c (Proc.devRef .tc main_arg5) := by host_keep hostOps2

theorem keep_arg5_12 : W12 m ρ c (Proc.devRef .tc main_arg5) = W8 m ρ c (Proc.devRef .tc main_arg5) :=
  calc W12 m ρ c (Proc.devRef .tc main_arg5)
    _ = W11 m ρ c (Proc.devRef .tc main_arg5) := W12_of_ne m ρ c main_arg5 (by decide)
    _ = W10 m ρ c (Proc.devRef .tc main_arg5) := by host_keep hostOps5
    _ = W9 m ρ c (Proc.devRef .tc main_arg5) := W10_of_ne m ρ c main_arg5 (by decide)
    _ = W8 m ρ c (Proc.devRef .tc main_arg5) := by host_keep hostOps4

theorem keep_arg7_4 : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by host_keep hostOps1
    _ = W1 m ρ c (Proc.devRef .tc main_arg7) := W2_of_ne m ρ c main_arg7 (by decide)
    _ = W0 m ρ c (Proc.devRef .tc main_arg7) := by host_keep hostOps0
    _ = m ((c : Thread nD τ).loc main_arg7) := rfl

theorem keep_arg7_8 : W8 m ρ c (Proc.devRef .tc main_arg7) = W4 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_keep hostOps3
    _ = W5 m ρ c (Proc.devRef .tc main_arg7) := W6_of_ne m ρ c main_arg7 (by decide)
    _ = W4 m ρ c (Proc.devRef .tc main_arg7) := by host_keep hostOps2

theorem keep_arg7_12 : W12 m ρ c (Proc.devRef .tc main_arg7) = W8 m ρ c (Proc.devRef .tc main_arg7) :=
  calc W12 m ρ c (Proc.devRef .tc main_arg7)
    _ = W11 m ρ c (Proc.devRef .tc main_arg7) := W12_of_ne m ρ c main_arg7 (by decide)
    _ = W10 m ρ c (Proc.devRef .tc main_arg7) := by host_keep hostOps5
    _ = W9 m ρ c (Proc.devRef .tc main_arg7) := W10_of_ne m ρ c main_arg7 (by decide)
    _ = W8 m ρ c (Proc.devRef .tc main_arg7) := by host_keep hostOps4

theorem keep_arg8_4 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keep hostOps1
    _ = W1 m ρ c (Proc.devRef .tc main_arg8) := W2_of_ne m ρ c main_arg8 (by decide)
    _ = W0 m ρ c (Proc.devRef .tc main_arg8) := by host_keep hostOps0
    _ = m ((c : Thread nD τ).loc main_arg8) := rfl

theorem keep_arg8_8 : W8 m ρ c (Proc.devRef .tc main_arg8) = W4 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := by host_keep hostOps3
    _ = W5 m ρ c (Proc.devRef .tc main_arg8) := W6_of_ne m ρ c main_arg8 (by decide)
    _ = W4 m ρ c (Proc.devRef .tc main_arg8) := by host_keep hostOps2

theorem keep_arg8_12 : W12 m ρ c (Proc.devRef .tc main_arg8) = W8 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := by host_keep hostOps5
    _ = W9 m ρ c (Proc.devRef .tc main_arg8) := W10_of_ne m ρ c main_arg8 (by decide)
    _ = W8 m ρ c (Proc.devRef .tc main_arg8) := by host_keep hostOps4

theorem keep_arg9_4 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by host_keep hostOps1
    _ = W1 m ρ c (Proc.devRef .tc main_arg9) := W2_of_ne m ρ c main_arg9 (by decide)
    _ = W0 m ρ c (Proc.devRef .tc main_arg9) := by host_keep hostOps0
    _ = m ((c : Thread nD τ).loc main_arg9) := rfl

theorem keep_arg9_8 : W8 m ρ c (Proc.devRef .tc main_arg9) = W4 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := by host_keep hostOps3
    _ = W5 m ρ c (Proc.devRef .tc main_arg9) := W6_of_ne m ρ c main_arg9 (by decide)
    _ = W4 m ρ c (Proc.devRef .tc main_arg9) := by host_keep hostOps2

theorem keep_arg9_12 : W12 m ρ c (Proc.devRef .tc main_arg9) = W8 m ρ c (Proc.devRef .tc main_arg9) :=
  calc W12 m ρ c (Proc.devRef .tc main_arg9)
    _ = W11 m ρ c (Proc.devRef .tc main_arg9) := W12_of_ne m ρ c main_arg9 (by decide)
    _ = W10 m ρ c (Proc.devRef .tc main_arg9) := by host_keep hostOps5
    _ = W9 m ρ c (Proc.devRef .tc main_arg9) := W10_of_ne m ρ c main_arg9 (by decide)
    _ = W8 m ρ c (Proc.devRef .tc main_arg9) := by host_keep hostOps4

theorem keep_arg10_4 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by host_keep hostOps1
    _ = W1 m ρ c (Proc.devRef .tc main_arg10) := W2_of_ne m ρ c main_arg10 (by decide)
    _ = W0 m ρ c (Proc.devRef .tc main_arg10) := by host_keep hostOps0
    _ = m ((c : Thread nD τ).loc main_arg10) := rfl

theorem keep_arg10_8 : W8 m ρ c (Proc.devRef .tc main_arg10) = W4 m ρ c (Proc.devRef .tc main_arg10) :=
  calc W8 m ρ c (Proc.devRef .tc main_arg10)
    _ = W7 m ρ c (Proc.devRef .tc main_arg10) := W8_of_ne m ρ c main_arg10 (by decide)
    _ = W6 m ρ c (Proc.devRef .tc main_arg10) := by host_keep hostOps3
    _ = W5 m ρ c (Proc.devRef .tc main_arg10) := W6_of_ne m ρ c main_arg10 (by decide)
    _ = W4 m ρ c (Proc.devRef .tc main_arg10) := by host_keep hostOps2

theorem keep_arg10_12 : W12 m ρ c (Proc.devRef .tc main_arg10) = W8 m ρ c (Proc.devRef .tc main_arg10) :=
  calc W12 m ρ c (Proc.devRef .tc main_arg10)
    _ = W11 m ρ c (Proc.devRef .tc main_arg10) := W12_of_ne m ρ c main_arg10 (by decide)
    _ = W10 m ρ c (Proc.devRef .tc main_arg10) := by host_keep hostOps5
    _ = W9 m ρ c (Proc.devRef .tc main_arg10) := W10_of_ne m ρ c main_arg10 (by decide)
    _ = W8 m ρ c (Proc.devRef .tc main_arg10) := by host_keep hostOps4

theorem keep_arg11_4 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by host_keep hostOps1
    _ = W1 m ρ c (Proc.devRef .tc main_arg11) := W2_of_ne m ρ c main_arg11 (by decide)
    _ = W0 m ρ c (Proc.devRef .tc main_arg11) := by host_keep hostOps0
    _ = m ((c : Thread nD τ).loc main_arg11) := rfl

theorem keep_arg11_8 : W8 m ρ c (Proc.devRef .tc main_arg11) = W4 m ρ c (Proc.devRef .tc main_arg11) :=
  calc W8 m ρ c (Proc.devRef .tc main_arg11)
    _ = W7 m ρ c (Proc.devRef .tc main_arg11) := W8_of_ne m ρ c main_arg11 (by decide)
    _ = W6 m ρ c (Proc.devRef .tc main_arg11) := by host_keep hostOps3
    _ = W5 m ρ c (Proc.devRef .tc main_arg11) := W6_of_ne m ρ c main_arg11 (by decide)
    _ = W4 m ρ c (Proc.devRef .tc main_arg11) := by host_keep hostOps2

theorem keep_arg11_12 : W12 m ρ c (Proc.devRef .tc main_arg11) = W8 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := by host_keep hostOps5
    _ = W9 m ρ c (Proc.devRef .tc main_arg11) := W10_of_ne m ρ c main_arg11 (by decide)
    _ = W8 m ρ c (Proc.devRef .tc main_arg11) := by host_keep hostOps4

theorem keep_arg13_14 : W14 m ρ c (Proc.devRef .tc main_arg13) = m ((c : Thread nD τ).loc main_arg13) :=
  calc W14 m ρ c (Proc.devRef .tc main_arg13)
    _ = W13 m ρ c (Proc.devRef .tc main_arg13) := W14_of_ne m ρ c main_arg13 (by decide)
    _ = W12 m ρ c (Proc.devRef .tc main_arg13) := by host_keep hostOps6
    _ = W11 m ρ c (Proc.devRef .tc main_arg13) := W12_of_ne m ρ c main_arg13 (by decide)
    _ = W10 m ρ c (Proc.devRef .tc main_arg13) := by host_keep hostOps5
    _ = W9 m ρ c (Proc.devRef .tc main_arg13) := W10_of_ne m ρ c main_arg13 (by decide)
    _ = W8 m ρ c (Proc.devRef .tc main_arg13) := by host_keep hostOps4
    _ = W7 m ρ c (Proc.devRef .tc main_arg13) := W8_of_ne m ρ c main_arg13 (by decide)
    _ = W6 m ρ c (Proc.devRef .tc main_arg13) := by host_keep hostOps3
    _ = W5 m ρ c (Proc.devRef .tc main_arg13) := W6_of_ne m ρ c main_arg13 (by decide)
    _ = W4 m ρ c (Proc.devRef .tc main_arg13) := by host_keep hostOps2
    _ = W3 m ρ c (Proc.devRef .tc main_arg13) := W4_of_ne m ρ c main_arg13 (by decide)
    _ = W2 m ρ c (Proc.devRef .tc main_arg13) := by host_keep hostOps1
    _ = W1 m ρ c (Proc.devRef .tc main_arg13) := W2_of_ne m ρ c main_arg13 (by decide)
    _ = W0 m ρ c (Proc.devRef .tc main_arg13) := by host_keep hostOps0
    _ = m ((c : Thread nD τ).loc main_arg13) := rfl

theorem keep_arg12_15 : W15 m ρ c (Proc.devRef .tc main_arg12) = m ((c : Thread nD τ).loc main_arg12) :=
  calc W15 m ρ c (Proc.devRef .tc main_arg12)
    _ = W14 m ρ c (Proc.devRef .tc main_arg12) := by host_keep hostOps7
    _ = W13 m ρ c (Proc.devRef .tc main_arg12) := W14_of_ne m ρ c main_arg12 (by decide)
    _ = W12 m ρ c (Proc.devRef .tc main_arg12) := by host_keep hostOps6
    _ = W11 m ρ c (Proc.devRef .tc main_arg12) := W12_of_ne m ρ c main_arg12 (by decide)
    _ = W10 m ρ c (Proc.devRef .tc main_arg12) := by host_keep hostOps5
    _ = W9 m ρ c (Proc.devRef .tc main_arg12) := W10_of_ne m ρ c main_arg12 (by decide)
    _ = W8 m ρ c (Proc.devRef .tc main_arg12) := by host_keep hostOps4
    _ = W7 m ρ c (Proc.devRef .tc main_arg12) := W8_of_ne m ρ c main_arg12 (by decide)
    _ = W6 m ρ c (Proc.devRef .tc main_arg12) := by host_keep hostOps3
    _ = W5 m ρ c (Proc.devRef .tc main_arg12) := W6_of_ne m ρ c main_arg12 (by decide)
    _ = W4 m ρ c (Proc.devRef .tc main_arg12) := by host_keep hostOps2
    _ = W3 m ρ c (Proc.devRef .tc main_arg12) := W4_of_ne m ρ c main_arg12 (by decide)
    _ = W2 m ρ c (Proc.devRef .tc main_arg12) := by host_keep hostOps1
    _ = W1 m ρ c (Proc.devRef .tc main_arg12) := W2_of_ne m ρ c main_arg12 (by decide)
    _ = W0 m ρ c (Proc.devRef .tc main_arg12) := by host_keep hostOps0
    _ = m ((c : Thread nD τ).loc main_arg12) := rfl

theorem keep_v29_3 : W3 m ρ c (Proc.devRef .tc main_v29) = W2 m ρ c (Proc.devRef .tc main_v29) :=
  calc W3 m ρ c (Proc.devRef .tc main_v29)
    _ = W2 m ρ c (Proc.devRef .tc main_v29) := by host_keep hostOps1

theorem keep_v34_0_5 : W5 m ρ c (Proc.devRef .tc main_v34_0) = W4 m ρ c (Proc.devRef .tc main_v34_0) :=
  calc W5 m ρ c (Proc.devRef .tc main_v34_0)
    _ = W4 m ρ c (Proc.devRef .tc main_v34_0) := by host_keep hostOps2

theorem keep_v34_1_5 : W5 m ρ c (Proc.devRef .tc main_v34_1) = W4 m ρ c (Proc.devRef .tc main_v34_1) :=
  calc W5 m ρ c (Proc.devRef .tc main_v34_1)
    _ = W4 m ρ c (Proc.devRef .tc main_v34_1) := by host_keep hostOps2

theorem keep_v1_4 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_keep hostOps1
    _ = W1 m ρ c (Proc.devRef .tc main_v1) := W2_of_ne m ρ c main_v1 (by decide)

theorem keep_v1_8 : W8 m ρ c (Proc.devRef .tc main_v1) = W4 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_keep hostOps3
    _ = W5 m ρ c (Proc.devRef .tc main_v1) := W6_of_ne m ρ c main_v1 (by decide)
    _ = W4 m ρ c (Proc.devRef .tc main_v1) := by host_keep hostOps2

theorem keep_v1_12 : W12 m ρ c (Proc.devRef .tc main_v1) = W8 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := by host_keep hostOps5
    _ = W9 m ρ c (Proc.devRef .tc main_v1) := W10_of_ne m ρ c main_v1 (by decide)
    _ = W8 m ρ c (Proc.devRef .tc main_v1) := by host_keep hostOps4

theorem keep_v3_4 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_of_ne m ρ c main_v3 (by decide)

theorem keep_v3_8 : W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keep hostOps3
    _ = W5 m ρ c (Proc.devRef .tc main_v3) := W6_of_ne m ρ c main_v3 (by decide)
    _ = W4 m ρ c (Proc.devRef .tc main_v3) := by host_keep hostOps2

theorem keep_v3_12 : W12 m ρ c (Proc.devRef .tc main_v3) = W8 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by host_keep hostOps5
    _ = W9 m ρ c (Proc.devRef .tc main_v3) := W10_of_ne m ρ c main_v3 (by decide)
    _ = W8 m ρ c (Proc.devRef .tc main_v3) := by host_keep hostOps4

theorem keep_v25_4 : W4 m ρ c (Proc.devRef .tc main_v25) = W1 m ρ c (Proc.devRef .tc main_v25) :=
  calc W4 m ρ c (Proc.devRef .tc main_v25)
    _ = W3 m ρ c (Proc.devRef .tc main_v25) := W4_of_ne m ρ c main_v25 (by decide)
    _ = W2 m ρ c (Proc.devRef .tc main_v25) := by host_keep hostOps1
    _ = W1 m ρ c (Proc.devRef .tc main_v25) := W2_of_ne m ρ c main_v25 (by decide)

theorem keep_v25_8 : W8 m ρ c (Proc.devRef .tc main_v25) = W4 m ρ c (Proc.devRef .tc main_v25) :=
  calc W8 m ρ c (Proc.devRef .tc main_v25)
    _ = W7 m ρ c (Proc.devRef .tc main_v25) := W8_of_ne m ρ c main_v25 (by decide)
    _ = W6 m ρ c (Proc.devRef .tc main_v25) := by host_keep hostOps3
    _ = W5 m ρ c (Proc.devRef .tc main_v25) := W6_of_ne m ρ c main_v25 (by decide)
    _ = W4 m ρ c (Proc.devRef .tc main_v25) := by host_keep hostOps2

theorem keep_v25_12 : W12 m ρ c (Proc.devRef .tc main_v25) = W8 m ρ c (Proc.devRef .tc main_v25) :=
  calc W12 m ρ c (Proc.devRef .tc main_v25)
    _ = W11 m ρ c (Proc.devRef .tc main_v25) := W12_of_ne m ρ c main_v25 (by decide)
    _ = W10 m ρ c (Proc.devRef .tc main_v25) := by host_keep hostOps5
    _ = W9 m ρ c (Proc.devRef .tc main_v25) := W10_of_ne m ρ c main_v25 (by decide)
    _ = W8 m ρ c (Proc.devRef .tc main_v25) := by host_keep hostOps4

theorem keep_v27_5 : W5 m ρ c (Proc.devRef .tc main_v27) = W1 m ρ c (Proc.devRef .tc main_v27) :=
  calc W5 m ρ c (Proc.devRef .tc main_v27)
    _ = W4 m ρ c (Proc.devRef .tc main_v27) := by host_keep hostOps2
    _ = W3 m ρ c (Proc.devRef .tc main_v27) := W4_of_ne m ρ c main_v27 (by decide)
    _ = W2 m ρ c (Proc.devRef .tc main_v27) := by host_keep hostOps1
    _ = W1 m ρ c (Proc.devRef .tc main_v27) := W2_of_ne m ρ c main_v27 (by decide)

theorem keep_v27_9 : W9 m ρ c (Proc.devRef .tc main_v27) = W5 m ρ c (Proc.devRef .tc main_v27) :=
  calc W9 m ρ c (Proc.devRef .tc main_v27)
    _ = W8 m ρ c (Proc.devRef .tc main_v27) := by host_keep hostOps4
    _ = W7 m ρ c (Proc.devRef .tc main_v27) := W8_of_ne m ρ c main_v27 (by decide)
    _ = W6 m ρ c (Proc.devRef .tc main_v27) := by host_keep hostOps3
    _ = W5 m ρ c (Proc.devRef .tc main_v27) := (W6_arr m ρ c 3).trans (((dat2 (V5 m ρ) c).arrAt_in 3 rfl _).trans (A_eq2 (V5 m ρ) c 3))

theorem keep_v27_13 : W13 m ρ c (Proc.devRef .tc main_v27) = W9 m ρ c (Proc.devRef .tc main_v27) :=
  calc W13 m ρ c (Proc.devRef .tc main_v27)
    _ = W12 m ρ c (Proc.devRef .tc main_v27) := by host_keep hostOps6
    _ = W11 m ρ c (Proc.devRef .tc main_v27) := W12_of_ne m ρ c main_v27 (by decide)
    _ = W10 m ρ c (Proc.devRef .tc main_v27) := by host_keep hostOps5
    _ = W9 m ρ c (Proc.devRef .tc main_v27) := (W10_arr m ρ c 3).trans (((dat4 (V9 m ρ) c).arrAt_in 3 rfl _).trans (A_eq4 (V9 m ρ) c 3))

theorem keep_v70_7 : W7 m ρ c (Proc.devRef .tc main_v70) = W6 m ρ c (Proc.devRef .tc main_v70) :=
  calc W7 m ρ c (Proc.devRef .tc main_v70)
    _ = W6 m ρ c (Proc.devRef .tc main_v70) := by host_keep hostOps3

theorem keep_v75_0_9 : W9 m ρ c (Proc.devRef .tc main_v75_0) = W8 m ρ c (Proc.devRef .tc main_v75_0) :=
  calc W9 m ρ c (Proc.devRef .tc main_v75_0)
    _ = W8 m ρ c (Proc.devRef .tc main_v75_0) := by host_keep hostOps4

theorem keep_v75_1_9 : W9 m ρ c (Proc.devRef .tc main_v75_1) = W8 m ρ c (Proc.devRef .tc main_v75_1) :=
  calc W9 m ρ c (Proc.devRef .tc main_v75_1)
    _ = W8 m ρ c (Proc.devRef .tc main_v75_1) := by host_keep hostOps4

theorem keep_v111_11 : W11 m ρ c (Proc.devRef .tc main_v111) = W10 m ρ c (Proc.devRef .tc main_v111) :=
  calc W11 m ρ c (Proc.devRef .tc main_v111)
    _ = W10 m ρ c (Proc.devRef .tc main_v111) := by host_keep hostOps5

theorem keep_v116_0_13 : W13 m ρ c (Proc.devRef .tc main_v116_0) = W12 m ρ c (Proc.devRef .tc main_v116_0) :=
  calc W13 m ρ c (Proc.devRef .tc main_v116_0)
    _ = W12 m ρ c (Proc.devRef .tc main_v116_0) := by host_keep hostOps6

theorem keep_v116_1_13 : W13 m ρ c (Proc.devRef .tc main_v116_1) = W12 m ρ c (Proc.devRef .tc main_v116_1) :=
  calc W13 m ρ c (Proc.devRef .tc main_v116_1)
    _ = W12 m ρ c (Proc.devRef .tc main_v116_1) := by host_keep hostOps6

theorem keep_v152_15 : W15 m ρ c (Proc.devRef .tc main_v152) = W14 m ρ c (Proc.devRef .tc main_v152) :=
  calc W15 m ρ c (Proc.devRef .tc main_v152)
    _ = W14 m ρ c (Proc.devRef .tc main_v152) := by host_keep hostOps7

end Cert.KernelIdeal.KVal

end
-- ==== Proof.RefDefs.lean ====
/-
  The reference network as a composition of named stages, at the extended reals.

  The graph part depends on the edge list only: the source and target columns, the inverse square root of the in-degree
  plus one, the per-edge coefficient (the product of that value at the two ends of an edge) and the per-node
  coefficient (its square). A layer takes the node features h, projects them twice (h·W for the convolution, h·L for the
  residual), sums the projected features of a node's in-neighbours weighted by the edge coefficient, adds the node's own
  projected features weighted by the node coefficient, the convolution bias, the residual product and its bias, then
  normalises with running statistics (centre, scale by γ·rsqrt(v + ε), shift) and clips at zero. The network is a dense
  layer, three such layers, and a dense output layer.
-/
import proofs.«155966_j60198261620971_1_alg».proof.ReferenceIdeal
import proofs.«155966_j60198261620971_1_alg».proof.Proof.Gen.ReferenceIdeal
import Idealize.ShloMosaic.PureOps.Ideal.Laws

noncomputable section

namespace Cert.ReferenceIdeal.RefG

open Idealize.ShloMosaic Cert.ReferenceIdeal Cert.ReferenceIdeal.Facts₀

/-- The all-zero [N, 64] array. -/
def zeroNC : FVec Ideal S50000x64 .f32 := broadcastInDim S50000x64 ![] bcast_S_S50000x64 (constant S_ .f32 0x00000000#32)

/-- The edges' source column. -/
def srcv (e : IVec S2x800000 32) : IVec S800000 32 :=
  shapeCast _ (extractStridedSlice S1x800000 ![0, 0] e slices_S2x800000_S1x800000_0_0) shapeCasts_S1x800000_S800000

/-- The edges' target column. -/
def dstv (e : IVec S2x800000 32) : IVec S800000 32 :=
  shapeCast _ (extractStridedSlice S1x800000 ![1, 0] e slices_S2x800000_S1x800000_1_0) shapeCasts_S1x800000_S800000

/-- Node numbers as gather start indices: a negative number moved up by N, then one index per row. -/
def wrap (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Node numbers as scatter indices: one index per row. -/
def col (v : IVec S800000 32) : IVec S800000x1 32 := broadcastInDim S800000x1 ![0] bcast_S800000_S800000x1_0 v

/-- (in-degree + 1)^(-1/2) per node. -/
def dinv (dst : IVec S800000 32) : FVec Ideal S50000 .f32 :=
  Host.rsqrt (addf (Host.scatterAdd scatter_S50000_S800000x1_S800000_n_0_0_1
      (broadcastInDim S50000 ![] bcast_S_S50000 (constant S_ .f32 0x00000000#32)) (col dst)
      (broadcastInDim S800000 ![] bcast_S_S800000 (constant S_ .f32 0x3F800000#32)))
    (broadcastInDim S50000 ![] bcast_S_S50000 (constant S_ .f32 0x3F800000#32)))

/-- The per-edge coefficient: dinv at the source times dinv at the target. -/
def ecoef (src dst : IVec S800000 32) : FVec Ideal S800000 .f32 :=
  mulf (Host.gather gather_S50000_S800000x1_S800000_n_0_n_n_0_1_1 (dinv dst) (wrap src))
    (Host.gather gather_S50000_S800000x1_S800000_n_0_n_n_0_1_1 (dinv dst) (wrap dst))

/-- The per-node coefficient dinv², as a column. -/
def scoefCol (dst : IVec S800000 32) : FVec Ideal S50000x1 .f32 :=
  broadcastInDim S50000x1 ![0] bcast_S50000_S50000x1_0 (mulf (dinv dst) (dinv dst))

/-- A vector of 64 laid along every row of an [N, 64] array. -/
def row (v : FVec Ideal S64 .f32) : FVec Ideal S50000x64 .f32 :=
  broadcastInDim S50000x64 ![0, 1] bcast_S1x64_S50000x64_0_1 (broadcastInDim S1x64 ![1] bcast_S64_S1x64_1 v)

/-- The input layer x·Wf + bf. -/
def h0 (x : FVec Ideal S50000x128 .f32) (wf : FVec Ideal S128x64 .f32) (bf : FVec Ideal S64 .f32) : FVec Ideal S50000x64 .f32 :=
  addf (Host.dotGeneral dot_S50000x128_S128x64_S50000x64_1_0_0_1_n_n none x wf) (row bf)

/-- h·W for a [64, 64] weight. -/
def dot64 (h : FVec Ideal S50000x64 .f32) (w : FVec Ideal S64x64 .f32) : FVec Ideal S50000x64 .f32 :=
  Host.dotGeneral dot_S50000x64_S64x64_S50000x64_1_0_0_1_n_n none h w

/-- The weighted sum of the projected features over a node's in-neighbours. -/
def aggOf (src dst : IVec S800000 32) (ec : FVec Ideal S800000 .f32) (hw : FVec Ideal S50000x64 .f32) : FVec Ideal S50000x64 .f32 :=
  Host.scatterAdd scatter_S50000x64_S800000x1_S800000x64_1_0_0_1 zeroNC (col dst)
    (mulf (Host.gather gather_S50000x64_S800000x1_S800000x64_1_0_n_n_0_1_164 hw (wrap src))
      (broadcastInDim S800000x64 ![0, 1] bcast_S800000x1_S800000x64_0_1 (broadcastInDim S800000x1 ![0] bcast_S800000_S800000x1_0 ec)))

/-- The normalisation's scale γ·rsqrt(v + ε). -/
def scale (ga var : FVec Ideal S64 .f32) : FVec Ideal S64 .f32 :=
  mulf ga (Host.rsqrt (addf var (broadcastInDim S64 ![] bcast_S_S64 (constant S_ .f32 0x3727C5AC#32))))

/-- One layer. -/
def layer (src dst : IVec S800000 32) (h : FVec Ideal S50000x64 .f32) (cW lW : FVec Ideal S64x64 .f32)
    (cb lb mu ga var be : FVec Ideal S64 .f32) : FVec Ideal S50000x64 .f32 :=
  maximumf (addf (mulf (subf (addf (addf (addf (addf (aggOf src dst (ecoef src dst) (dot64 h cW))
    (mulf (dot64 h cW) (broadcastInDim S50000x64 ![0, 1] bcast_S50000x1_S50000x64_0_1 (scoefCol dst)))) (row cb)) (dot64 h lW)) (row lb))
    (row mu)) (row (scale ga var))) (row be)) zeroNC

/-- Layer i's slice of a stacked [3, 64] parameter, i = 0, 1, 2. -/
def vec0 (a : FVec Ideal S3x64 .f32) : FVec Ideal S64 .f32 := shapeCast _ (extractStridedSlice S1x64 ![0, 0] a slices_S3x64_S1x64_0_0) shapeCasts_S1x64_S64
def vec1 (a : FVec Ideal S3x64 .f32) : FVec Ideal S64 .f32 := shapeCast _ (extractStridedSlice S1x64 ![1, 0] a slices_S3x64_S1x64_1_0) shapeCasts_S1x64_S64
def vec2 (a : FVec Ideal S3x64 .f32) : FVec Ideal S64 .f32 := shapeCast _ (extractStridedSlice S1x64 ![2, 0] a slices_S3x64_S1x64_2_0) shapeCasts_S1x64_S64

/-- Layer i's slice of a stacked [3, 64, 64] weight. -/
def mat0 (a : FVec Ideal S3x64x64 .f32) : FVec Ideal S64x64 .f32 := shapeCast _ (extractStridedSlice S1x64x64 ![0, 0, 0] a slices_S3x64x64_S1x64x64_0_0_0) shapeCasts_S1x64x64_S64x64
def mat1 (a : FVec Ideal S3x64x64 .f32) : FVec Ideal S64x64 .f32 := shapeCast _ (extractStridedSlice S1x64x64 ![1, 0, 0] a slices_S3x64x64_S1x64x64_1_0_0) shapeCasts_S1x64x64_S64x64
def mat2 (a : FVec Ideal S3x64x64 .f32) : FVec Ideal S64x64 .f32 := shapeCast _ (extractStridedSlice S1x64x64 ![2, 0, 0] a slices_S3x64x64_S1x64x64_2_0_0) shapeCasts_S1x64x64_S64x64

/-- The output layer h·P + pb. -/
def outL (h : FVec Ideal S50000x64 .f32) (pw : FVec Ideal S64x40 .f32) (pb : FVec Ideal S40 .f32) : FVec Ideal S50000x40 .f32 :=
  addf (Host.dotGeneral dot_S50000x64_S64x40_S50000x40_1_0_0_1_n_n none h pw)
    (broadcastInDim S50000x40 ![0, 1] bcast_S1x40_S50000x40_0_1 (broadcastInDim S1x40 ![1] bcast_S40_S1x40_1 pb))

/-- The three hidden states and the network. -/
def h1 (x : FVec Ideal S50000x128 .f32) (e : IVec S2x800000 32) (wf : FVec Ideal S128x64 .f32) (bf : FVec Ideal S64 .f32)
    (cW : FVec Ideal S3x64x64 .f32) (cb : FVec Ideal S3x64 .f32) (lW : FVec Ideal S3x64x64 .f32) (lb ga be mu var : FVec Ideal S3x64 .f32) :
    FVec Ideal S50000x64 .f32 :=
  layer (srcv e) (dstv e) (h0 x wf bf) (mat0 cW) (mat0 lW) (vec0 cb) (vec0 lb) (vec0 mu) (vec0 ga) (vec0 var) (vec0 be)
def h2 (x : FVec Ideal S50000x128 .f32) (e : IVec S2x800000 32) (wf : FVec Ideal S128x64 .f32) (bf : FVec Ideal S64 .f32)
    (cW : FVec Ideal S3x64x64 .f32) (cb : FVec Ideal S3x64 .f32) (lW : FVec Ideal S3x64x64 .f32) (lb ga be mu var : FVec Ideal S3x64 .f32) :
    FVec Ideal S50000x64 .f32 :=
  layer (srcv e) (dstv e) (h1 x e wf bf cW cb lW lb ga be mu var) (mat1 cW) (mat1 lW) (vec1 cb) (vec1 lb) (vec1 mu) (vec1 ga) (vec1 var) (vec1 be)
def h3 (x : FVec Ideal S50000x128 .f32) (e : IVec S2x800000 32) (wf : FVec Ideal S128x64 .f32) (bf : FVec Ideal S64 .f32)
    (cW : FVec Ideal S3x64x64 .f32) (cb : FVec Ideal S3x64 .f32) (lW : FVec Ideal S3x64x64 .f32) (lb ga be mu var : FVec Ideal S3x64 .f32) :
    FVec Ideal S50000x64 .f32 :=
  layer (srcv e) (dstv e) (h2 x e wf bf cW cb lW lb ga be mu var) (mat2 cW) (mat2 lW) (vec2 cb) (vec2 lb) (vec2 mu) (vec2 ga) (vec2 var) (vec2 be)
def net (x : FVec Ideal S50000x128 .f32) (e : IVec S2x800000 32) (wf : FVec Ideal S128x64 .f32) (bf : FVec Ideal S64 .f32)
    (cW : FVec Ideal S3x64x64 .f32) (cb : FVec Ideal S3x64 .f32) (lW : FVec Ideal S3x64x64 .f32) (lb ga be mu var : FVec Ideal S3x64 .f32)
    (pw : FVec Ideal S64x40 .f32) (pb : FVec Ideal S40 .f32) : FVec Ideal S50000x40 .f32 :=
  outL (h3 x e wf bf cW cb lW lb ga be mu var) pw pb

end Cert.ReferenceIdeal.RefG

end
-- ==== Proof.KHost.lean ====
/-
  The stretches of host operations between the kernel regions, each read as the network's named stages of what the
  stretch finds in the buffers it reads: the graph quantities out of the edge list, a layer's weights sliced out of the
  stacked parameters, the neighbourhood sum of the projected features, and the layer's bias row, normalisation scale
  and folded shift.
-/
import proofs.«155966_j60198261620971_1_alg».proof.Proof.Gen.KernelIdeal.Launch
import proofs.«155966_j60198261620971_1_alg».proof.Proof.RefDefs
import Idealize.ShloMosaic.Lib.StableHlo.Run

set_option maxRecDepth 16384

noncomputable section

namespace Cert.KernelIdeal.KVal

open Idealize.ShloMosaic Idealize.ShloMosaic.StableHlo
open Cert.KernelIdeal Cert.KernelIdeal.Gen Cert.ReferenceIdeal.RefG

variable (W : Valuation τ sig (Elt Ideal))

theorem host0_src : StableHlo.after hostOps0 W (Proc.devRef .tc main_v1) = srcv (W (Proc.devRef .tc main_arg1)) := by
  after_results_simp
  rfl

theorem host0_dst : StableHlo.after hostOps0 W (Proc.devRef .tc main_v3) = dstv (W (Proc.devRef .tc main_arg1)) := by
  after_results_simp
  rfl

theorem host0_ecoef : StableHlo.after hostOps0 W (Proc.devRef .tc main_v25)
    = ecoef (srcv (W (Proc.devRef .tc main_arg1))) (dstv (W (Proc.devRef .tc main_arg1))) := by
  after_results_simp
  rfl

theorem host0_scoef : StableHlo.after hostOps0 W (Proc.devRef .tc main_v27) = scoefCol (dstv (W (Proc.devRef .tc main_arg1))) := by
  after_results_simp
  rfl

theorem host0_bias : StableHlo.after hostOps0 W (Proc.devRef .tc main_v28)
    = shapeCast _ (W (Proc.devRef .tc main_arg3)) shapeCasts_S64_S1x64 := by
  after_results_simp
  rfl

theorem host1_convW : StableHlo.after hostOps1 W (Proc.devRef .tc main_v31) = mat0 (W (Proc.devRef .tc main_arg4)) := by
  after_results_simp
  rfl

theorem host1_linW : StableHlo.after hostOps1 W (Proc.devRef .tc main_v33) = mat0 (W (Proc.devRef .tc main_arg6)) := by
  after_results_simp
  rfl

theorem host2_agg : StableHlo.after hostOps2 W (Proc.devRef .tc main_v47)
    = aggOf (W (Proc.devRef .tc main_v1)) (W (Proc.devRef .tc main_v3)) (W (Proc.devRef .tc main_v25)) (W (Proc.devRef .tc main_v34_0)) := by
  after_results_simp
  rfl

theorem host2_bias : StableHlo.after hostOps2 W (Proc.devRef .tc main_v67)
    = shapeCast _ (addf (vec0 (W (Proc.devRef .tc main_arg5))) (vec0 (W (Proc.devRef .tc main_arg7)))) shapeCasts_S64_S1x64 := by
  after_results_simp
  rfl

theorem host2_scale : StableHlo.after hostOps2 W (Proc.devRef .tc main_v68)
    = shapeCast _ (scale (vec0 (W (Proc.devRef .tc main_arg8))) (vec0 (W (Proc.devRef .tc main_arg11)))) shapeCasts_S64_S1x64 := by
  after_results_simp
  rfl

theorem host2_shift : StableHlo.after hostOps2 W (Proc.devRef .tc main_v69)
    = shapeCast _ (subf (vec0 (W (Proc.devRef .tc main_arg9)))
        (mulf (vec0 (W (Proc.devRef .tc main_arg10))) (scale (vec0 (W (Proc.devRef .tc main_arg8))) (vec0 (W (Proc.devRef .tc main_arg11)))))) shapeCasts_S64_S1x64 := by
  after_results_simp
  rfl

theorem host3_convW : StableHlo.after hostOps3 W (Proc.devRef .tc main_v72) = mat1 (W (Proc.devRef .tc main_arg4)) := by
  after_results_simp
  rfl

theorem host3_linW : StableHlo.after hostOps3 W (Proc.devRef .tc main_v74) = mat1 (W (Proc.devRef .tc main_arg6)) := by
  after_results_simp
  rfl

theorem host4_agg : StableHlo.after hostOps4 W (Proc.devRef .tc main_v88)
    = aggOf (W (Proc.devRef .tc main_v1)) (W (Proc.devRef .tc main_v3)) (W (Proc.devRef .tc main_v25)) (W (Proc.devRef .tc main_v75_0)) := by
  after_results_simp
  rfl

theorem host4_bias : StableHlo.after hostOps4 W (Proc.devRef .tc main_v108)
    = shapeCast _ (addf (vec1 (W (Proc.devRef .tc main_arg5))) (vec1 (W (Proc.devRef .tc main_arg7)))) shapeCasts_S64_S1x64 := by
  after_results_simp
  rfl

theorem host4_scale : StableHlo.after hostOps4 W (Proc.devRef .tc main_v109)
    = shapeCast _ (scale (vec1 (W (Proc.devRef .tc main_arg8))) (vec1 (W (Proc.devRef .tc main_arg11)))) shapeCasts_S64_S1x64 := by
  after_results_simp
  rfl

theorem host4_shift : StableHlo.after hostOps4 W (Proc.devRef .tc main_v110)
    = shapeCast _ (subf (vec1 (W (Proc.devRef .tc main_arg9)))
        (mulf (vec1 (W (Proc.devRef .tc main_arg10))) (scale (vec1 (W (Proc.devRef .tc main_arg8))) (vec1 (W (Proc.devRef .tc main_arg11)))))) shapeCasts_S64_S1x64 := by
  after_results_simp
  rfl

theorem host5_convW : StableHlo.after hostOps5 W (Proc.devRef .tc main_v113) = mat2 (W (Proc.devRef .tc main_arg4)) := by
  after_results_simp
  rfl

theorem host5_linW : StableHlo.after hostOps5 W (Proc.devRef .tc main_v115) = mat2 (W (Proc.devRef .tc main_arg6)) := by
  after_results_simp
  rfl

theorem host6_agg : StableHlo.after hostOps6 W (Proc.devRef .tc main_v129)
    = aggOf (W (Proc.devRef .tc main_v1)) (W (Proc.devRef .tc main_v3)) (W (Proc.devRef .tc main_v25)) (W (Proc.devRef .tc main_v116_0)) := by
  after_results_simp
  rfl

theorem host6_bias : StableHlo.after hostOps6 W (Proc.devRef .tc main_v149)
    = shapeCast _ (addf (vec2 (W (Proc.devRef .tc main_arg5))) (vec2 (W (Proc.devRef .tc main_arg7)))) shapeCasts_S64_S1x64 := by
  after_results_simp
  rfl

theorem host6_scale : StableHlo.after hostOps6 W (Proc.devRef .tc main_v150)
    = shapeCast _ (scale (vec2 (W (Proc.devRef .tc main_arg8))) (vec2 (W (Proc.devRef .tc main_arg11)))) shapeCasts_S64_S1x64 := by
  after_results_simp
  rfl

theorem host6_shift : StableHlo.after hostOps6 W (Proc.devRef .tc main_v151)
    = shapeCast _ (subf (vec2 (W (Proc.devRef .tc main_arg9)))
        (mulf (vec2 (W (Proc.devRef .tc main_arg10))) (scale (vec2 (W (Proc.devRef .tc main_arg8))) (vec2 (W (Proc.devRef .tc main_arg11)))))) shapeCasts_S64_S1x64 := by
  after_results_simp
  rfl

theorem host7_bias : StableHlo.after hostOps7 W (Proc.devRef .tc main_v153)
    = shapeCast _ (W (Proc.devRef .tc main_arg13)) shapeCasts_S40_S1x40 := by
  after_results_simp
  rfl

end Cert.KernelIdeal.KVal

end
-- ==== Proof.LibFoldedNorm.lean ====
/-
  General lemmas: an inference-mode batch normalisation folded into one scale and one shift, on the extended reals.

  * `fold_eq_centred`: for real s, μ, β and ANY extended real P, P·s + (β − μ·s) = (P − μ)·s + β — the normalisation with its
    scale and shift folded beforehand agrees with the centred form, with no finiteness asked of P (an infinite P gives the same
    infinity on both sides, or β when s = 0);
  * `layer_entry_eq`: the same under a clip at zero, with P given as a sum of four terms in two associations (two biases
    added as one precomputed sum, or one after the other around a third term);
  * `scale_real`: γ·rsqrt(v + ε) is a real number for real γ, real v ≥ 0 and real ε > 0;
  * `eps_word`: the single-precision word 0x3727C5AC (1e-5) denotes a positive real.
  Nothing here mentions a program.
-/
import Idealize.ShloMosaic.PureOps.Ideal.Laws

noncomputable section

namespace Cert.LibFoldedNorm

open Idealize.ShloMosaic

/-- P·s + (β − μ·s) = (P − μ)·s + β for real s, μ, β and any extended real P. -/
theorem fold_eq_centred (P : EReal) (s μ β : ℝ) :
    P * (s : EReal) + ((β : EReal) - (μ : EReal) * (s : EReal)) = (P - (μ : EReal)) * (s : EReal) + (β : EReal) := by
  have hr : (β : EReal) - (μ : EReal) * (s : EReal) = ((β - μ * s : ℝ) : EReal) := by
    rw [EReal.coe_sub, EReal.coe_mul]
  induction P using EReal.rec with
  | bot =>
    have hb : (⊥ : EReal) - (μ : EReal) = ⊥ := by rw [sub_eq_add_neg, EReal.bot_add]
    rw [hb, hr]
    rcases lt_trichotomy s 0 with hs | hs | hs
    · rw [EReal.bot_mul_coe_of_neg hs, EReal.top_add_coe, EReal.top_add_coe]
    · subst hs
      simp
    · rw [EReal.bot_mul_coe_of_pos hs, EReal.bot_add, EReal.bot_add]
  | coe x =>
    rw [hr, ← EReal.coe_sub, ← EReal.coe_mul, ← EReal.coe_mul, ← EReal.coe_add, ← EReal.coe_add]
    exact congrArg _ (by ring)
  | top =>
    have ht : (⊤ : EReal) - (μ : EReal) = ⊤ := EReal.top_sub_coe μ
    rw [ht, hr]
    rcases lt_trichotomy s 0 with hs | hs | hs
    · rw [EReal.top_mul_coe_of_neg hs, EReal.bot_add, EReal.bot_add]
    · subst hs
      simp
    · rw [EReal.top_mul_coe_of_pos hs, EReal.top_add_coe, EReal.top_add_coe]

/-- One layer's entry in its two arrangements: the aggregate A, the residual product L, the two biases added as one
    sum or one after the other, then the normalisation folded or centred, then the clip at zero. -/
theorem layer_entry_eq (A L cb lb : EReal) (s μ β : ℝ) :
    max (((A + L) + (cb + lb)) * (s : EReal) + ((β : EReal) - (μ : EReal) * (s : EReal))) 0
      = max (((((A + cb) + L) + lb) - (μ : EReal)) * (s : EReal) + (β : EReal)) 0 := by
  have e : (A + L) + (cb + lb) = ((A + cb) + L) + lb := by
    rw [add_add_add_comm, add_assoc (A + cb) L lb]
  rw [e, fold_eq_centred]

/-- γ·rsqrt(v + ε) is a real number for real γ, real v ≥ 0 and real ε > 0. -/
theorem scale_real (γ v ε : ℝ) (hv : 0 ≤ v) (hε : 0 < ε) :
    ∃ s : ℝ, (γ : EReal) * Ideal.rsqrt ((v : EReal) + (ε : EReal)) = (s : EReal) := by
  refine ⟨γ * (Real.sqrt (v + ε))⁻¹, ?_⟩
  rw [← EReal.coe_add, Ideal.rsqrt_coe, if_neg (by linarith), if_neg (by linarith), ← EReal.coe_mul]

/-- The word 0x3727C5AC (the single-precision 1e-5) denotes a positive real. -/
theorem eps_word : ∃ ε : ℝ, 0 < ε ∧ Ideal.ofBits .f32 0x3727C5AC#32 = (ε : EReal) := by
  refine ⟨10995116 * (2 : ℝ) ^ (-40 : ℤ), by positivity, ?_⟩
  simp [Ideal.ofBits, Ideal.ieee, -EReal.coe_mul]

end Cert.LibFoldedNorm

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.Stages.lean ====
/-
  The reference's stages read at an index, on the extended reals.

  * a [64]-vector laid along the rows of [N, 64], a column [N, 1] laid along the columns, the all-zero array, and a
    stacked [3, 64] parameter's slice, each at an index;
  * the dense input layer and a [N, 64]·[64, 64] product as sums over the contracted axis;
  * one layer's entry (n, c): under real normalisation parameters with a nonnegative running variance it is the clip at
    zero of ((A + L) + (cb + lb))·s + (β − μ·s), where A is the neighbourhood sum plus the node's own weighted projection,
    L the residual product and s = γ·rsqrt(v + ε) — the arrangement with the biases added as one sum and the
    normalisation's scale and shift folded beforehand.
-/
import proofs.«155966_j60198261620971_1_alg».proof.Proof.RefDefs
import proofs.«155966_j60198261620971_1_alg».proof.Proof.LibFoldedNorm
import proofs.«155966_j60198261620971_1_alg».proof.Proof.LibAffine
import proofs.«155966_j60198261620971_1_alg».proof.Proof.LibPlainDot
import proofs.«155966_j60198261620971_1_alg».proof.Proof.LibColumnRow

noncomputable section

namespace Cert.ReferenceIdeal.RefG

open Idealize.ShloMosaic Idealize.ShloMosaic.ValueIdx Cert.ReferenceIdeal Cert.ReferenceIdeal.Facts₀

/-- A vector laid along the rows reads, at (p, j), its entry j. -/
theorem row_at (v : FVec Ideal S64 .f32) (p : Fin 50000) (j : Fin 64) : row v (ix2 p j) = v (ix1 j) :=
  (Cert.LibAffine.broadcastInDim_1n_an_apply (a := 50000) (n := 64) bcast_S1x64_S50000x64_0_1 _ p j).trans
    (Cert.LibColumnRow.broadcastInDim_n_1n_apply (n := 64) bcast_S64_S1x64_1 v 0 j)

/-- The all-zero array is zero everywhere. -/
theorem zeroNC_at (i : S50000x64.Idx) : zeroNC i = 0 := by
  unfold zeroNC
  rw [broadcastInDim_apply ![] bcast_S_S50000x64 _ i ix0 (fun a => a.elim0), constant_apply]
  exact Ideal.ofBits_zero_f32

/-- A column laid along the columns reads, at (p, j), its entry p. -/
theorem colb_at (s : FVec Ideal S50000x1 .f32) (p : Fin 50000) (j : Fin 64) :
    broadcastInDim S50000x64 ![0, 1] bcast_S50000x1_S50000x64_0_1 s (ix2 p j) = s (ix2 p (0 : Fin 1)) := by
  refine broadcastInDim_apply ![0, 1] bcast_S50000x1_S50000x64_0_1 s (ix2 p j) (ix2 p (0 : Fin 1)) fun ax => ?_
  match ax with
  | ⟨0, _⟩ =>
    show p.val = if (50000 : ℕ) = 1 then 0 else p.val
    rw [if_neg (by decide)]
  | ⟨1, _⟩ =>
    show (0 : ℕ) = if (1 : ℕ) = 1 then 0 else j.val
    rw [if_pos rfl]

/-- The ε vector reads the ε word everywhere. -/
theorem eps_at (i : S64.Idx) :
    broadcastInDim S64 ![] bcast_S_S64 (constant (F := Ideal) S_ .f32 0x3727C5AC#32) i = Ideal.ofBits .f32 0x3727C5AC#32 :=
  broadcastInDim_apply ![] bcast_S_S64 _ i ix0 (fun a => a.elim0)

/-- The scale at column j. -/
theorem scale_at (ga var : FVec Ideal S64 .f32) (j : Fin 64) :
    scale ga var (ix1 j) = ga (ix1 j) * Ideal.rsqrt (var (ix1 j) + Ideal.ofBits .f32 0x3727C5AC#32) := by
  unfold scale
  rw [mulf_apply]
  show ga (ix1 j) * Ideal.rsqrt (addf var _ (ix1 j)) = _
  rw [addf_apply, eps_at]

/-- Slice i of a stacked [3, 64] parameter reads, at j, the parameter's entry (i, j). -/
theorem vec0_at (a : FVec Ideal S3x64 .f32) (j : Fin 64) : vec0 a (ix1 j) = a (ix2 (0 : Fin 3) j) := by
  unfold vec0
  rw [shapeCast_apply _ shapeCasts_S1x64_S64 (ix1 j) (ix2 (0 : Fin 1) j) (by
    rw [Shape.rowMajor_val_two, Shape.rowMajor_val_one]; show 0 * 64 + j.val = j.val; omega)]
  refine extractStridedSlice_apply ![0, 0] a slices_S3x64_S1x64_0_0 (ix2 (0 : Fin 1) j) (ix2 (0 : Fin 3) j) fun ax => ?_
  match ax with
  | ⟨0, _⟩ => rfl
  | ⟨1, _⟩ => show j.val = 0 + j.val; omega

theorem vec1_at (a : FVec Ideal S3x64 .f32) (j : Fin 64) : vec1 a (ix1 j) = a (ix2 (1 : Fin 3) j) := by
  unfold vec1
  rw [shapeCast_apply _ shapeCasts_S1x64_S64 (ix1 j) (ix2 (0 : Fin 1) j) (by
    rw [Shape.rowMajor_val_two, Shape.rowMajor_val_one]; show 0 * 64 + j.val = j.val; omega)]
  refine extractStridedSlice_apply ![1, 0] a slices_S3x64_S1x64_1_0 (ix2 (0 : Fin 1) j) (ix2 (1 : Fin 3) j) fun ax => ?_
  match ax with
  | ⟨0, _⟩ => rfl
  | ⟨1, _⟩ => show j.val = 0 + j.val; omega

theorem vec2_at (a : FVec Ideal S3x64 .f32) (j : Fin 64) : vec2 a (ix1 j) = a (ix2 (2 : Fin 3) j) := by
  unfold vec2
  rw [shapeCast_apply _ shapeCasts_S1x64_S64 (ix1 j) (ix2 (0 : Fin 1) j) (by
    rw [Shape.rowMajor_val_two, Shape.rowMajor_val_one]; show 0 * 64 + j.val = j.val; omega)]
  refine extractStridedSlice_apply ![2, 0] a slices_S3x64_S1x64_2_0 (ix2 (0 : Fin 1) j) (ix2 (2 : Fin 3) j) fun ax => ?_
  match ax with
  | ⟨0, _⟩ => rfl
  | ⟨1, _⟩ => show j.val = 0 + j.val; omega

/-- h·W at (p, j) is the sum over q of h (p, q)·W (q, j). -/
theorem dot64_at (h : FVec Ideal S50000x64 .f32) (w : FVec Ideal S64x64 .f32) (p : Fin 50000) (j : Fin 64) :
    dot64 h w (ix2 p j) = ∑ q : Fin 64, h (ix2 p q) * w (ix2 q j) :=
  Cert.LibAffine.hostDot_ix2 (a := 50000) (k := 64) (n := 64) dot_S50000x64_S64x64_S50000x64_1_0_0_1_n_n
    (Cert.LibPlainDot.contr_rank _ rfl) (Cert.LibPlainDot.contr_size _ rfl)
    (Cert.LibPlainDot.lhs_row _ rfl rfl) (Cert.LibPlainDot.lhs_col _ rfl) (Cert.LibPlainDot.rhs_row _ rfl rfl)
    (Cert.LibPlainDot.rhs_col _ rfl rfl rfl rfl) none h w p j

/-- The input layer is the dense layer of x, Wf and the bias as a row. -/
theorem h0_eq (x : FVec Ideal S50000x128 .f32) (wf : FVec Ideal S128x64 .f32) (bf : FVec Ideal S64 .f32) :
    h0 x wf bf = Cert.LibAffine.affine (a := 50000) (k := 128) (n := 64) x wf (broadcastInDim S1x64 ![1] bcast_S64_S1x64_1 bf) :=
  Cert.LibAffine.hostAffine_eq (a := 50000) (k := 128) (n := 64) dot_S50000x128_S128x64_S50000x64_1_0_0_1_n_n
    (Cert.LibPlainDot.contr_rank _ rfl) (Cert.LibPlainDot.contr_size _ rfl)
    (Cert.LibPlainDot.lhs_row _ rfl rfl) (Cert.LibPlainDot.lhs_col _ rfl) (Cert.LibPlainDot.rhs_row _ rfl rfl)
    (Cert.LibPlainDot.rhs_col _ rfl rfl rfl rfl) bcast_S1x64_S50000x64_0_1 none x wf _

/-- The output layer is the dense layer of h, P and the bias as a row. -/
theorem outL_eq (h : FVec Ideal S50000x64 .f32) (pw : FVec Ideal S64x40 .f32) (pb : FVec Ideal S40 .f32) :
    outL h pw pb = Cert.LibAffine.affine (a := 50000) (k := 64) (n := 40) h pw (broadcastInDim S1x40 ![1] bcast_S40_S1x40_1 pb) :=
  Cert.LibAffine.hostAffine_eq (a := 50000) (k := 64) (n := 40) dot_S50000x64_S64x40_S50000x40_1_0_0_1_n_n
    (Cert.LibPlainDot.contr_rank _ rfl) (Cert.LibPlainDot.contr_size _ rfl)
    (Cert.LibPlainDot.lhs_row _ rfl rfl) (Cert.LibPlainDot.lhs_col _ rfl) (Cert.LibPlainDot.rhs_row _ rfl rfl)
    (Cert.LibPlainDot.rhs_col _ rfl rfl rfl rfl) bcast_S1x40_S50000x40_0_1 none h pw _

/-- One layer's entry in the folded arrangement, for real normalisation parameters and a nonnegative variance. -/
theorem layer_at (src dst : IVec S800000 32) (h : FVec Ideal S50000x64 .f32) (cW lW : FVec Ideal S64x64 .f32)
    (cb lb mu ga var be : FVec Ideal S64 .f32) (p : Fin 50000) (j : Fin 64)
    (hga : ∃ r : ℝ, ga (ix1 j) = (r : EReal)) (hvar : ∃ r : ℝ, 0 ≤ r ∧ var (ix1 j) = (r : EReal))
    (hmu : ∃ r : ℝ, mu (ix1 j) = (r : EReal)) (hbe : ∃ r : ℝ, be (ix1 j) = (r : EReal)) :
    layer src dst h cW lW cb lb mu ga var be (ix2 p j)
      = max ((((aggOf src dst (ecoef src dst) (dot64 h cW) (ix2 p j) + dot64 h cW (ix2 p j) * scoefCol dst (ix2 p (0 : Fin 1)))
            + dot64 h lW (ix2 p j)) + (cb (ix1 j) + lb (ix1 j))) * scale ga var (ix1 j)
          + (be (ix1 j) - mu (ix1 j) * scale ga var (ix1 j))) 0 := by
  obtain ⟨γ, hγ⟩ := hga
  obtain ⟨v, hv0, hv⟩ := hvar
  obtain ⟨μ, hμ⟩ := hmu
  obtain ⟨β, hβ⟩ := hbe
  obtain ⟨ε, hε0, hε⟩ := Cert.LibFoldedNorm.eps_word
  obtain ⟨s, hs⟩ := Cert.LibFoldedNorm.scale_real γ v ε hv0 hε0
  have hsc : scale ga var (ix1 j) = (s : EReal) := by rw [scale_at, hγ, hv, hε, hs]
  unfold layer
  rw [maximumf_apply, addf_apply, mulf_apply, subf_apply, addf_apply, addf_apply, addf_apply, addf_apply, mulf_apply,
    zeroNC_at, colb_at, row_at, row_at, row_at, row_at, row_at, hsc, hμ, hβ]
  exact (Cert.LibFoldedNorm.layer_entry_eq _ _ _ _ s μ β).symm

/-- A vector recast as a one-row array reads, at (0, j), its entry j. -/
theorem rowcast_at (v : FVec Ideal S64 .f32) (hsc : S64.ShapeCasts S1x64) (j : Fin 64) :
    shapeCast S1x64 v hsc (ix2 (0 : Fin 1) j) = v (ix1 j) := by
  rw [Cert.LibColumnRow.shapeCast_row_eq_broadcastInDim (n := 64) v hsc bcast_S64_S1x64_1]
  exact Cert.LibColumnRow.broadcastInDim_n_1n_apply (n := 64) bcast_S64_S1x64_1 v 0 j

/-- The dense input layer with its bias recast as a row is the input layer. -/
theorem h0_at (x : FVec Ideal S50000x128 .f32) (wf : FVec Ideal S128x64 .f32) (bf : FVec Ideal S64 .f32)
    (hsc : S64.ShapeCasts S1x64) (p : Fin 50000) (j : Fin 64) :
    Cert.LibAffine.affineAt (a := 50000) (k := 128) (n := 64) x wf (shapeCast S1x64 bf hsc) p j = h0 x wf bf (ix2 p j) := by
  rw [h0_eq, Cert.LibColumnRow.shapeCast_row_eq_broadcastInDim (n := 64) bf hsc bcast_S64_S1x64_1]
  rfl

/-- The dense output layer with its bias recast as a row is the output layer. -/
theorem outL_at (h : FVec Ideal S50000x64 .f32) (pw : FVec Ideal S64x40 .f32) (pb : FVec Ideal S40 .f32)
    (hsc : S40.ShapeCasts S1x40) (p : Fin 50000) (j : Fin 40) :
    Cert.LibAffine.affineAt (a := 50000) (k := 64) (n := 40) h pw (shapeCast S1x40 pb hsc) p j = outL h pw pb (ix2 p j) := by
  rw [outL_eq, Cert.LibColumnRow.shapeCast_row_eq_broadcastInDim (n := 40) pb hsc bcast_S40_S1x40_1]
  rfl

/-- The folded arrangement with its three rows given as recast vectors — the bias sum, the scale, and the shift
    β − μ·scale — is the layer's entry. -/
theorem layer_eq_folded (src dst : IVec S800000 32) (h : FVec Ideal S50000x64 .f32) (cW lW : FVec Ideal S64x64 .f32)
    (cb lb mu ga var be : FVec Ideal S64 .f32) (hsc : S64.ShapeCasts S1x64) (p : Fin 50000) (j : Fin 64)
    (hga : ∃ r : ℝ, ga (ix1 j) = (r : EReal)) (hvar : ∃ r : ℝ, 0 ≤ r ∧ var (ix1 j) = (r : EReal))
    (hmu : ∃ r : ℝ, mu (ix1 j) = (r : EReal)) (hbe : ∃ r : ℝ, be (ix1 j) = (r : EReal)) :
    max ((((aggOf src dst (ecoef src dst) (dot64 h cW) (ix2 p j) + dot64 h cW (ix2 p j) * scoefCol dst (ix2 p (0 : Fin 1)))
            + dot64 h lW (ix2 p j)) + shapeCast S1x64 (addf cb lb) hsc (ix2 (0 : Fin 1) j))
          * shapeCast S1x64 (scale ga var) hsc (ix2 (0 : Fin 1) j)
          + shapeCast S1x64 (subf be (mulf mu (scale ga var))) hsc (ix2 (0 : Fin 1) j)) 0
      = layer src dst h cW lW cb lb mu ga var be (ix2 p j) := by
  rw [rowcast_at, rowcast_at, rowcast_at, addf_apply, subf_apply, mulf_apply]
  exact (layer_at src dst h cW lW cb lb mu ga var be p j hga hvar hmu hbe).symm

end Cert.ReferenceIdeal.RefG

end
-- ==== Proof.RegLinear.lean ====
/-
  The two dense layers with a bias row (the first and the last region of the program): after each region its result
  array is, index by index, the dense layer of its three operand arrays as the region finds them,

      result (p, j) = (the sum over q of x (p, q) · w (q, j)) + b (0, j).

  Each region runs over ten points; point t reads rows 5000 t … 5000 t + 4999 of the matrix, the whole weight and the
  whole bias row, and writes the same rows of the result. A block's arithmetic is the dense layer of the block; entry
  (p, j) of a dense layer reads only row p of the matrix; the ten blocks of rows cover the result.
-/
import proofs.«155966_j60198261620971_1_alg».proof.Proof.Gen.KernelIdeal.Frame
import proofs.«155966_j60198261620971_1_alg».proof.Proof.LibAffine
import proofs.«155966_j60198261620971_1_alg».proof.Proof.LibPlainDot
import Idealize.ShloMosaic.Lib.Pipeline.Value

set_option maxRecDepth 16384

noncomputable section

namespace Cert.KernelIdeal.KVal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibAffine

-- the buffer contents when a region is entered
variable (V : (c : Dev nD) → (b : Ref sig .tc) → Buf (Elt Ideal) ((c : Thread nD τ).loc b))

/-- A rectangle's offsets written as the list of two zeros are the zero offsets. -/
theorem zero_offsets : (![0, 0] : Fin 2 → Nat) = fun _ => 0 := funext fun a => by fin_cases a <;> rfl

/-! ## Region 0: the dense layer [50000,128] · [128,64] + [1,64], ten blocks of 5000 rows -/

/-- The block arithmetic: a [5000,128] block of rows times the [128,64] weight into a zero accumulator, plus the
    [1,64] bias row laid along the rows, is the dense layer of the block (the narrowing of the operands is the
    identity over the extended reals, and a reshape to the same shape changes nothing). -/
theorem dense0_block (x : Vec Ideal S5000x128 .f32) (w : Vec Ideal S128x64 .f32) (b : Vec Ideal S1x64 .f32) :
    Gen.k0_pay1 (F := Ideal) x w b = affine (a := 5000) (k := 128) (n := 64) x w b := by
  unfold Gen.k0_pay1
  rw [shapeCast_self]
  exact coreAffine_eq (φ := .bf16) dot_S5000x128_S128x64_S5000x64_1_0_0_1_n_n
    (LibPlainDot.contr_rank _ rfl) (LibPlainDot.contr_size _ rfl) (LibPlainDot.lhs_row _ rfl rfl) (LibPlainDot.lhs_col _ rfl)
    (LibPlainDot.rhs_row _ rfl rfl) (LibPlainDot.rhs_col _ rfl rfl rfl rfl) broadcasts_S1x64_S5000x64 none
    (truncf .bf16 x bitsLt_bf16_f32) (truncf .bf16 w bitsLt_bf16_f32) b

/-- Entry (p, j) of the block's result: the sum over q of x (p, q) · w (q, j), plus b (0, j). -/
theorem dense0_block_at (x : Vec Ideal S5000x128 .f32) (w : Vec Ideal S128x64 .f32) (b : Vec Ideal S1x64 .f32)
    (p : Fin 5000) (j : Fin 64) :
    Gen.k0_pay1 (F := Ideal) x w b (ix2 p j) = affineAt (a := 5000) (k := 128) (n := 64) x w b p j := by
  rw [dense0_block]; rfl

/-- Over the ten points, the matrix's and the result's blocks move down one block of rows per point; the weight's and
    the bias row's block is always the whole array. -/
theorem windows0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 5000 t + p of the array. -/
theorem row_lt0 (t : Fin cfg0.N) (p : Fin 5000) : t.val * 5000 + p.val < 50000 := by
  have hN : grid0.N = 10 := N_0
  have ht : t.val < grid0.N := t.isLt
  have hp : p.val < 5000 := p.isLt
  omega

/-- The matrix, the weight, the bias row and the dense layer of them, as the region finds the arrays. -/
abbrev X0 (c : Dev nD) : FVec Ideal ⟨2, ![50000, 128]⟩ .f32 := V c (Pipeline.arrRef spec0 0)
abbrev W0 (c : Dev nD) : FVec Ideal ⟨2, ![128, 64]⟩ .f32 := V c (Pipeline.arrRef spec0 1)
abbrev B0 (c : Dev nD) : FVec Ideal ⟨2, ![1, 64]⟩ .f32 := V c (Pipeline.arrRef spec0 2)
abbrev dense0 (c : Dev nD) : FVec Ideal ⟨2, ![50000, 64]⟩ .f32 :=
  affine (a := 50000) (k := 128) (n := 64) (X0 V c) (W0 V c) (B0 V c)

/-- Point t's block of the matrix holds rows 5000 t … 5000 t + 4999 of it. -/
theorem x_rows0 (c : Dev nD) (t : Fin cfg0.N) (p : Fin 5000) (q : Fin 128) :
    (iblk0 (F := Ideal) V c 0 t : Vec Ideal S5000x128 .f32) (ix2 p q)
      = X0 V c (ix2 (⟨t.val * 5000 + p.val, row_lt0 t p⟩ : Fin 50000) q) := by
  obtain ⟨e0, e1, -⟩ := windows0 t
  show X0 V c (((cfg0.win 0).blk t).view.emb (ix2 p q)) = _
  refine congrArg (X0 V c) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * q.val = q.val; omega

/-- Every point's block of the weight is the weight. -/
theorem w_whole0 (c : Dev nD) (t : Fin cfg0.N) (q : Fin 128) (j : Fin 64) :
    (iblk0 (F := Ideal) V c 1 t : Vec Ideal S128x64 .f32) (ix2 q j) = W0 V c (ix2 q j) := by
  obtain ⟨-, -, e0, e1, -⟩ := windows0 t
  show W0 V c (((cfg0.win 1).blk t).view.emb (ix2 q j)) = _
  refine congrArg (W0 V c) (funext fun a => Fin.ext ?_)
  match a with
  | ⟨0, _⟩ => show win0_1.index t (0 : Fin 2) * 128 + 1 * q.val = q.val; omega
  | ⟨1, _⟩ => show win0_1.index t (1 : Fin 2) * 64 + 1 * j.val = j.val; omega

/-- Every point's block of the bias row is the bias row. -/
theorem b_whole0 (c : Dev nD) (t : Fin cfg0.N) (j : Fin 64) :
    (iblk0 (F := Ideal) V c 2 t : Vec Ideal S1x64 .f32) (ix2 (0 : Fin 1) j) = B0 V c (ix2 (0 : Fin 1) j) := by
  obtain ⟨-, -, -, -, e0, e1, -⟩ := windows0 t
  show B0 V c (((cfg0.win 2).blk t).view.emb (ix2 (0 : Fin 1) j)) = _
  refine congrArg (B0 V c) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 64 + 1 * j.val = j.val; omega

/-- Entry (p, j) of point t's block of the result sits at row 5000 t + p, column j of the array. -/
theorem out_row0 (t : Fin cfg0.N) (p : Fin 5000) (j : Fin 64) :
    ((cfg0.win 3).blk t).view.emb (ix2 p j) = (ix2 (⟨t.val * 5000 + p.val, row_lt0 t p⟩ : Fin 50000) j : S50000x64.Idx) := by
  obtain ⟨-, -, -, -, -, -, e0, e1⟩ := windows0 t
  funext a; apply Fin.ext
  match a with
  | ⟨0, _⟩ => show win0_3.index t (0 : Fin 2) * 5000 + 1 * p.val = t.val * 5000 + p.val; omega
  | ⟨1, _⟩ => show win0_3.index t (1 : Fin 2) * 64 + 1 * j.val = j.val; omega

/-- What point t writes back is its block of rows of the dense layer of the whole arrays: entry (p, j) of a dense layer
    reads only row p of the matrix, and that row of the block is row 5000 t + p of the array. -/
theorem written0 (c : Dev nD) (t : Fin cfg0.N) :
    (dat0 (F := Ideal) V c).flushed 3 t = ((cfg0.win 3).blk t).view.read (Elt Ideal) (dense0 V c) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x64) zero_offsets,
    View.ld_unit_zero (S := S1x64) zero_offsets]
  funext y
  obtain ⟨p, j, rfl⟩ : ∃ (p : Fin 5000) (j : Fin 64), y = ix2 p j := ⟨y 0, y 1, eq_ix2 y⟩
  show Gen.k0_pay1 (F := Ideal) (iblk0 V c 0 t) (iblk0 V c 1 t) (iblk0 V c 2 t) (ix2 p j)
    = dense0 V c (((cfg0.win 3).blk t).view.emb (ix2 p j))
  rw [dense0_block_at, out_row0 t p j]
  exact affineAt_congr (X0 V c) (W0 V c) (B0 V c) _ _ _ p ⟨t.val * 5000 + p.val, row_lt0 t p⟩ j
    (fun q => x_rows0 V c t p q) (fun q => w_whole0 V c t q j) (b_whole0 V c t j)

/-- An index of the result is in point t's block iff each coordinate is in the block's range on its axis. -/
theorem mem_rows0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v29).slice (win0_3.rect t)).set ↔ _
  rw [View.set_slice_whole, Rect.mem_set_unit]
  exact Iff.rfl

/-- Every index of the result is in the block of the point numbered by its row divided by 5000. -/
theorem rows_cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  have ht : (i 0).val / 5000 < cfg0.N := by show (i 0).val / 5000 < grid0.N; omega
  refine ⟨⟨(i 0).val / 5000, ht⟩, flush0_3 _, ?_⟩
  rw [mem_rows0]
  obtain ⟨-, -, -, -, -, -, e0, e1⟩ := windows0 ⟨(i 0).val / 5000, ht⟩
  have e0' : win0_3.index ⟨(i 0).val / 5000, ht⟩ (0 : Fin 2) = (i 0).val / 5000 := e0
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; omega
  | ⟨1, _⟩ => show win0_3.index ⟨(i 0).val / 5000, ht⟩ (1 : Fin 2) * 64 ≤ (i 1).val ∧ (i 1).val < win0_3.index ⟨(i 0).val / 5000, ht⟩ (1 : Fin 2) * 64 + 64; omega

/-- The result array after the region is the dense layer of the operand arrays as the region finds them. -/
theorem arr0_eq (c : Dev nD) : (dat0 (F := Ideal) V c).arrAt 3 cfg0.N = dense0 V c :=
  (dat0 (F := Ideal) V c).arrAt_eq_of_cover 3 (dense0 V c) (fun t _ => written0 V c t) (rows_cover0)

/-- Entry (p, j) of the result array after the region. -/
theorem arr0_at (c : Dev nD) (p : Fin 50000) (j : Fin 64) :
    (Gen.dat0 (F := Ideal) V c).arrAt 3 cfg0.N (ix2 p j)
      = Cert.LibAffine.affineAt (a := 50000) (k := 128) (n := 64) (V c (Pipeline.arrRef spec0 0)) (V c (Pipeline.arrRef spec0 1))
          (V c (Pipeline.arrRef spec0 2)) p j := by
  rw [arr0_eq]; rfl

/-! ## Region 7: the dense layer [50000,64] · [64,40] + [1,40], ten blocks of 5000 rows -/

/-- The block arithmetic: a [5000,64] block of rows times the [64,40] weight into a zero accumulator, plus the
    [1,40] bias row laid along the rows, is the dense layer of the block (the narrowing of the operands is the
    identity over the extended reals, and a reshape to the same shape changes nothing). -/
theorem dense7_block (x : Vec Ideal S5000x64 .f32) (w : Vec Ideal S64x40 .f32) (b : Vec Ideal S1x40 .f32) :
    Gen.k7_pay1 (F := Ideal) x w b = affine (a := 5000) (k := 64) (n := 40) x w b := by
  unfold Gen.k7_pay1
  rw [shapeCast_self, shapeCast_self]
  exact coreAffine_eq (φ := .bf16) dot_S5000x64_S64x40_S5000x40_1_0_0_1_n_n
    (LibPlainDot.contr_rank _ rfl) (LibPlainDot.contr_size _ rfl) (LibPlainDot.lhs_row _ rfl rfl) (LibPlainDot.lhs_col _ rfl)
    (LibPlainDot.rhs_row _ rfl rfl) (LibPlainDot.rhs_col _ rfl rfl rfl rfl) broadcasts_S1x40_S5000x40 none
    (truncf .bf16 x bitsLt_bf16_f32) (truncf .bf16 w bitsLt_bf16_f32) b

/-- Entry (p, j) of the block's result: the sum over q of x (p, q) · w (q, j), plus b (0, j). -/
theorem dense7_block_at (x : Vec Ideal S5000x64 .f32) (w : Vec Ideal S64x40 .f32) (b : Vec Ideal S1x40 .f32)
    (p : Fin 5000) (j : Fin 40) :
    Gen.k7_pay1 (F := Ideal) x w b (ix2 p j) = affineAt (a := 5000) (k := 64) (n := 40) x w b p j := by
  rw [dense7_block]; rfl

/-- Over the ten points, the matrix's and the result's blocks move down one block of rows per point; the weight's and
    the bias row's block is always the whole array. -/
theorem windows7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Row p of point t's block is row 5000 t + p of the array. -/
theorem row_lt7 (t : Fin cfg7.N) (p : Fin 5000) : t.val * 5000 + p.val < 50000 := by
  have hN : grid7.N = 10 := N_7
  have ht : t.val < grid7.N := t.isLt
  have hp : p.val < 5000 := p.isLt
  omega

/-- The matrix, the weight, the bias row and the dense layer of them, as the region finds the arrays. -/
abbrev X7 (c : Dev nD) : FVec Ideal ⟨2, ![50000, 64]⟩ .f32 := V c (Pipeline.arrRef spec7 0)
abbrev W7 (c : Dev nD) : FVec Ideal ⟨2, ![64, 40]⟩ .f32 := V c (Pipeline.arrRef spec7 1)
abbrev B7 (c : Dev nD) : FVec Ideal ⟨2, ![1, 40]⟩ .f32 := V c (Pipeline.arrRef spec7 2)
abbrev dense7 (c : Dev nD) : FVec Ideal ⟨2, ![50000, 40]⟩ .f32 :=
  affine (a := 50000) (k := 64) (n := 40) (X7 V c) (W7 V c) (B7 V c)

/-- Point t's block of the matrix holds rows 5000 t … 5000 t + 4999 of it. -/
theorem x_rows7 (c : Dev nD) (t : Fin cfg7.N) (p : Fin 5000) (q : Fin 64) :
    (iblk7 (F := Ideal) V c 0 t : Vec Ideal S5000x64 .f32) (ix2 p q)
      = X7 V c (ix2 (⟨t.val * 5000 + p.val, row_lt7 t p⟩ : Fin 50000) q) := by
  obtain ⟨e0, e1, -⟩ := windows7 t
  show X7 V c (((cfg7.win 0).blk t).view.emb (ix2 p q)) = _
  refine congrArg (X7 V c) (funext fun a => Fin.ext ?_)
  match a with
  | ⟨0, _⟩ => show win7_0.index t (0 : Fin 2) * 5000 + 1 * p.val = t.val * 5000 + p.val; omega
  | ⟨1, _⟩ => show win7_0.index t (1 : Fin 2) * 64 + 1 * q.val = q.val; omega

/-- Every point's block of the weight is the weight. -/
theorem w_whole7 (c : Dev nD) (t : Fin cfg7.N) (q : Fin 64) (j : Fin 40) :
    (iblk7 (F := Ideal) V c 1 t : Vec Ideal S64x40 .f32) (ix2 q j) = W7 V c (ix2 q j) := by
  obtain ⟨-, -, e0, e1, -⟩ := windows7 t
  show W7 V c (((cfg7.win 1).blk t).view.emb (ix2 q j)) = _
  refine congrArg (W7 V c) (funext fun a => Fin.ext ?_)
  match a with
  | ⟨0, _⟩ => show win7_1.index t (0 : Fin 2) * 64 + 1 * q.val = q.val; omega
  | ⟨1, _⟩ => show win7_1.index t (1 : Fin 2) * 40 + 1 * j.val = j.val; omega

/-- Every point's block of the bias row is the bias row. -/
theorem b_whole7 (c : Dev nD) (t : Fin cfg7.N) (j : Fin 40) :
    (iblk7 (F := Ideal) V c 2 t : Vec Ideal S1x40 .f32) (ix2 (0 : Fin 1) j) = B7 V c (ix2 (0 : Fin 1) j) := by
  obtain ⟨-, -, -, -, e0, e1, -⟩ := windows7 t
  show B7 V c (((cfg7.win 2).blk t).view.emb (ix2 (0 : Fin 1) j)) = _
  refine congrArg (B7 V c) (funext fun a => Fin.ext ?_)
  match a with
  | ⟨0, _⟩ => show win7_2.index t (0 : Fin 2) * 1 + 1 * (0 : Fin 1).val = (0 : Fin 1).val; omega
  | ⟨1, _⟩ => show win7_2.index t (1 : Fin 2) * 40 + 1 * j.val = j.val; omega

/-- Entry (p, j) of point t's block of the result sits at row 5000 t + p, column j of the array. -/
theorem out_row7 (t : Fin cfg7.N) (p : Fin 5000) (j : Fin 40) :
    ((cfg7.win 3).blk t).view.emb (ix2 p j) = (ix2 (⟨t.val * 5000 + p.val, row_lt7 t p⟩ : Fin 50000) j : S50000x40.Idx) := by
  obtain ⟨-, -, -, -, -, -, e0, e1⟩ := windows7 t
  funext a; apply Fin.ext
  match a with
  | ⟨0, _⟩ => show win7_3.index t (0 : Fin 2) * 5000 + 1 * p.val = t.val * 5000 + p.val; omega
  | ⟨1, _⟩ => show win7_3.index t (1 : Fin 2) * 40 + 1 * j.val = j.val; omega

/-- What point t writes back is its block of rows of the dense layer of the whole arrays: entry (p, j) of a dense layer
    reads only row p of the matrix, and that row of the block is row 5000 t + p of the array. -/
theorem written7 (c : Dev nD) (t : Fin cfg7.N) :
    (dat7 (F := Ideal) V c).flushed 3 t = ((cfg7.win 3).blk t).view.read (Elt Ideal) (dense7 V c) := by
  show (cfg7.win 3).cut (grid7.coords t) ((dat7 (F := Ideal) V c).after 3 t) = _
  rw [after7_3]
  unfold out7_3
  rw [View.canon_unit_zero zero_offsets]
  simp only [View.ld_unit_zero (S := S5000x64) zero_offsets, View.ld_unit_zero (S := S64x40) zero_offsets,
    View.ld_unit_zero (S := S1x40) zero_offsets]
  funext y
  obtain ⟨p, j, rfl⟩ : ∃ (p : Fin 5000) (j : Fin 40), y = ix2 p j := ⟨y 0, y 1, eq_ix2 y⟩
  show Gen.k7_pay1 (F := Ideal) (iblk7 V c 0 t) (iblk7 V c 1 t) (iblk7 V c 2 t) (ix2 p j)
    = dense7 V c (((cfg7.win 3).blk t).view.emb (ix2 p j))
  rw [dense7_block_at, out_row7 t p j]
  exact affineAt_congr (X7 V c) (W7 V c) (B7 V c) _ _ _ p ⟨t.val * 5000 + p.val, row_lt7 t p⟩ j
    (fun q => x_rows7 V c t p q) (fun q => w_whole7 V c t q j) (b_whole7 V c t j)

/-- An index of the result is in point t's block iff each coordinate is in the block's range on its axis. -/
theorem mem_rows7 (t : Fin cfg7.N) (i : S50000x40.Idx) :
    i ∈ ((cfg7.win 3).blk t).view.set ↔ ∀ a : Fin 2, win7_3.index t a * S5000x40.size a ≤ (i a).val ∧ (i a).val < win7_3.index t a * S5000x40.size a + S5000x40.size a := by
  show i ∈ ((View.whole main_v154).slice (win7_3.rect t)).set ↔ _
  rw [View.set_slice_whole, Rect.mem_set_unit]
  exact Iff.rfl

/-- Every index of the result is in the block of the point numbered by its row divided by 5000. -/
theorem rows_cover7 (i : S50000x40.Idx) :
    ∃ t : Fin cfg7.N, (cfg7.win 3).flush t = true ∧ i ∈ ((cfg7.win 3).blk t).view.set := by
  have hi0 : (i 0).val < 50000 := (i 0).isLt
  have hi1 : (i 1).val < 40 := (i 1).isLt
  have hN : grid7.N = 10 := N_7
  have ht : (i 0).val / 5000 < cfg7.N := by show (i 0).val / 5000 < grid7.N; omega
  refine ⟨⟨(i 0).val / 5000, ht⟩, flush7_3 _, ?_⟩
  rw [mem_rows7]
  obtain ⟨-, -, -, -, -, -, e0, e1⟩ := windows7 ⟨(i 0).val / 5000, ht⟩
  have e0' : win7_3.index ⟨(i 0).val / 5000, ht⟩ (0 : Fin 2) = (i 0).val / 5000 := e0
  intro a
  match a with
  | ⟨0, _⟩ => show win7_3.index ⟨(i 0).val / 5000, ht⟩ (0 : Fin 2) * 5000 ≤ (i 0).val ∧ (i 0).val < win7_3.index ⟨(i 0).val / 5000, ht⟩ (0 : Fin 2) * 5000 + 5000; omega
  | ⟨1, _⟩ => show win7_3.index ⟨(i 0).val / 5000, ht⟩ (1 : Fin 2) * 40 ≤ (i 1).val ∧ (i 1).val < win7_3.index ⟨(i 0).val / 5000, ht⟩ (1 : Fin 2) * 40 + 40; omega

/-- The result array after the region is the dense layer of the operand arrays as the region finds them. -/
theorem arr7_eq (c : Dev nD) : (dat7 (F := Ideal) V c).arrAt 3 cfg7.N = dense7 V c :=
  (dat7 (F := Ideal) V c).arrAt_eq_of_cover 3 (dense7 V c) (fun t _ => written7 V c t) (rows_cover7)

/-- Entry (p, j) of the result array after the region. -/
theorem arr7_at (c : Dev nD) (p : Fin 50000) (j : Fin 40) :
    (Gen.dat7 (F := Ideal) V c).arrAt 3 cfg7.N (ix2 p j)
      = Cert.LibAffine.affineAt (a := 50000) (k := 64) (n := 40) (V c (Pipeline.arrRef spec7 0)) (V c (Pipeline.arrRef spec7 1))
          (V c (Pipeline.arrRef spec7 2)) p j := by
  rw [arr7_eq]; rfl

end Cert.KernelIdeal.KVal

end
-- ==== Proof.RegDual1.lean ====
/-
  The dual-product region 1: each of its two output arrays, after the region's ten points have run, is the
  [50000, 64] array whose entry (p, j) is the sum over q of H (p, q) · W (q, j), H the region's first array and W its
  second (window 3) or third (window 4) array, as the region finds them.

  The body multiplies a block of 5000 rows of H by each whole weight (the narrowing to the half-width float format is the
  identity over the extended reals); point t of the grid reads and writes rows 5000 t … 5000 t + 4999, and the ten
  blocks of rows tile the array.
-/
import proofs.«155966_j60198261620971_1_alg».proof.Proof.Gen.KernelIdeal.Frame
import proofs.«155966_j60198261620971_1_alg».proof.Proof.LibAffine
import proofs.«155966_j60198261620971_1_alg».proof.Proof.LibPlainDot
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-- The zero offsets of a whole-buffer access. -/
theorem zeroOffsets1 : (![0, 0] : Fin 2 → Nat) = fun _ => 0 := funext fun a => by fin_cases a <;> rfl

/-- Entry (p, j) of the product H · W of an [a, 64] array by a [64, 64] array: the sum over q of H (p, q) · W (q, j). -/
def prodAt1 {a : ℕ} (H : FVec Ideal ⟨2, ![a, 64]⟩ .f32) (W : FVec Ideal ⟨2, ![64, 64]⟩ .f32) (p : Fin a) (j : Fin 64) : Ideal .f32 :=
  ∑ q : Fin 64, H (ix2 p q) * W (ix2 q j)

/-- The product H · W as a [50000, 64] array. -/
def prod1 (H : FVec Ideal ⟨2, ![50000, 64]⟩ .f32) (W : FVec Ideal ⟨2, ![64, 64]⟩ .f32) : FVec Ideal ⟨2, ![50000, 64]⟩ .f32 :=
  fun i => prodAt1 H W (i 0) (i 1)

/-- Entry (p, j) of a product reads only row p of the left array and column j of the weight: a sum of products of a
    block of rows x and a weight w that agree there with H and W, at an index k that is (p', j), is H · W at k. -/
theorem prodAt1_congr {a' : ℕ} (x : FVec Ideal ⟨2, ![a', 64]⟩ .f32) (w : FVec Ideal ⟨2, ![64, 64]⟩ .f32)
    (H : FVec Ideal ⟨2, ![50000, 64]⟩ .f32) (W : FVec Ideal ⟨2, ![64, 64]⟩ .f32)
    (p : Fin a') (p' : Fin 50000) (j : Fin 64) (k : (⟨2, ![50000, 64]⟩ : Shape).Idx)
    (hk0 : p'.val = (k 0).val)
    (hx : ∀ q : Fin 64, x (ix2 p q) = H (ix2 p' q)) (hw : ∀ q : Fin 64, w (ix2 q j) = W (ix2 q (k 1))) :
    ∑ q : Fin 64, x (ix2 p q) * w (ix2 q j) = prod1 H W k := by
  have e0 : p' = k 0 := Fin.ext hk0
  subst e0
  unfold prod1 prodAt1
  exact Finset.sum_congr rfl fun q _ => by rw [hx q, hw q]

/-- The plain [5000, 64] × [64, 64] product on the matrix unit into the zero accumulator, read at (p, j). -/
theorem unitProduct1_ix2 {φ₁ φ₂ : FTy} (L : FVec Ideal S5000x64 φ₁) (R : FVec Ideal S64x64 φ₂) (p : Fin 5000) (j : Fin 64) :
    FloatOps.matmul dot_S5000x64_S64x64_S5000x64_1_0_0_1_n_n none L R (constant S5000x64 .f32 0x00000000#32) (ix2 p j)
      = ∑ q : Fin 64, L (ix2 p q) * R (ix2 q j) :=
  Cert.LibAffine.coreDot_ix2 dot_S5000x64_S64x64_S5000x64_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none L R p j

/-- The body's first product at (p, j): the sum over q of x0 (p, q) · x1 (q, j). -/
theorem firstProduct1_ix2 (x0 : Vec Ideal S5000x64 .f32) (x1 : Vec Ideal S64x64 .f32) (p : Fin 5000) (j : Fin 64) :
    k1_pay2 (F := Ideal) x0 x1 (ix2 p j) = ∑ q : Fin 64, x0 (ix2 p q) * x1 (ix2 q j) := by
  unfold k1_pay2 k1_pay1
  dsimp only
  rw [shapeCast_self, shapeCast_self]
  exact unitProduct1_ix2 _ _ p j

/-- The body's second product at (p, j): the sum over q of x0 (p, q) · x2 (q, j). -/
theorem secondProduct1_ix2 (x0 : Vec Ideal S5000x64 .f32) (x2 : Vec Ideal S64x64 .f32) (p : Fin 5000) (j : Fin 64) :
    k1_pay3 (F := Ideal) x0 x2 (ix2 p j) = ∑ q : Fin 64, x0 (ix2 p q) * x2 (ix2 q j) := by
  unfold k1_pay3 k1_pay1
  dsimp only
  rw [shapeCast_self, shapeCast_self]
  exact unitProduct1_ix2 _ _ p j

/-- The printed index maps over the ten points: the row windows (0, 3, 4) sit at block (t, 0), the weights' at (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The first window's block at point `t` is rows 5000 t … 5000 t + 4999 of its array. -/
theorem blockRows1 (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c (Pipeline.arrRef spec1 0) : S50000x64.Idx → Ideal .f32) k := by
  obtain ⟨e0, e1, -⟩ := idx_facts1 t
  unfold iblk1
  rw [View.read_apply]
  show V c (Pipeline.arrRef spec1 0) (((cfg1.win 0).blk t).view.emb x) = V c (Pipeline.arrRef spec1 0) k
  refine congrArg (V c (Pipeline.arrRef spec1 0)) (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- The second window's one block is its whole array. -/
theorem weight1_1 (c : Dev nD) (t : Fin cfg1.N) (x : S64x64.Idx) (k : S64x64.Idx)
    (hk0 : (k 0).val = (x 0).val) (hk1 : (k 1).val = (x 1).val) :
    (iblk1 V c 1 t : Vec Ideal S64x64 .f32) x = (V c (Pipeline.arrRef spec1 1) : S64x64.Idx → Ideal .f32) k := by
  obtain ⟨-, -, e0, e1, -⟩ := idx_facts1 t
  unfold iblk1
  rw [View.read_apply]
  show V c (Pipeline.arrRef spec1 1) (((cfg1.win 1).blk t).view.emb x) = V c (Pipeline.arrRef spec1 1) k
  refine congrArg (V c (Pipeline.arrRef spec1 1)) (funext fun a => Fin.ext ?_)
  match a with
  | ⟨0, _⟩ => show win1_1.index t (0 : Fin 2) * 64 + 1 * (x 0).val = (k 0).val; rw [e0, hk0]; omega
  | ⟨1, _⟩ => show win1_1.index t (1 : Fin 2) * 64 + 1 * (x 1).val = (k 1).val; rw [e1, hk1]; omega

/-- The third window's one block is its whole array. -/
theorem weight1_2 (c : Dev nD) (t : Fin cfg1.N) (x : S64x64.Idx) (k : S64x64.Idx)
    (hk0 : (k 0).val = (x 0).val) (hk1 : (k 1).val = (x 1).val) :
    (iblk1 V c 2 t : Vec Ideal S64x64 .f32) x = (V c (Pipeline.arrRef spec1 2) : S64x64.Idx → Ideal .f32) k := by
  obtain ⟨-, -, -, -, e0, e1, -⟩ := idx_facts1 t
  unfold iblk1
  rw [View.read_apply]
  show V c (Pipeline.arrRef spec1 2) (((cfg1.win 2).blk t).view.emb x) = V c (Pipeline.arrRef spec1 2) k
  refine congrArg (V c (Pipeline.arrRef spec1 2)) (funext fun a => Fin.ext ?_)
  match a with
  | ⟨0, _⟩ => show win1_2.index t (0 : Fin 2) * 64 + 1 * (x 0).val = (k 0).val; rw [e0, hk0]; omega
  | ⟨1, _⟩ => show win1_2.index t (1 : Fin 2) * 64 + 1 * (x 1).val = (k 1).val; rw [e1, hk1]; omega

/-- What point `t` writes back to window 3's array is block `t` of the product of the first array by the first weight:
    row p of the block is row 5000 t + p of the first array, and the weight's one block is the weight. -/
theorem flushed1_3_eq (c : Dev nD) (t : Fin cfg1.N) :
    (dat1 V c).flushed 3 t = ((cfg1.win 3).blk t).view.read (Elt Ideal)
      (prod1 (V c (Pipeline.arrRef spec1 0)) (V c (Pipeline.arrRef spec1 1))) := by
  show (cfg1.win 3).cut (grid1.coords t) ((dat1 V c).after 3 t) = _
  rw [after1_3]
  unfold out1_3
  rw [View.canon_unit_zero zeroOffsets1]
  simp only [View.ld_unit_zero (S := S5000x64) zeroOffsets1, View.ld_unit_zero (S := S64x64) zeroOffsets1]
  refine funext fun (y : S5000x64.Idx) => ?_
  obtain ⟨p, j, rfl⟩ : ∃ (p : Fin 5000) (j : Fin 64), y = ix2 p j := ⟨y 0, y 1, eq_ix2 y⟩
  obtain ⟨-, -, -, -, -, -, e30, e31, e40, e41⟩ := idx_facts1 t
  show k1_pay2 (F := Ideal) (iblk1 V c 0 t) (iblk1 V c 1 t) (ix2 p j)
    = prod1 (V c (Pipeline.arrRef spec1 0)) (V c (Pipeline.arrRef spec1 1)) (((cfg1.win 3).blk t).view.emb (ix2 p j))
  refine (firstProduct1_ix2 _ _ p j).trans ?_
  have hp : p.val < 5000 := p.isLt
  have ht : t.val < 10 := lt_of_lt_of_eq t.isLt N_1
  refine prodAt1_congr _ _ _ _ p ⟨5000 * t.val + p.val, by omega⟩ j _ ?_ (fun q => ?_) (fun q => ?_)
  · show (⟨5000 * t.val + p.val, _⟩ : Fin 50000).val = win1_3.index t (0 : Fin 2) * 5000 + 1 * p.val
    rw [e30]; show 5000 * t.val + p.val = _; omega
  · exact blockRows1 V c t _ _ (by show 5000 * t.val + p.val = 5000 * t.val + p.val; rfl) rfl
  · exact weight1_1 V c t _ _ (by show q.val = q.val; rfl) (by show win1_3.index t (1 : Fin 2) * 64 + 1 * j.val = j.val; rw [e31]; omega)

/-- What point `t` writes back to window 4's array is block `t` of the product of the first array by the second weight:
    row p of the block is row 5000 t + p of the first array, and the weight's one block is the weight. -/
theorem flushed1_4_eq (c : Dev nD) (t : Fin cfg1.N) :
    (dat1 V c).flushed 4 t = ((cfg1.win 4).blk t).view.read (Elt Ideal)
      (prod1 (V c (Pipeline.arrRef spec1 0)) (V c (Pipeline.arrRef spec1 2))) := by
  show (cfg1.win 4).cut (grid1.coords t) ((dat1 V c).after 4 t) = _
  rw [after1_4]
  unfold out1_4
  rw [View.canon_unit_zero zeroOffsets1]
  simp only [View.ld_unit_zero (S := S5000x64) zeroOffsets1, View.ld_unit_zero (S := S64x64) zeroOffsets1]
  refine funext fun (y : S5000x64.Idx) => ?_
  obtain ⟨p, j, rfl⟩ : ∃ (p : Fin 5000) (j : Fin 64), y = ix2 p j := ⟨y 0, y 1, eq_ix2 y⟩
  obtain ⟨-, -, -, -, -, -, e30, e31, e40, e41⟩ := idx_facts1 t
  show k1_pay3 (F := Ideal) (iblk1 V c 0 t) (iblk1 V c 2 t) (ix2 p j)
    = prod1 (V c (Pipeline.arrRef spec1 0)) (V c (Pipeline.arrRef spec1 2)) (((cfg1.win 4).blk t).view.emb (ix2 p j))
  refine (secondProduct1_ix2 _ _ p j).trans ?_
  have hp : p.val < 5000 := p.isLt
  have ht : t.val < 10 := lt_of_lt_of_eq t.isLt N_1
  refine prodAt1_congr _ _ _ _ p ⟨5000 * t.val + p.val, by omega⟩ j _ ?_ (fun q => ?_) (fun q => ?_)
  · show (⟨5000 * t.val + p.val, _⟩ : Fin 50000).val = win1_4.index t (0 : Fin 2) * 5000 + 1 * p.val
    rw [e40]; show 5000 * t.val + p.val = _; omega
  · exact blockRows1 V c t _ _ (by show 5000 * t.val + p.val = 5000 * t.val + p.val; rfl) rfl
  · exact weight1_2 V c t _ _ (by show q.val = q.val; rfl) (by show win1_4.index t (1 : Fin 2) * 64 + 1 * j.val = j.val; rw [e41]; omega)

/-- An index of window 3's array is in point `t`'s block iff each coordinate is in the block's range on its axis. -/
theorem mem_blk1_3 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v34_0).slice (win1_3.rect t)).set ↔ _
  rw [View.set_slice_whole, Rect.mem_set_unit]
  exact Iff.rfl

/-- The ten blocks of 5000 rows tile window 3's array: row r is in the block of point r / 5000. -/
theorem tiled1_3 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e30, e31, e40, e41⟩ := idx_facts1 t
  refine ⟨t, flush1_3 t, ?_⟩
  rw [mem_blk1_3]
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 64 ≤ (i 1).val ∧ (i 1).val < win1_3.index t (1 : Fin 2) * 64 + 64
    rw [e31]; omega

/-- An index of window 4's array is in point `t`'s block iff each coordinate is in the block's range on its axis. -/
theorem mem_blk1_4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v34_1).slice (win1_4.rect t)).set ↔ _
  rw [View.set_slice_whole, Rect.mem_set_unit]
  exact Iff.rfl

/-- The ten blocks of 5000 rows tile window 4's array: row r is in the block of point r / 5000. -/
theorem tiled1_4 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e30, e31, e40, e41⟩ := idx_facts1 t
  refine ⟨t, flush1_4 t, ?_⟩
  rw [mem_blk1_4]
  intro a
  match a with
  | ⟨0, _⟩ =>
    show win1_4.index t (0 : Fin 2) * 5000 ≤ (i 0).val ∧ (i 0).val < win1_4.index t (0 : Fin 2) * 5000 + 5000
    rw [e40, ht]; omega
  | ⟨1, _⟩ =>
    show win1_4.index t (1 : Fin 2) * 64 ≤ (i 1).val ∧ (i 1).val < win1_4.index t (1 : Fin 2) * 64 + 64
    rw [e41]; omega

/-- Window 3's array after the region: the product of the region's first array by its second. -/
theorem arr1_3 (c : Dev nD) :
    (dat1 (F := Ideal) V c).arrAt 3 cfg1.N = prod1 (V c (Pipeline.arrRef spec1 0)) (V c (Pipeline.arrRef spec1 1)) :=
  (dat1 (F := Ideal) V c).arrAt_eq_of_cover 3 _ (fun t _ => flushed1_3_eq V c t) tiled1_3

/-- Entry (p, j) of window 3's array after the region: the sum over q of H (p, q) · W (q, j), for A the array after
    the region and H, W the region's first and second arrays as it finds them. -/
theorem arr1_3_at (c : Dev nD) (A H : FVec Ideal ⟨2, ![50000, 64]⟩ .f32) (W : FVec Ideal ⟨2, ![64, 64]⟩ .f32)
    (hA : (dat1 (F := Ideal) V c).arrAt 3 cfg1.N = A)
    (hH : V c (Pipeline.arrRef spec1 0) = H) (hW : V c (Pipeline.arrRef spec1 1) = W)
    (p : Fin 50000) (j : Fin 64) :
    A (ix2 p j) = ∑ q : Fin 64, H (ix2 p q) * W (ix2 q j) := by
  subst hA hH hW
  exact congrFun (arr1_3 V c) (ix2 p j)

/-- Window 4's array after the region: the product of the region's first array by its third. -/
theorem arr1_4 (c : Dev nD) :
    (dat1 (F := Ideal) V c).arrAt 4 cfg1.N = prod1 (V c (Pipeline.arrRef spec1 0)) (V c (Pipeline.arrRef spec1 2)) :=
  (dat1 (F := Ideal) V c).arrAt_eq_of_cover 4 _ (fun t _ => flushed1_4_eq V c t) tiled1_4

/-- Entry (p, j) of window 4's array after the region: the sum over q of H (p, q) · W (q, j), for A the array after
    the region and H, W the region's first and third arrays as it finds them. -/
theorem arr1_4_at (c : Dev nD) (A H : FVec Ideal ⟨2, ![50000, 64]⟩ .f32) (W : FVec Ideal ⟨2, ![64, 64]⟩ .f32)
    (hA : (dat1 (F := Ideal) V c).arrAt 4 cfg1.N = A)
    (hH : V c (Pipeline.arrRef spec1 0) = H) (hW : V c (Pipeline.arrRef spec1 2) = W)
    (p : Fin 50000) (j : Fin 64) :
    A (ix2 p j) = ∑ q : Fin 64, H (ix2 p q) * W (ix2 q j) := by
  subst hA hH hW
  exact congrFun (arr1_4 V c) (ix2 p j)

end Cert.KernelIdeal.KVal

end
-- ==== Proof.RegDual3.lean ====
/-
  The dual-product region 3: each of its two output arrays, after the region's ten points have run, is the
  [50000, 64] array whose entry (p, j) is the sum over q of H (p, q) · W (q, j), H the region's first array and W its
  second (window 3) or third (window 4) array, as the region finds them.

  The body multiplies a block of 5000 rows of H by each whole weight (the narrowing to the half-width float format is the
  identity over the extended reals); point t of the grid reads and writes rows 5000 t … 5000 t + 4999, and the ten
  blocks of rows tile the array.
-/
import proofs.«155966_j60198261620971_1_alg».proof.Proof.Gen.KernelIdeal.Frame
import proofs.«155966_j60198261620971_1_alg».proof.Proof.LibAffine
import proofs.«155966_j60198261620971_1_alg».proof.Proof.LibPlainDot
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-- The zero offsets of a whole-buffer access. -/
theorem zeroOffsets3 : (![0, 0] : Fin 2 → Nat) = fun _ => 0 := funext fun a => by fin_cases a <;> rfl

/-- Entry (p, j) of the product H · W of an [a, 64] array by a [64, 64] array: the sum over q of H (p, q) · W (q, j). -/
def prodAt3 {a : ℕ} (H : FVec Ideal ⟨2, ![a, 64]⟩ .f32) (W : FVec Ideal ⟨2, ![64, 64]⟩ .f32) (p : Fin a) (j : Fin 64) : Ideal .f32 :=
  ∑ q : Fin 64, H (ix2 p q) * W (ix2 q j)

/-- The product H · W as a [50000, 64] array. -/
def prod3 (H : FVec Ideal ⟨2, ![50000, 64]⟩ .f32) (W : FVec Ideal ⟨2, ![64, 64]⟩ .f32) : FVec Ideal ⟨2, ![50000, 64]⟩ .f32 :=
  fun i => prodAt3 H W (i 0) (i 1)

/-- Entry (p, j) of a product reads only row p of the left array and column j of the weight: a sum of products of a
    block of rows x and a weight w that agree there with H and W, at an index k that is (p', j), is H · W at k. -/
theorem prodAt3_congr {a' : ℕ} (x : FVec Ideal ⟨2, ![a', 64]⟩ .f32) (w : FVec Ideal ⟨2, ![64, 64]⟩ .f32)
    (H : FVec Ideal ⟨2, ![50000, 64]⟩ .f32) (W : FVec Ideal ⟨2, ![64, 64]⟩ .f32)
    (p : Fin a') (p' : Fin 50000) (j : Fin 64) (k : (⟨2, ![50000, 64]⟩ : Shape).Idx)
    (hk0 : p'.val = (k 0).val)
    (hx : ∀ q : Fin 64, x (ix2 p q) = H (ix2 p' q)) (hw : ∀ q : Fin 64, w (ix2 q j) = W (ix2 q (k 1))) :
    ∑ q : Fin 64, x (ix2 p q) * w (ix2 q j) = prod3 H W k := by
  have e0 : p' = k 0 := Fin.ext hk0
  subst e0
  unfold prod3 prodAt3
  exact Finset.sum_congr rfl fun q _ => by rw [hx q, hw q]

/-- The plain [5000, 64] × [64, 64] product on the matrix unit into the zero accumulator, read at (p, j). -/
theorem unitProduct3_ix2 {φ₁ φ₂ : FTy} (L : FVec Ideal S5000x64 φ₁) (R : FVec Ideal S64x64 φ₂) (p : Fin 5000) (j : Fin 64) :
    FloatOps.matmul dot_S5000x64_S64x64_S5000x64_1_0_0_1_n_n none L R (constant S5000x64 .f32 0x00000000#32) (ix2 p j)
      = ∑ q : Fin 64, L (ix2 p q) * R (ix2 q j) :=
  Cert.LibAffine.coreDot_ix2 dot_S5000x64_S64x64_S5000x64_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none L R p j

/-- The body's first product at (p, j): the sum over q of x0 (p, q) · x1 (q, j). -/
theorem firstProduct3_ix2 (x0 : Vec Ideal S5000x64 .f32) (x1 : Vec Ideal S64x64 .f32) (p : Fin 5000) (j : Fin 64) :
    k3_pay2 (F := Ideal) x0 x1 (ix2 p j) = ∑ q : Fin 64, x0 (ix2 p q) * x1 (ix2 q j) := by
  unfold k3_pay2 k3_pay1
  dsimp only
  rw [shapeCast_self, shapeCast_self]
  exact unitProduct3_ix2 _ _ p j

/-- The body's second product at (p, j): the sum over q of x0 (p, q) · x2 (q, j). -/
theorem secondProduct3_ix2 (x0 : Vec Ideal S5000x64 .f32) (x2 : Vec Ideal S64x64 .f32) (p : Fin 5000) (j : Fin 64) :
    k3_pay3 (F := Ideal) x0 x2 (ix2 p j) = ∑ q : Fin 64, x0 (ix2 p q) * x2 (ix2 q j) := by
  unfold k3_pay3 k3_pay1
  dsimp only
  rw [shapeCast_self, shapeCast_self]
  exact unitProduct3_ix2 _ _ p j

/-- The printed index maps over the ten points: the row windows (0, 3, 4) sit at block (t, 0), the weights' at (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The first window's block at point `t` is rows 5000 t … 5000 t + 4999 of its array. -/
theorem blockRows3 (c : Dev nD) (t : Fin cfg3.N) (x : S5000x64.Idx) (k : S50000x64.Idx)
    (hk0 : (k 0).val = 5000 * t.val + (x 0).val) (hk1 : (k 1).val = (x 1).val) :
    (iblk3 V c 0 t : Vec Ideal S5000x64 .f32) x = (V c (Pipeline.arrRef spec3 0) : S50000x64.Idx → Ideal .f32) k := by
  obtain ⟨e0, e1, -⟩ := idx_facts3 t
  unfold iblk3
  rw [View.read_apply]
  show V c (Pipeline.arrRef spec3 0) (((cfg3.win 0).blk t).view.emb x) = V c (Pipeline.arrRef spec3 0) k
  refine congrArg (V c (Pipeline.arrRef spec3 0)) (funext fun a => Fin.ext ?_)
  match a with
  | ⟨0, _⟩ => show win3_0.index t (0 : Fin 2) * 5000 + 1 * (x 0).val = (k 0).val; rw [e0, hk0]; omega
  | ⟨1, _⟩ => show win3_0.index t (1 : Fin 2) * 64 + 1 * (x 1).val = (k 1).val; rw [e1, hk1]; omega

/-- The second window's one block is its whole array. -/
theorem weight3_1 (c : Dev nD) (t : Fin cfg3.N) (x : S64x64.Idx) (k : S64x64.Idx)
    (hk0 : (k 0).val = (x 0).val) (hk1 : (k 1).val = (x 1).val) :
    (iblk3 V c 1 t : Vec Ideal S64x64 .f32) x = (V c (Pipeline.arrRef spec3 1) : S64x64.Idx → Ideal .f32) k := by
  obtain ⟨-, -, e0, e1, -⟩ := idx_facts3 t
  unfold iblk3
  rw [View.read_apply]
  show V c (Pipeline.arrRef spec3 1) (((cfg3.win 1).blk t).view.emb x) = V c (Pipeline.arrRef spec3 1) k
  refine congrArg (V c (Pipeline.arrRef spec3 1)) (funext fun a => Fin.ext ?_)
  match a with
  | ⟨0, _⟩ => show win3_1.index t (0 : Fin 2) * 64 + 1 * (x 0).val = (k 0).val; rw [e0, hk0]; omega
  | ⟨1, _⟩ => show win3_1.index t (1 : Fin 2) * 64 + 1 * (x 1).val = (k 1).val; rw [e1, hk1]; omega

/-- The third window's one block is its whole array. -/
theorem weight3_2 (c : Dev nD) (t : Fin cfg3.N) (x : S64x64.Idx) (k : S64x64.Idx)
    (hk0 : (k 0).val = (x 0).val) (hk1 : (k 1).val = (x 1).val) :
    (iblk3 V c 2 t : Vec Ideal S64x64 .f32) x = (V c (Pipeline.arrRef spec3 2) : S64x64.Idx → Ideal .f32) k := by
  obtain ⟨-, -, -, -, e0, e1, -⟩ := idx_facts3 t
  unfold iblk3
  rw [View.read_apply]
  show V c (Pipeline.arrRef spec3 2) (((cfg3.win 2).blk t).view.emb x) = V c (Pipeline.arrRef spec3 2) k
  refine congrArg (V c (Pipeline.arrRef spec3 2)) (funext fun a => Fin.ext ?_)
  match a with
  | ⟨0, _⟩ => show win3_2.index t (0 : Fin 2) * 64 + 1 * (x 0).val = (k 0).val; rw [e0, hk0]; omega
  | ⟨1, _⟩ => show win3_2.index t (1 : Fin 2) * 64 + 1 * (x 1).val = (k 1).val; rw [e1, hk1]; omega

/-- What point `t` writes back to window 3's array is block `t` of the product of the first array by the first weight:
    row p of the block is row 5000 t + p of the first array, and the weight's one block is the weight. -/
theorem flushed3_3_eq (c : Dev nD) (t : Fin cfg3.N) :
    (dat3 V c).flushed 3 t = ((cfg3.win 3).blk t).view.read (Elt Ideal)
      (prod3 (V c (Pipeline.arrRef spec3 0)) (V c (Pipeline.arrRef spec3 1))) := by
  show (cfg3.win 3).cut (grid3.coords t) ((dat3 V c).after 3 t) = _
  rw [after3_3]
  unfold out3_3
  rw [View.canon_unit_zero zeroOffsets3]
  simp only [View.ld_unit_zero (S := S5000x64) zeroOffsets3, View.ld_unit_zero (S := S64x64) zeroOffsets3]
  refine funext fun (y : S5000x64.Idx) => ?_
  obtain ⟨p, j, rfl⟩ : ∃ (p : Fin 5000) (j : Fin 64), y = ix2 p j := ⟨y 0, y 1, eq_ix2 y⟩
  obtain ⟨-, -, -, -, -, -, e30, e31, e40, e41⟩ := idx_facts3 t
  show k3_pay2 (F := Ideal) (iblk3 V c 0 t) (iblk3 V c 1 t) (ix2 p j)
    = prod3 (V c (Pipeline.arrRef spec3 0)) (V c (Pipeline.arrRef spec3 1)) (((cfg3.win 3).blk t).view.emb (ix2 p j))
  refine (firstProduct3_ix2 _ _ p j).trans ?_
  have hp : p.val < 5000 := p.isLt
  have ht : t.val < 10 := lt_of_lt_of_eq t.isLt N_3
  refine prodAt3_congr _ _ _ _ p ⟨5000 * t.val + p.val, by omega⟩ j _ ?_ (fun q => ?_) (fun q => ?_)
  · show (⟨5000 * t.val + p.val, _⟩ : Fin 50000).val = win3_3.index t (0 : Fin 2) * 5000 + 1 * p.val
    rw [e30]; show 5000 * t.val + p.val = _; omega
  · exact blockRows3 V c t _ _ (by show 5000 * t.val + p.val = 5000 * t.val + p.val; rfl) rfl
  · exact weight3_1 V c t _ _ (by show q.val = q.val; rfl) (by show win3_3.index t (1 : Fin 2) * 64 + 1 * j.val = j.val; rw [e31]; omega)

/-- What point `t` writes back to window 4's array is block `t` of the product of the first array by the second weight:
    row p of the block is row 5000 t + p of the first array, and the weight's one block is the weight. -/
theorem flushed3_4_eq (c : Dev nD) (t : Fin cfg3.N) :
    (dat3 V c).flushed 4 t = ((cfg3.win 4).blk t).view.read (Elt Ideal)
      (prod3 (V c (Pipeline.arrRef spec3 0)) (V c (Pipeline.arrRef spec3 2))) := by
  show (cfg3.win 4).cut (grid3.coords t) ((dat3 V c).after 4 t) = _
  rw [after3_4]
  unfold out3_4
  rw [View.canon_unit_zero zeroOffsets3]
  simp only [View.ld_unit_zero (S := S5000x64) zeroOffsets3, View.ld_unit_zero (S := S64x64) zeroOffsets3]
  refine funext fun (y : S5000x64.Idx) => ?_
  obtain ⟨p, j, rfl⟩ : ∃ (p : Fin 5000) (j : Fin 64), y = ix2 p j := ⟨y 0, y 1, eq_ix2 y⟩
  obtain ⟨-, -, -, -, -, -, e30, e31, e40, e41⟩ := idx_facts3 t
  show k3_pay3 (F := Ideal) (iblk3 V c 0 t) (iblk3 V c 2 t) (ix2 p j)
    = prod3 (V c (Pipeline.arrRef spec3 0)) (V c (Pipeline.arrRef spec3 2)) (((cfg3.win 4).blk t).view.emb (ix2 p j))
  refine (secondProduct3_ix2 _ _ p j).trans ?_
  have hp : p.val < 5000 := p.isLt
  have ht : t.val < 10 := lt_of_lt_of_eq t.isLt N_3
  refine prodAt3_congr _ _ _ _ p ⟨5000 * t.val + p.val, by omega⟩ j _ ?_ (fun q => ?_) (fun q => ?_)
  · show (⟨5000 * t.val + p.val, _⟩ : Fin 50000).val = win3_4.index t (0 : Fin 2) * 5000 + 1 * p.val
    rw [e40]; show 5000 * t.val + p.val = _; omega
  · exact blockRows3 V c t _ _ (by show 5000 * t.val + p.val = 5000 * t.val + p.val; rfl) rfl
  · exact weight3_2 V c t _ _ (by show q.val = q.val; rfl) (by show win3_4.index t (1 : Fin 2) * 64 + 1 * j.val = j.val; rw [e41]; omega)

/-- An index of window 3's array is in point `t`'s block iff each coordinate is in the block's range on its axis. -/
theorem mem_blk3_3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v75_0).slice (win3_3.rect t)).set ↔ _
  rw [View.set_slice_whole, Rect.mem_set_unit]
  exact Iff.rfl

/-- The ten blocks of 5000 rows tile window 3's array: row r is in the block of point r / 5000. -/
theorem tiled3_3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, e30, e31, e40, e41⟩ := idx_facts3 t
  refine ⟨t, flush3_3 t, ?_⟩
  rw [mem_blk3_3]
  intro a
  match a with
  | ⟨0, _⟩ =>
    show win3_3.index t (0 : Fin 2) * 5000 ≤ (i 0).val ∧ (i 0).val < win3_3.index t (0 : Fin 2) * 5000 + 5000
    rw [e30, ht]; omega
  | ⟨1, _⟩ =>
    show win3_3.index t (1 : Fin 2) * 64 ≤ (i 1).val ∧ (i 1).val < win3_3.index t (1 : Fin 2) * 64 + 64
    rw [e31]; omega

/-- An index of window 4's array is in point `t`'s block iff each coordinate is in the block's range on its axis. -/
theorem mem_blk3_4 (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v75_1).slice (win3_4.rect t)).set ↔ _
  rw [View.set_slice_whole, Rect.mem_set_unit]
  exact Iff.rfl

/-- The ten blocks of 5000 rows tile window 4's array: row r is in the block of point r / 5000. -/
theorem tiled3_4 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, e30, e31, e40, e41⟩ := idx_facts3 t
  refine ⟨t, flush3_4 t, ?_⟩
  rw [mem_blk3_4]
  intro a
  match a with
  | ⟨0, _⟩ =>
    show win3_4.index t (0 : Fin 2) * 5000 ≤ (i 0).val ∧ (i 0).val < win3_4.index t (0 : Fin 2) * 5000 + 5000
    rw [e40, ht]; omega
  | ⟨1, _⟩ =>
    show win3_4.index t (1 : Fin 2) * 64 ≤ (i 1).val ∧ (i 1).val < win3_4.index t (1 : Fin 2) * 64 + 64
    rw [e41]; omega

/-- Window 3's array after the region: the product of the region's first array by its second. -/
theorem arr3_3 (c : Dev nD) :
    (dat3 (F := Ideal) V c).arrAt 3 cfg3.N = prod3 (V c (Pipeline.arrRef spec3 0)) (V c (Pipeline.arrRef spec3 1)) :=
  (dat3 (F := Ideal) V c).arrAt_eq_of_cover 3 _ (fun t _ => flushed3_3_eq V c t) tiled3_3

/-- Entry (p, j) of window 3's array after the region: the sum over q of H (p, q) · W (q, j), for A the array after
    the region and H, W the region's first and second arrays as it finds them. -/
theorem arr3_3_at (c : Dev nD) (A H : FVec Ideal ⟨2, ![50000, 64]⟩ .f32) (W : FVec Ideal ⟨2, ![64, 64]⟩ .f32)
    (hA : (dat3 (F := Ideal) V c).arrAt 3 cfg3.N = A)
    (hH : V c (Pipeline.arrRef spec3 0) = H) (hW : V c (Pipeline.arrRef spec3 1) = W)
    (p : Fin 50000) (j : Fin 64) :
    A (ix2 p j) = ∑ q : Fin 64, H (ix2 p q) * W (ix2 q j) := by
  subst hA hH hW
  exact congrFun (arr3_3 V c) (ix2 p j)

/-- Window 4's array after the region: the product of the region's first array by its third. -/
theorem arr3_4 (c : Dev nD) :
    (dat3 (F := Ideal) V c).arrAt 4 cfg3.N = prod3 (V c (Pipeline.arrRef spec3 0)) (V c (Pipeline.arrRef spec3 2)) :=
  (dat3 (F := Ideal) V c).arrAt_eq_of_cover 4 _ (fun t _ => flushed3_4_eq V c t) tiled3_4

/-- Entry (p, j) of window 4's array after the region: the sum over q of H (p, q) · W (q, j), for A the array after
    the region and H, W the region's first and third arrays as it finds them. -/
theorem arr3_4_at (c : Dev nD) (A H : FVec Ideal ⟨2, ![50000, 64]⟩ .f32) (W : FVec Ideal ⟨2, ![64, 64]⟩ .f32)
    (hA : (dat3 (F := Ideal) V c).arrAt 4 cfg3.N = A)
    (hH : V c (Pipeline.arrRef spec3 0) = H) (hW : V c (Pipeline.arrRef spec3 2) = W)
    (p : Fin 50000) (j : Fin 64) :
    A (ix2 p j) = ∑ q : Fin 64, H (ix2 p q) * W (ix2 q j) := by
  subst hA hH hW
  exact congrFun (arr3_4 V c) (ix2 p j)

end Cert.KernelIdeal.KVal

end
-- ==== Proof.RegDual5.lean ====
/-
  The dual-product region 5: each of its two output arrays, after the region's ten points have run, is the
  [50000, 64] array whose entry (p, j) is the sum over q of H (p, q) · W (q, j), H the region's first array and W its
  second (window 3) or third (window 4) array, as the region finds them.

  The body multiplies a block of 5000 rows of H by each whole weight (the narrowing to the half-width float format is the
  identity over the extended reals); point t of the grid reads and writes rows 5000 t … 5000 t + 4999, and the ten
  blocks of rows tile the array.
-/
import proofs.«155966_j60198261620971_1_alg».proof.Proof.Gen.KernelIdeal.Frame
import proofs.«155966_j60198261620971_1_alg».proof.Proof.LibAffine
import proofs.«155966_j60198261620971_1_alg».proof.Proof.LibPlainDot
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-- The zero offsets of a whole-buffer access. -/
theorem zeroOffsets5 : (![0, 0] : Fin 2 → Nat) = fun _ => 0 := funext fun a => by fin_cases a <;> rfl

/-- Entry (p, j) of the product H · W of an [a, 64] array by a [64, 64] array: the sum over q of H (p, q) · W (q, j). -/
def prodAt5 {a : ℕ} (H : FVec Ideal ⟨2, ![a, 64]⟩ .f32) (W : FVec Ideal ⟨2, ![64, 64]⟩ .f32) (p : Fin a) (j : Fin 64) : Ideal .f32 :=
  ∑ q : Fin 64, H (ix2 p q) * W (ix2 q j)

/-- The product H · W as a [50000, 64] array. -/
def prod5 (H : FVec Ideal ⟨2, ![50000, 64]⟩ .f32) (W : FVec Ideal ⟨2, ![64, 64]⟩ .f32) : FVec Ideal ⟨2, ![50000, 64]⟩ .f32 :=
  fun i => prodAt5 H W (i 0) (i 1)

/-- Entry (p, j) of a product reads only row p of the left array and column j of the weight: a sum of products of a
    block of rows x and a weight w that agree there with H and W, at an index k that is (p', j), is H · W at k. -/
theorem prodAt5_congr {a' : ℕ} (x : FVec Ideal ⟨2, ![a', 64]⟩ .f32) (w : FVec Ideal ⟨2, ![64, 64]⟩ .f32)
    (H : FVec Ideal ⟨2, ![50000, 64]⟩ .f32) (W : FVec Ideal ⟨2, ![64, 64]⟩ .f32)
    (p : Fin a') (p' : Fin 50000) (j : Fin 64) (k : (⟨2, ![50000, 64]⟩ : Shape).Idx)
    (hk0 : p'.val = (k 0).val)
    (hx : ∀ q : Fin 64, x (ix2 p q) = H (ix2 p' q)) (hw : ∀ q : Fin 64, w (ix2 q j) = W (ix2 q (k 1))) :
    ∑ q : Fin 64, x (ix2 p q) * w (ix2 q j) = prod5 H W k := by
  have e0 : p' = k 0 := Fin.ext hk0
  subst e0
  unfold prod5 prodAt5
  exact Finset.sum_congr rfl fun q _ => by rw [hx q, hw q]

/-- The plain [5000, 64] × [64, 64] product on the matrix unit into the zero accumulator, read at (p, j). -/
theorem unitProduct5_ix2 {φ₁ φ₂ : FTy} (L : FVec Ideal S5000x64 φ₁) (R : FVec Ideal S64x64 φ₂) (p : Fin 5000) (j : Fin 64) :
    FloatOps.matmul dot_S5000x64_S64x64_S5000x64_1_0_0_1_n_n none L R (constant S5000x64 .f32 0x00000000#32) (ix2 p j)
      = ∑ q : Fin 64, L (ix2 p q) * R (ix2 q j) :=
  Cert.LibAffine.coreDot_ix2 dot_S5000x64_S64x64_S5000x64_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none L R p j

/-- The body's first product at (p, j): the sum over q of x0 (p, q) · x1 (q, j). -/
theorem firstProduct5_ix2 (x0 : Vec Ideal S5000x64 .f32) (x1 : Vec Ideal S64x64 .f32) (p : Fin 5000) (j : Fin 64) :
    k5_pay2 (F := Ideal) x0 x1 (ix2 p j) = ∑ q : Fin 64, x0 (ix2 p q) * x1 (ix2 q j) := by
  unfold k5_pay2 k5_pay1
  dsimp only
  rw [shapeCast_self, shapeCast_self]
  exact unitProduct5_ix2 _ _ p j

/-- The body's second product at (p, j): the sum over q of x0 (p, q) · x2 (q, j). -/
theorem secondProduct5_ix2 (x0 : Vec Ideal S5000x64 .f32) (x2 : Vec Ideal S64x64 .f32) (p : Fin 5000) (j : Fin 64) :
    k5_pay3 (F := Ideal) x0 x2 (ix2 p j) = ∑ q : Fin 64, x0 (ix2 p q) * x2 (ix2 q j) := by
  unfold k5_pay3 k5_pay1
  dsimp only
  rw [shapeCast_self, shapeCast_self]
  exact unitProduct5_ix2 _ _ p j

/-- The printed index maps over the ten points: the row windows (0, 3, 4) sit at block (t, 0), the weights' at (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- The first window's block at point `t` is rows 5000 t … 5000 t + 4999 of its array. -/
theorem blockRows5 (c : Dev nD) (t : Fin cfg5.N) (x : S5000x64.Idx) (k : S50000x64.Idx)
    (hk0 : (k 0).val = 5000 * t.val + (x 0).val) (hk1 : (k 1).val = (x 1).val) :
    (iblk5 V c 0 t : Vec Ideal S5000x64 .f32) x = (V c (Pipeline.arrRef spec5 0) : S50000x64.Idx → Ideal .f32) k := by
  obtain ⟨e0, e1, -⟩ := idx_facts5 t
  unfold iblk5
  rw [View.read_apply]
  show V c (Pipeline.arrRef spec5 0) (((cfg5.win 0).blk t).view.emb x) = V c (Pipeline.arrRef spec5 0) k
  refine congrArg (V c (Pipeline.arrRef spec5 0)) (funext fun a => Fin.ext ?_)
  match a with
  | ⟨0, _⟩ => show win5_0.index t (0 : Fin 2) * 5000 + 1 * (x 0).val = (k 0).val; rw [e0, hk0]; omega
  | ⟨1, _⟩ => show win5_0.index t (1 : Fin 2) * 64 + 1 * (x 1).val = (k 1).val; rw [e1, hk1]; omega

/-- The second window's one block is its whole array. -/
theorem weight5_1 (c : Dev nD) (t : Fin cfg5.N) (x : S64x64.Idx) (k : S64x64.Idx)
    (hk0 : (k 0).val = (x 0).val) (hk1 : (k 1).val = (x 1).val) :
    (iblk5 V c 1 t : Vec Ideal S64x64 .f32) x = (V c (Pipeline.arrRef spec5 1) : S64x64.Idx → Ideal .f32) k := by
  obtain ⟨-, -, e0, e1, -⟩ := idx_facts5 t
  unfold iblk5
  rw [View.read_apply]
  show V c (Pipeline.arrRef spec5 1) (((cfg5.win 1).blk t).view.emb x) = V c (Pipeline.arrRef spec5 1) k
  refine congrArg (V c (Pipeline.arrRef spec5 1)) (funext fun a => Fin.ext ?_)
  match a with
  | ⟨0, _⟩ => show win5_1.index t (0 : Fin 2) * 64 + 1 * (x 0).val = (k 0).val; rw [e0, hk0]; omega
  | ⟨1, _⟩ => show win5_1.index t (1 : Fin 2) * 64 + 1 * (x 1).val = (k 1).val; rw [e1, hk1]; omega

/-- The third window's one block is its whole array. -/
theorem weight5_2 (c : Dev nD) (t : Fin cfg5.N) (x : S64x64.Idx) (k : S64x64.Idx)
    (hk0 : (k 0).val = (x 0).val) (hk1 : (k 1).val = (x 1).val) :
    (iblk5 V c 2 t : Vec Ideal S64x64 .f32) x = (V c (Pipeline.arrRef spec5 2) : S64x64.Idx → Ideal .f32) k := by
  obtain ⟨-, -, -, -, e0, e1, -⟩ := idx_facts5 t
  unfold iblk5
  rw [View.read_apply]
  show V c (Pipeline.arrRef spec5 2) (((cfg5.win 2).blk t).view.emb x) = V c (Pipeline.arrRef spec5 2) k
  refine congrArg (V c (Pipeline.arrRef spec5 2)) (funext fun a => Fin.ext ?_)
  match a with
  | ⟨0, _⟩ => show win5_2.index t (0 : Fin 2) * 64 + 1 * (x 0).val = (k 0).val; rw [e0, hk0]; omega
  | ⟨1, _⟩ => show win5_2.index t (1 : Fin 2) * 64 + 1 * (x 1).val = (k 1).val; rw [e1, hk1]; omega

/-- What point `t` writes back to window 3's array is block `t` of the product of the first array by the first weight:
    row p of the block is row 5000 t + p of the first array, and the weight's one block is the weight. -/
theorem flushed5_3_eq (c : Dev nD) (t : Fin cfg5.N) :
    (dat5 V c).flushed 3 t = ((cfg5.win 3).blk t).view.read (Elt Ideal)
      (prod5 (V c (Pipeline.arrRef spec5 0)) (V c (Pipeline.arrRef spec5 1))) := by
  show (cfg5.win 3).cut (grid5.coords t) ((dat5 V c).after 3 t) = _
  rw [after5_3]
  unfold out5_3
  rw [View.canon_unit_zero zeroOffsets5]
  simp only [View.ld_unit_zero (S := S5000x64) zeroOffsets5, View.ld_unit_zero (S := S64x64) zeroOffsets5]
  refine funext fun (y : S5000x64.Idx) => ?_
  obtain ⟨p, j, rfl⟩ : ∃ (p : Fin 5000) (j : Fin 64), y = ix2 p j := ⟨y 0, y 1, eq_ix2 y⟩
  obtain ⟨-, -, -, -, -, -, e30, e31, e40, e41⟩ := idx_facts5 t
  show k5_pay2 (F := Ideal) (iblk5 V c 0 t) (iblk5 V c 1 t) (ix2 p j)
    = prod5 (V c (Pipeline.arrRef spec5 0)) (V c (Pipeline.arrRef spec5 1)) (((cfg5.win 3).blk t).view.emb (ix2 p j))
  refine (firstProduct5_ix2 _ _ p j).trans ?_
  have hp : p.val < 5000 := p.isLt
  have ht : t.val < 10 := lt_of_lt_of_eq t.isLt N_5
  refine prodAt5_congr _ _ _ _ p ⟨5000 * t.val + p.val, by omega⟩ j _ ?_ (fun q => ?_) (fun q => ?_)
  · show (⟨5000 * t.val + p.val, _⟩ : Fin 50000).val = win5_3.index t (0 : Fin 2) * 5000 + 1 * p.val
    rw [e30]; show 5000 * t.val + p.val = _; omega
  · exact blockRows5 V c t _ _ (by show 5000 * t.val + p.val = 5000 * t.val + p.val; rfl) rfl
  · exact weight5_1 V c t _ _ (by show q.val = q.val; rfl) (by show win5_3.index t (1 : Fin 2) * 64 + 1 * j.val = j.val; rw [e31]; omega)

/-- What point `t` writes back to window 4's array is block `t` of the product of the first array by the second weight:
    row p of the block is row 5000 t + p of the first array, and the weight's one block is the weight. -/
theorem flushed5_4_eq (c : Dev nD) (t : Fin cfg5.N) :
    (dat5 V c).flushed 4 t = ((cfg5.win 4).blk t).view.read (Elt Ideal)
      (prod5 (V c (Pipeline.arrRef spec5 0)) (V c (Pipeline.arrRef spec5 2))) := by
  show (cfg5.win 4).cut (grid5.coords t) ((dat5 V c).after 4 t) = _
  rw [after5_4]
  unfold out5_4
  rw [View.canon_unit_zero zeroOffsets5]
  simp only [View.ld_unit_zero (S := S5000x64) zeroOffsets5, View.ld_unit_zero (S := S64x64) zeroOffsets5]
  refine funext fun (y : S5000x64.Idx) => ?_
  obtain ⟨p, j, rfl⟩ : ∃ (p : Fin 5000) (j : Fin 64), y = ix2 p j := ⟨y 0, y 1, eq_ix2 y⟩
  obtain ⟨-, -, -, -, -, -, e30, e31, e40, e41⟩ := idx_facts5 t
  show k5_pay3 (F := Ideal) (iblk5 V c 0 t) (iblk5 V c 2 t) (ix2 p j)
    = prod5 (V c (Pipeline.arrRef spec5 0)) (V c (Pipeline.arrRef spec5 2)) (((cfg5.win 4).blk t).view.emb (ix2 p j))
  refine (secondProduct5_ix2 _ _ p j).trans ?_
  have hp : p.val < 5000 := p.isLt
  have ht : t.val < 10 := lt_of_lt_of_eq t.isLt N_5
  refine prodAt5_congr _ _ _ _ p ⟨5000 * t.val + p.val, by omega⟩ j _ ?_ (fun q => ?_) (fun q => ?_)
  · show (⟨5000 * t.val + p.val, _⟩ : Fin 50000).val = win5_4.index t (0 : Fin 2) * 5000 + 1 * p.val
    rw [e40]; show 5000 * t.val + p.val = _; omega
  · exact blockRows5 V c t _ _ (by show 5000 * t.val + p.val = 5000 * t.val + p.val; rfl) rfl
  · exact weight5_2 V c t _ _ (by show q.val = q.val; rfl) (by show win5_4.index t (1 : Fin 2) * 64 + 1 * j.val = j.val; rw [e41]; omega)

/-- An index of window 3's array is in point `t`'s block iff each coordinate is in the block's range on its axis. -/
theorem mem_blk5_3 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v116_0).slice (win5_3.rect t)).set ↔ _
  rw [View.set_slice_whole, Rect.mem_set_unit]
  exact Iff.rfl

/-- The ten blocks of 5000 rows tile window 3's array: row r is in the block of point r / 5000. -/
theorem tiled5_3 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, e30, e31, e40, e41⟩ := idx_facts5 t
  refine ⟨t, flush5_3 t, ?_⟩
  rw [mem_blk5_3]
  intro a
  match a with
  | ⟨0, _⟩ =>
    show win5_3.index t (0 : Fin 2) * 5000 ≤ (i 0).val ∧ (i 0).val < win5_3.index t (0 : Fin 2) * 5000 + 5000
    rw [e30, ht]; omega
  | ⟨1, _⟩ =>
    show win5_3.index t (1 : Fin 2) * 64 ≤ (i 1).val ∧ (i 1).val < win5_3.index t (1 : Fin 2) * 64 + 64
    rw [e31]; omega

/-- An index of window 4's array is in point `t`'s block iff each coordinate is in the block's range on its axis. -/
theorem mem_blk5_4 (t : Fin cfg5.N) (i : S50000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v116_1).slice (win5_4.rect t)).set ↔ _
  rw [View.set_slice_whole, Rect.mem_set_unit]
  exact Iff.rfl

/-- The ten blocks of 5000 rows tile window 4's array: row r is in the block of point r / 5000. -/
theorem tiled5_4 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, e30, e31, e40, e41⟩ := idx_facts5 t
  refine ⟨t, flush5_4 t, ?_⟩
  rw [mem_blk5_4]
  intro a
  match a with
  | ⟨0, _⟩ =>
    show win5_4.index t (0 : Fin 2) * 5000 ≤ (i 0).val ∧ (i 0).val < win5_4.index t (0 : Fin 2) * 5000 + 5000
    rw [e40, ht]; omega
  | ⟨1, _⟩ =>
    show win5_4.index t (1 : Fin 2) * 64 ≤ (i 1).val ∧ (i 1).val < win5_4.index t (1 : Fin 2) * 64 + 64
    rw [e41]; omega

/-- Window 3's array after the region: the product of the region's first array by its second. -/
theorem arr5_3 (c : Dev nD) :
    (dat5 (F := Ideal) V c).arrAt 3 cfg5.N = prod5 (V c (Pipeline.arrRef spec5 0)) (V c (Pipeline.arrRef spec5 1)) :=
  (dat5 (F := Ideal) V c).arrAt_eq_of_cover 3 _ (fun t _ => flushed5_3_eq V c t) tiled5_3

/-- Entry (p, j) of window 3's array after the region: the sum over q of H (p, q) · W (q, j), for A the array after
    the region and H, W the region's first and second arrays as it finds them. -/
theorem arr5_3_at (c : Dev nD) (A H : FVec Ideal ⟨2, ![50000, 64]⟩ .f32) (W : FVec Ideal ⟨2, ![64, 64]⟩ .f32)
    (hA : (dat5 (F := Ideal) V c).arrAt 3 cfg5.N = A)
    (hH : V c (Pipeline.arrRef spec5 0) = H) (hW : V c (Pipeline.arrRef spec5 1) = W)
    (p : Fin 50000) (j : Fin 64) :
    A (ix2 p j) = ∑ q : Fin 64, H (ix2 p q) * W (ix2 q j) := by
  subst hA hH hW
  exact congrFun (arr5_3 V c) (ix2 p j)

/-- Window 4's array after the region: the product of the region's first array by its third. -/
theorem arr5_4 (c : Dev nD) :
    (dat5 (F := Ideal) V c).arrAt 4 cfg5.N = prod5 (V c (Pipeline.arrRef spec5 0)) (V c (Pipeline.arrRef spec5 2)) :=
  (dat5 (F := Ideal) V c).arrAt_eq_of_cover 4 _ (fun t _ => flushed5_4_eq V c t) tiled5_4

/-- Entry (p, j) of window 4's array after the region: the sum over q of H (p, q) · W (q, j), for A the array after
    the region and H, W the region's first and third arrays as it finds them. -/
theorem arr5_4_at (c : Dev nD) (A H : FVec Ideal ⟨2, ![50000, 64]⟩ .f32) (W : FVec Ideal ⟨2, ![64, 64]⟩ .f32)
    (hA : (dat5 (F := Ideal) V c).arrAt 4 cfg5.N = A)
    (hH : V c (Pipeline.arrRef spec5 0) = H) (hW : V c (Pipeline.arrRef spec5 2) = W)
    (p : Fin 50000) (j : Fin 64) :
    A (ix2 p j) = ∑ q : Fin 64, H (ix2 p q) * W (ix2 q j) := by
  subst hA hH hW
  exact congrFun (arr5_4 V c) (ix2 p j)

end Cert.KernelIdeal.KVal

end
-- ==== Proof.RegCombine2.lean ====
import proofs.«155966_j60198261620971_1_alg».proof.Proof.Gen.KernelIdeal.Frame
import proofs.«155966_j60198261620971_1_alg».proof.Proof.LibColumnRow
import Idealize.ShloMosaic.Lib.Pipeline.Value
import Idealize.ShloMosaic.Lib.ValueIdx
import Idealize.ShloMosaic.Lib.ValueLayout
import Idealize.ShloMosaic.PureOps.Ideal.Laws

/-!
  Combine region 2 of the network, read as an array.

  The combine region takes three [50000, 64] arrays (the aggregated neighbours, the node's own transformed
  features, a linear term), a per-node coefficient held as a column [50000, 1], and three per-feature rows
  [1, 64] (a bias, a scale, a shift), and leaves at node p, feature j

      max ((((agg p j + hw p j * coef p) + lin p j) + bias j) * scale j + shift j) 0.

  The region works on 25 blocks of 2000 nodes; block t of the result is that formula of block t of the
  node arrays and of the three rows, and the 25 blocks tile the result.
-/

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

theorem zeroOffsets2 : (![0, 0] : Fin 2 → Nat) = fun _ => 0 := funext fun a => by fin_cases a <;> rfl

/-- The combine step at node p, feature j. -/
def combineAt2 (AGG HW LIN : (⟨2, ![50000, 64]⟩ : Shape).Idx → EReal) (SC : (⟨2, ![50000, 1]⟩ : Shape).Idx → EReal)
    (BIAS SCALE SHIFT : (⟨2, ![1, 64]⟩ : Shape).Idx → EReal) (p : Fin 50000) (j : Fin 64) : EReal :=
  max ((((AGG (ix2 p j) + HW (ix2 p j) * SC (ix2 p (0 : Fin 1))) + LIN (ix2 p j)) + BIAS (ix2 (0 : Fin 1) j))
    * SCALE (ix2 (0 : Fin 1) j) + SHIFT (ix2 (0 : Fin 1) j)) 0

/-- The combine step as one array. -/
def combine2 (AGG HW LIN : (⟨2, ![50000, 64]⟩ : Shape).Idx → EReal) (SC : (⟨2, ![50000, 1]⟩ : Shape).Idx → EReal)
    (BIAS SCALE SHIFT : (⟨2, ![1, 64]⟩ : Shape).Idx → EReal) : (⟨2, ![50000, 64]⟩ : Shape).Idx → EReal :=
  fun i => combineAt2 AGG HW LIN SC BIAS SCALE SHIFT (i 0) (i 1)

theorem combine2_ix2 (AGG HW LIN : (⟨2, ![50000, 64]⟩ : Shape).Idx → EReal) (SC : (⟨2, ![50000, 1]⟩ : Shape).Idx → EReal)
    (BIAS SCALE SHIFT : (⟨2, ![1, 64]⟩ : Shape).Idx → EReal) (p : Fin 50000) (j : Fin 64) :
    combine2 AGG HW LIN SC BIAS SCALE SHIFT (ix2 p j) = combineAt2 AGG HW LIN SC BIAS SCALE SHIFT p j := rfl

/-- The combine step at node p, feature j, written out. -/
theorem combineAt2_eq (AGG HW LIN : (⟨2, ![50000, 64]⟩ : Shape).Idx → EReal) (SC : (⟨2, ![50000, 1]⟩ : Shape).Idx → EReal)
    (BIAS SCALE SHIFT : (⟨2, ![1, 64]⟩ : Shape).Idx → EReal) (p : Fin 50000) (j : Fin 64) :
    combineAt2 AGG HW LIN SC BIAS SCALE SHIFT p j
      = max ((((AGG (ix2 p j) + HW (ix2 p j) * SC (ix2 p (0 : Fin 1))) + LIN (ix2 p j)) + BIAS (ix2 (0 : Fin 1) j))
          * SCALE (ix2 (0 : Fin 1) j) + SHIFT (ix2 (0 : Fin 1) j)) 0 := rfl

variable (V : (c : Dev nD) → (b : Ref sig .tc) → Buf (Elt Ideal) ((c : Thread nD τ).loc b))

/-! ## Region 2 -/

/-- The combine body at one entry of a block. -/
theorem pay2_apply (x0 x1 x2 : Vec Ideal S2000x64 .f32) (x3 : Vec Ideal S2000x1 .f32)
    (x4 x5 x6 : Vec Ideal S1x64 .f32) (p : Fin 2000) (q : Fin 64) :
    k2_pay1 x0 x1 x2 x3 x4 x5 x6 (ix2 p q)
      = max ((((x0 (ix2 p q) + x1 (ix2 p q) * x3 (ix2 p (0 : Fin 1))) + x2 (ix2 p q)) + x4 (ix2 (0 : Fin 1) q))
          * x5 (ix2 (0 : Fin 1) q) + x6 (ix2 (0 : Fin 1) q)) (0 : EReal) := by
  unfold k2_pay1
  simp only [maximumf_apply, addf_apply, mulf_apply, broadcast_apply, shapeCast_self]
  rw [Cert.LibColumnRow.broadcastTo_a1_ab_apply, broadcastTo_1b_ab_apply, broadcastTo_1b_ab_apply, broadcastTo_1b_ab_apply]
  show max _ (Ideal.ofBits .f32 0x00000000#32) = _
  rw [Ideal.ofBits_zero_f32]

/-- Where the blocks sit, decided over the 25 points: point t takes block t of the node arrays and the one
    block of each row. -/
theorem blockIndex2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- Block t of node array 0: its entry (p, q) is the array's entry (2000 t + p, q). -/
theorem nodeBlock2_0 (c : Dev nD) (t : Fin cfg2.N) (p : Fin 2000) (q : Fin 64) (P : Fin 50000)
    (hP : P.val = t.val * 2000 + p.val) :
    (iblk2 V c 0 t : Vec Ideal S2000x64 .f32) (ix2 p q)
      = (V c (Pipeline.arrRef spec2 0) : S50000x64.Idx → EReal) (ix2 P q) := by
  have e := (blockIndex2 t).1
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 2000 + 1 * p.val = P.val; rw [e.1, hP]; omega
  | ⟨1, _⟩ => show win2_0.index t (1 : Fin 2) * 64 + 1 * q.val = q.val; rw [e.2]; omega

/-- Block t of node array 1: its entry (p, q) is the array's entry (2000 t + p, q). -/
theorem nodeBlock2_1 (c : Dev nD) (t : Fin cfg2.N) (p : Fin 2000) (q : Fin 64) (P : Fin 50000)
    (hP : P.val = t.val * 2000 + p.val) :
    (iblk2 V c 1 t : Vec Ideal S2000x64 .f32) (ix2 p q)
      = (V c (Pipeline.arrRef spec2 1) : S50000x64.Idx → EReal) (ix2 P q) := by
  have e := (blockIndex2 t).2.1
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 2000 + 1 * p.val = P.val; rw [e.1, hP]; omega
  | ⟨1, _⟩ => show win2_1.index t (1 : Fin 2) * 64 + 1 * q.val = q.val; rw [e.2]; omega

/-- Block t of node array 2: its entry (p, q) is the array's entry (2000 t + p, q). -/
theorem nodeBlock2_2 (c : Dev nD) (t : Fin cfg2.N) (p : Fin 2000) (q : Fin 64) (P : Fin 50000)
    (hP : P.val = t.val * 2000 + p.val) :
    (iblk2 V c 2 t : Vec Ideal S2000x64 .f32) (ix2 p q)
      = (V c (Pipeline.arrRef spec2 2) : S50000x64.Idx → EReal) (ix2 P q) := by
  have e := (blockIndex2 t).2.2.1
  unfold iblk2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 2) * 2000 + 1 * p.val = P.val; rw [e.1, hP]; omega
  | ⟨1, _⟩ => show win2_2.index t (1 : Fin 2) * 64 + 1 * q.val = q.val; rw [e.2]; omega

/-- Block t of the coefficient column: its entry (p, 0) is the column's entry (2000 t + p, 0). -/
theorem nodeBlock2_3 (c : Dev nD) (t : Fin cfg2.N) (p : Fin 2000) (P : Fin 50000)
    (hP : P.val = t.val * 2000 + p.val) :
    (iblk2 V c 3 t : Vec Ideal S2000x1 .f32) (ix2 p (0 : Fin 1))
      = (V c (Pipeline.arrRef spec2 3) : S50000x1.Idx → EReal) (ix2 P (0 : Fin 1)) := by
  have e := (blockIndex2 t).2.2.2.1
  unfold iblk2
  rw [View.read_apply]
  show V c (Pipeline.arrRef spec2 3) _ = V c (Pipeline.arrRef spec2 3) _
  refine congrArg (V c (Pipeline.arrRef spec2 3)) (funext fun a => Fin.ext ?_)
  match a with
  | ⟨0, _⟩ => show win2_3.index t (0 : Fin 2) * 2000 + 1 * p.val = P.val; rw [e.1, hP]; omega
  | ⟨1, _⟩ => show win2_3.index t (1 : Fin 2) * 1 + 1 * 0 = 0; rw [e.2]

/-- The one block of row 4 is the row. -/
theorem rowBlock2_4 (c : Dev nD) (t : Fin cfg2.N) (q : Fin 64) :
    (iblk2 V c 4 t : Vec Ideal S1x64 .f32) (ix2 (0 : Fin 1) q)
      = (V c (Pipeline.arrRef spec2 4) : S1x64.Idx → EReal) (ix2 (0 : Fin 1) q) := by
  have e := (blockIndex2 t).2.2.2.2.1
  unfold iblk2
  rw [View.read_apply]
  show V c (Pipeline.arrRef spec2 4) _ = V c (Pipeline.arrRef spec2 4) _
  refine congrArg (V c (Pipeline.arrRef spec2 4)) (funext fun a => Fin.ext ?_)
  match a with
  | ⟨0, _⟩ => show win2_4.index t (0 : Fin 2) * 1 + 1 * 0 = 0; rw [e.1]
  | ⟨1, _⟩ => show win2_4.index t (1 : Fin 2) * 64 + 1 * q.val = q.val; rw [e.2]; omega

/-- The one block of row 5 is the row. -/
theorem rowBlock2_5 (c : Dev nD) (t : Fin cfg2.N) (q : Fin 64) :
    (iblk2 V c 5 t : Vec Ideal S1x64 .f32) (ix2 (0 : Fin 1) q)
      = (V c (Pipeline.arrRef spec2 5) : S1x64.Idx → EReal) (ix2 (0 : Fin 1) q) := by
  have e := (blockIndex2 t).2.2.2.2.2.1
  unfold iblk2
  rw [View.read_apply]
  show V c (Pipeline.arrRef spec2 5) _ = V c (Pipeline.arrRef spec2 5) _
  refine congrArg (V c (Pipeline.arrRef spec2 5)) (funext fun a => Fin.ext ?_)
  match a with
  | ⟨0, _⟩ => show win2_5.index t (0 : Fin 2) * 1 + 1 * 0 = 0; rw [e.1]
  | ⟨1, _⟩ => show win2_5.index t (1 : Fin 2) * 64 + 1 * q.val = q.val; rw [e.2]; omega

/-- The one block of row 6 is the row. -/
theorem rowBlock2_6 (c : Dev nD) (t : Fin cfg2.N) (q : Fin 64) :
    (iblk2 V c 6 t : Vec Ideal S1x64 .f32) (ix2 (0 : Fin 1) q)
      = (V c (Pipeline.arrRef spec2 6) : S1x64.Idx → EReal) (ix2 (0 : Fin 1) q) := by
  have e := (blockIndex2 t).2.2.2.2.2.2.1
  unfold iblk2
  rw [View.read_apply]
  show V c (Pipeline.arrRef spec2 6) _ = V c (Pipeline.arrRef spec2 6) _
  refine congrArg (V c (Pipeline.arrRef spec2 6)) (funext fun a => Fin.ext ?_)
  match a with
  | ⟨0, _⟩ => show win2_6.index t (0 : Fin 2) * 1 + 1 * 0 = 0; rw [e.1]
  | ⟨1, _⟩ => show win2_6.index t (1 : Fin 2) * 64 + 1 * q.val = q.val; rw [e.2]; omega

/-- The result of region 2 as one array of the arrays the region finds. -/
def result2 (c : Dev nD) : (⟨2, ![50000, 64]⟩ : Shape).Idx → EReal :=
  combine2 (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6))

/-- What point t writes back is block t of the result. -/
theorem written2 (c : Dev nD) (t : Fin cfg2.N) :
    (dat2 (F := Ideal) V c).flushed 7 t = ((cfg2.win 7).blk t).view.read (Elt Ideal) (result2 V c) := by
  show (cfg2.win 7).cut (grid2.coords t) ((dat2 V c).after 7 t) = _
  rw [after2_7]
  unfold out2_7
  rw [View.canon_unit_zero zeroOffsets2]
  simp only [View.ld_unit_zero (S := S2000x64) zeroOffsets2, View.ld_unit_zero (S := S2000x1) zeroOffsets2,
    View.ld_unit_zero (S := S1x64) zeroOffsets2]
  have e := (blockIndex2 t).2.2.2.2.2.2.2
  have hN : cfg2.N = 25 := N_2
  funext y
  obtain ⟨p, q, rfl⟩ : ∃ (p : Fin 2000) (q : Fin 64), y = ix2 p q := ⟨y 0, y 1, @eq_ix2 2000 64 y⟩
  have ht : t.val < 25 := hN ▸ t.isLt
  have hp : p.val < 2000 := p.isLt
  obtain ⟨P, hP⟩ : ∃ P : Fin 50000, P.val = t.val * 2000 + p.val := ⟨⟨t.val * 2000 + p.val, by omega⟩, rfl⟩
  have hy : ((cfg2.win 7).blk t).view.emb (ix2 p q) = (ix2 P q : S50000x64.Idx) := by
    funext a; apply Fin.ext
    match a with
    | ⟨0, _⟩ => show win2_7.index t (0 : Fin 2) * 2000 + 1 * p.val = P.val; rw [e.1, hP]; omega
    | ⟨1, _⟩ => show win2_7.index t (1 : Fin 2) * 64 + 1 * q.val = q.val; rw [e.2]; omega
  show k2_pay1 (iblk2 V c 0 t) (iblk2 V c 1 t) (iblk2 V c 2 t) (iblk2 V c 3 t) (iblk2 V c 4 t)
      (iblk2 V c 5 t) (iblk2 V c 6 t) (ix2 p q) = result2 V c (((cfg2.win 7).blk t).view.emb (ix2 p q))
  rw [hy, pay2_apply, nodeBlock2_0 V c t p q P hP, nodeBlock2_1 V c t p q P hP, nodeBlock2_2 V c t p q P hP,
    nodeBlock2_3 V c t p P hP, rowBlock2_4 V c t q, rowBlock2_5 V c t q, rowBlock2_6 V c t q]
  rfl

/-- An index of the result is in point t's block iff each coordinate is in the block's range on its axis. -/
theorem inBlock2 (t : Fin cfg2.N) (i : S50000x64.Idx) :
    i ∈ ((cfg2.win 7).blk t).view.set ↔ ∀ a : Fin 2, win2_7.index t a * S2000x64.size a ≤ (i a).val
      ∧ (i a).val < win2_7.index t a * S2000x64.size a + S2000x64.size a := by
  show i ∈ ((View.whole main_v70).slice (win2_7.rect t)).set ↔ _
  rw [View.set_slice_whole, Rect.mem_set_unit]
  exact Iff.rfl

/-- Node r lies in block r / 2000: the 25 blocks tile the result. -/
theorem tiled2 (i : S50000x64.Idx) :
    ∃ t : Fin cfg2.N, (cfg2.win 7).flush t = true ∧ i ∈ ((cfg2.win 7).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by rw [hN]; omega⟩, rfl⟩
  have e := (blockIndex2 t).2.2.2.2.2.2.2
  refine ⟨t, flush2_7 t, ?_⟩
  rw [inBlock2]
  intro a
  match a with
  | ⟨0, _⟩ =>
    show win2_7.index t (0 : Fin 2) * 2000 ≤ (i 0).val ∧ (i 0).val < win2_7.index t (0 : Fin 2) * 2000 + 2000
    rw [e.1, ht]; omega
  | ⟨1, _⟩ =>
    show win2_7.index t (1 : Fin 2) * 64 ≤ (i 1).val ∧ (i 1).val < win2_7.index t (1 : Fin 2) * 64 + 64
    rw [e.2]; omega

/-- The result at node p, feature j. -/
theorem result2_at (c : Dev nD) (p : Fin 50000) (j : Fin 64) :
    result2 V c (ix2 p j)
      = combineAt2 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) p j := rfl

/-- The array region 2 leaves is the combine step of the arrays it finds. -/
theorem arr2 (c : Dev nD) : (dat2 (F := Ideal) V c).arrAt 7 cfg2.N = result2 V c :=
  (dat2 (F := Ideal) V c).arrAt_eq_of_cover 7 (result2 V c) (fun t _ => written2 V c t) tiled2

/-- Region 2's result at node p, feature j. -/
theorem arr2_apply (c : Dev nD) (p : Fin 50000) (j : Fin 64) :
    (dat2 (F := Ideal) V c).arrAt 7 cfg2.N (ix2 p j)
      = combineAt2 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) p j :=
  (congrFun (arr2 V c) (ix2 p j)).trans (result2_at V c p j)

/-- Region 2's result at node p, feature j, written out: with A the array the region leaves and AGG, HW, LIN,
    SC, BIAS, SCALE, SHIFT the arrays it finds. -/
theorem arr2_at (V : (c : Dev nD) → (b : Ref sig .tc) → Buf (Elt Ideal) ((c : Thread nD τ).loc b)) (c : Dev nD)
    (A AGG HW LIN : FVec Ideal ⟨2, ![50000, 64]⟩ .f32) (SC : FVec Ideal ⟨2, ![50000, 1]⟩ .f32)
    (BIAS SCALE SHIFT : FVec Ideal ⟨2, ![1, 64]⟩ .f32)
    (hA : (dat2 (F := Ideal) V c).arrAt 7 cfg2.N = A)
    (h0 : V c (Pipeline.arrRef spec2 0) = AGG) (h1 : V c (Pipeline.arrRef spec2 1) = HW)
    (h2 : V c (Pipeline.arrRef spec2 2) = LIN) (h3 : V c (Pipeline.arrRef spec2 3) = SC)
    (h4 : V c (Pipeline.arrRef spec2 4) = BIAS) (h5 : V c (Pipeline.arrRef spec2 5) = SCALE)
    (h6 : V c (Pipeline.arrRef spec2 6) = SHIFT) (p : Fin 50000) (j : Fin 64) :
    A (ix2 p j) = max ((((AGG (ix2 p j) + HW (ix2 p j) * SC (ix2 p (0 : Fin 1))) + LIN (ix2 p j))
        + BIAS (ix2 (0 : Fin 1) j)) * SCALE (ix2 (0 : Fin 1) j) + SHIFT (ix2 (0 : Fin 1) j)) 0 := by
  subst hA h0 h1 h2 h3 h4 h5 h6
  exact arr2_apply V c p j

end Cert.KernelIdeal.KVal
-- ==== Proof.RegCombine4.lean ====
import proofs.«155966_j60198261620971_1_alg».proof.Proof.Gen.KernelIdeal.Frame
import proofs.«155966_j60198261620971_1_alg».proof.Proof.LibColumnRow
import Idealize.ShloMosaic.Lib.Pipeline.Value
import Idealize.ShloMosaic.Lib.ValueIdx
import Idealize.ShloMosaic.Lib.ValueLayout
import Idealize.ShloMosaic.PureOps.Ideal.Laws

/-!
  Combine region 4 of the network, read as an array.

  The combine region takes three [50000, 64] arrays (the aggregated neighbours, the node's own transformed
  features, a linear term), a per-node coefficient held as a column [50000, 1], and three per-feature rows
  [1, 64] (a bias, a scale, a shift), and leaves at node p, feature j

      max ((((agg p j + hw p j * coef p) + lin p j) + bias j) * scale j + shift j) 0.

  The region works on 25 blocks of 2000 nodes; block t of the result is that formula of block t of the
  node arrays and of the three rows, and the 25 blocks tile the result.
-/

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

theorem zeroOffsets4 : (![0, 0] : Fin 2 → Nat) = fun _ => 0 := funext fun a => by fin_cases a <;> rfl

/-- The combine step at node p, feature j. -/
def combineAt4 (AGG HW LIN : (⟨2, ![50000, 64]⟩ : Shape).Idx → EReal) (SC : (⟨2, ![50000, 1]⟩ : Shape).Idx → EReal)
    (BIAS SCALE SHIFT : (⟨2, ![1, 64]⟩ : Shape).Idx → EReal) (p : Fin 50000) (j : Fin 64) : EReal :=
  max ((((AGG (ix2 p j) + HW (ix2 p j) * SC (ix2 p (0 : Fin 1))) + LIN (ix2 p j)) + BIAS (ix2 (0 : Fin 1) j))
    * SCALE (ix2 (0 : Fin 1) j) + SHIFT (ix2 (0 : Fin 1) j)) 0

/-- The combine step as one array. -/
def combine4 (AGG HW LIN : (⟨2, ![50000, 64]⟩ : Shape).Idx → EReal) (SC : (⟨2, ![50000, 1]⟩ : Shape).Idx → EReal)
    (BIAS SCALE SHIFT : (⟨2, ![1, 64]⟩ : Shape).Idx → EReal) : (⟨2, ![50000, 64]⟩ : Shape).Idx → EReal :=
  fun i => combineAt4 AGG HW LIN SC BIAS SCALE SHIFT (i 0) (i 1)

theorem combine4_ix2 (AGG HW LIN : (⟨2, ![50000, 64]⟩ : Shape).Idx → EReal) (SC : (⟨2, ![50000, 1]⟩ : Shape).Idx → EReal)
    (BIAS SCALE SHIFT : (⟨2, ![1, 64]⟩ : Shape).Idx → EReal) (p : Fin 50000) (j : Fin 64) :
    combine4 AGG HW LIN SC BIAS SCALE SHIFT (ix2 p j) = combineAt4 AGG HW LIN SC BIAS SCALE SHIFT p j := rfl

/-- The combine step at node p, feature j, written out. -/
theorem combineAt4_eq (AGG HW LIN : (⟨2, ![50000, 64]⟩ : Shape).Idx → EReal) (SC : (⟨2, ![50000, 1]⟩ : Shape).Idx → EReal)
    (BIAS SCALE SHIFT : (⟨2, ![1, 64]⟩ : Shape).Idx → EReal) (p : Fin 50000) (j : Fin 64) :
    combineAt4 AGG HW LIN SC BIAS SCALE SHIFT p j
      = max ((((AGG (ix2 p j) + HW (ix2 p j) * SC (ix2 p (0 : Fin 1))) + LIN (ix2 p j)) + BIAS (ix2 (0 : Fin 1) j))
          * SCALE (ix2 (0 : Fin 1) j) + SHIFT (ix2 (0 : Fin 1) j)) 0 := rfl

variable (V : (c : Dev nD) → (b : Ref sig .tc) → Buf (Elt Ideal) ((c : Thread nD τ).loc b))

/-! ## Region 4 -/

/-- The combine body at one entry of a block. -/
theorem pay4_apply (x0 x1 x2 : Vec Ideal S2000x64 .f32) (x3 : Vec Ideal S2000x1 .f32)
    (x4 x5 x6 : Vec Ideal S1x64 .f32) (p : Fin 2000) (q : Fin 64) :
    k4_pay1 x0 x1 x2 x3 x4 x5 x6 (ix2 p q)
      = max ((((x0 (ix2 p q) + x1 (ix2 p q) * x3 (ix2 p (0 : Fin 1))) + x2 (ix2 p q)) + x4 (ix2 (0 : Fin 1) q))
          * x5 (ix2 (0 : Fin 1) q) + x6 (ix2 (0 : Fin 1) q)) (0 : EReal) := by
  unfold k4_pay1
  simp only [maximumf_apply, addf_apply, mulf_apply, broadcast_apply, shapeCast_self]
  rw [Cert.LibColumnRow.broadcastTo_a1_ab_apply, broadcastTo_1b_ab_apply, broadcastTo_1b_ab_apply, broadcastTo_1b_ab_apply]
  show max _ (Ideal.ofBits .f32 0x00000000#32) = _
  rw [Ideal.ofBits_zero_f32]

/-- Where the blocks sit, decided over the 25 points: point t takes block t of the node arrays and the one
    block of each row. -/
theorem blockIndex4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = t.val ∧ win4_7.index t (1 : Fin 2) = 0) :=
  (by decide +kernel : ∀ t : Fin grid4.N, _)

/-- Block t of node array 0: its entry (p, q) is the array's entry (2000 t + p, q). -/
theorem nodeBlock4_0 (c : Dev nD) (t : Fin cfg4.N) (p : Fin 2000) (q : Fin 64) (P : Fin 50000)
    (hP : P.val = t.val * 2000 + p.val) :
    (iblk4 V c 0 t : Vec Ideal S2000x64 .f32) (ix2 p q)
      = (V c (Pipeline.arrRef spec4 0) : S50000x64.Idx → EReal) (ix2 P q) := by
  have e := (blockIndex4 t).1
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t (0 : Fin 2) * 2000 + 1 * p.val = P.val; rw [e.1, hP]; omega
  | ⟨1, _⟩ => show win4_0.index t (1 : Fin 2) * 64 + 1 * q.val = q.val; rw [e.2]; omega

/-- Block t of node array 1: its entry (p, q) is the array's entry (2000 t + p, q). -/
theorem nodeBlock4_1 (c : Dev nD) (t : Fin cfg4.N) (p : Fin 2000) (q : Fin 64) (P : Fin 50000)
    (hP : P.val = t.val * 2000 + p.val) :
    (iblk4 V c 1 t : Vec Ideal S2000x64 .f32) (ix2 p q)
      = (V c (Pipeline.arrRef spec4 1) : S50000x64.Idx → EReal) (ix2 P q) := by
  have e := (blockIndex4 t).2.1
  unfold iblk4
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t (0 : Fin 2) * 2000 + 1 * p.val = P.val; rw [e.1, hP]; omega
  | ⟨1, _⟩ => show win4_1.index t (1 : Fin 2) * 64 + 1 * q.val = q.val; rw [e.2]; omega

/-- Block t of node array 2: its entry (p, q) is the array's entry (2000 t + p, q). -/
theorem nodeBlock4_2 (c : Dev nD) (t : Fin cfg4.N) (p : Fin 2000) (q : Fin 64) (P : Fin 50000)
    (hP : P.val = t.val * 2000 + p.val) :
    (iblk4 V c 2 t : Vec Ideal S2000x64 .f32) (ix2 p q)
      = (V c (Pipeline.arrRef spec4 2) : S50000x64.Idx → EReal) (ix2 P q) := by
  have e := (blockIndex4 t).2.2.1
  unfold iblk4
  rw [View.read_apply]
  show V c (Pipeline.arrRef spec4 2) _ = V c (Pipeline.arrRef spec4 2) _
  refine congrArg (V c (Pipeline.arrRef spec4 2)) (funext fun a => Fin.ext ?_)
  match a with
  | ⟨0, _⟩ => show win4_2.index t (0 : Fin 2) * 2000 + 1 * p.val = P.val; rw [e.1, hP]; omega
  | ⟨1, _⟩ => show win4_2.index t (1 : Fin 2) * 64 + 1 * q.val = q.val; rw [e.2]; omega

/-- Block t of the coefficient column: its entry (p, 0) is the column's entry (2000 t + p, 0). -/
theorem nodeBlock4_3 (c : Dev nD) (t : Fin cfg4.N) (p : Fin 2000) (P : Fin 50000)
    (hP : P.val = t.val * 2000 + p.val) :
    (iblk4 V c 3 t : Vec Ideal S2000x1 .f32) (ix2 p (0 : Fin 1))
      = (V c (Pipeline.arrRef spec4 3) : S50000x1.Idx → EReal) (ix2 P (0 : Fin 1)) := by
  have e := (blockIndex4 t).2.2.2.1
  unfold iblk4
  rw [View.read_apply]
  show V c (Pipeline.arrRef spec4 3) _ = V c (Pipeline.arrRef spec4 3) _
  refine congrArg (V c (Pipeline.arrRef spec4 3)) (funext fun a => Fin.ext ?_)
  match a with
  | ⟨0, _⟩ => show win4_3.index t (0 : Fin 2) * 2000 + 1 * p.val = P.val; rw [e.1, hP]; omega
  | ⟨1, _⟩ => show win4_3.index t (1 : Fin 2) * 1 + 1 * 0 = 0; rw [e.2]

/-- The one block of row 4 is the row. -/
theorem rowBlock4_4 (c : Dev nD) (t : Fin cfg4.N) (q : Fin 64) :
    (iblk4 V c 4 t : Vec Ideal S1x64 .f32) (ix2 (0 : Fin 1) q)
      = (V c (Pipeline.arrRef spec4 4) : S1x64.Idx → EReal) (ix2 (0 : Fin 1) q) := by
  have e := (blockIndex4 t).2.2.2.2.1
  unfold iblk4
  rw [View.read_apply]
  show V c (Pipeline.arrRef spec4 4) _ = V c (Pipeline.arrRef spec4 4) _
  refine congrArg (V c (Pipeline.arrRef spec4 4)) (funext fun a => Fin.ext ?_)
  match a with
  | ⟨0, _⟩ => show win4_4.index t (0 : Fin 2) * 1 + 1 * 0 = 0; rw [e.1]
  | ⟨1, _⟩ => show win4_4.index t (1 : Fin 2) * 64 + 1 * q.val = q.val; rw [e.2]; omega

/-- The one block of row 5 is the row. -/
theorem rowBlock4_5 (c : Dev nD) (t : Fin cfg4.N) (q : Fin 64) :
    (iblk4 V c 5 t : Vec Ideal S1x64 .f32) (ix2 (0 : Fin 1) q)
      = (V c (Pipeline.arrRef spec4 5) : S1x64.Idx → EReal) (ix2 (0 : Fin 1) q) := by
  have e := (blockIndex4 t).2.2.2.2.2.1
  unfold iblk4
  rw [View.read_apply]
  show V c (Pipeline.arrRef spec4 5) _ = V c (Pipeline.arrRef spec4 5) _
  refine congrArg (V c (Pipeline.arrRef spec4 5)) (funext fun a => Fin.ext ?_)
  match a with
  | ⟨0, _⟩ => show win4_5.index t (0 : Fin 2) * 1 + 1 * 0 = 0; rw [e.1]
  | ⟨1, _⟩ => show win4_5.index t (1 : Fin 2) * 64 + 1 * q.val = q.val; rw [e.2]; omega

/-- The one block of row 6 is the row. -/
theorem rowBlock4_6 (c : Dev nD) (t : Fin cfg4.N) (q : Fin 64) :
    (iblk4 V c 6 t : Vec Ideal S1x64 .f32) (ix2 (0 : Fin 1) q)
      = (V c (Pipeline.arrRef spec4 6) : S1x64.Idx → EReal) (ix2 (0 : Fin 1) q) := by
  have e := (blockIndex4 t).2.2.2.2.2.2.1
  unfold iblk4
  rw [View.read_apply]
  show V c (Pipeline.arrRef spec4 6) _ = V c (Pipeline.arrRef spec4 6) _
  refine congrArg (V c (Pipeline.arrRef spec4 6)) (funext fun a => Fin.ext ?_)
  match a with
  | ⟨0, _⟩ => show win4_6.index t (0 : Fin 2) * 1 + 1 * 0 = 0; rw [e.1]
  | ⟨1, _⟩ => show win4_6.index t (1 : Fin 2) * 64 + 1 * q.val = q.val; rw [e.2]; omega

/-- The result of region 4 as one array of the arrays the region finds. -/
def result4 (c : Dev nD) : (⟨2, ![50000, 64]⟩ : Shape).Idx → EReal :=
  combine4 (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (V c (Pipeline.arrRef spec4 6))

/-- What point t writes back is block t of the result. -/
theorem written4 (c : Dev nD) (t : Fin cfg4.N) :
    (dat4 (F := Ideal) V c).flushed 7 t = ((cfg4.win 7).blk t).view.read (Elt Ideal) (result4 V c) := by
  show (cfg4.win 7).cut (grid4.coords t) ((dat4 V c).after 7 t) = _
  rw [after4_7]
  unfold out4_7
  rw [View.canon_unit_zero zeroOffsets4]
  simp only [View.ld_unit_zero (S := S2000x64) zeroOffsets4, View.ld_unit_zero (S := S2000x1) zeroOffsets4,
    View.ld_unit_zero (S := S1x64) zeroOffsets4]
  have e := (blockIndex4 t).2.2.2.2.2.2.2
  have hN : cfg4.N = 25 := N_4
  funext y
  obtain ⟨p, q, rfl⟩ : ∃ (p : Fin 2000) (q : Fin 64), y = ix2 p q := ⟨y 0, y 1, @eq_ix2 2000 64 y⟩
  have ht : t.val < 25 := hN ▸ t.isLt
  have hp : p.val < 2000 := p.isLt
  obtain ⟨P, hP⟩ : ∃ P : Fin 50000, P.val = t.val * 2000 + p.val := ⟨⟨t.val * 2000 + p.val, by omega⟩, rfl⟩
  have hy : ((cfg4.win 7).blk t).view.emb (ix2 p q) = (ix2 P q : S50000x64.Idx) := by
    funext a; apply Fin.ext
    match a with
    | ⟨0, _⟩ => show win4_7.index t (0 : Fin 2) * 2000 + 1 * p.val = P.val; rw [e.1, hP]; omega
    | ⟨1, _⟩ => show win4_7.index t (1 : Fin 2) * 64 + 1 * q.val = q.val; rw [e.2]; omega
  show k4_pay1 (iblk4 V c 0 t) (iblk4 V c 1 t) (iblk4 V c 2 t) (iblk4 V c 3 t) (iblk4 V c 4 t)
      (iblk4 V c 5 t) (iblk4 V c 6 t) (ix2 p q) = result4 V c (((cfg4.win 7).blk t).view.emb (ix2 p q))
  rw [hy, pay4_apply, nodeBlock4_0 V c t p q P hP, nodeBlock4_1 V c t p q P hP, nodeBlock4_2 V c t p q P hP,
    nodeBlock4_3 V c t p P hP, rowBlock4_4 V c t q, rowBlock4_5 V c t q, rowBlock4_6 V c t q]
  rfl

/-- An index of the result is in point t's block iff each coordinate is in the block's range on its axis. -/
theorem inBlock4 (t : Fin cfg4.N) (i : S50000x64.Idx) :
    i ∈ ((cfg4.win 7).blk t).view.set ↔ ∀ a : Fin 2, win4_7.index t a * S2000x64.size a ≤ (i a).val
      ∧ (i a).val < win4_7.index t a * S2000x64.size a + S2000x64.size a := by
  show i ∈ ((View.whole main_v111).slice (win4_7.rect t)).set ↔ _
  rw [View.set_slice_whole, Rect.mem_set_unit]
  exact Iff.rfl

/-- Node r lies in block r / 2000: the 25 blocks tile the result. -/
theorem tiled4 (i : S50000x64.Idx) :
    ∃ t : Fin cfg4.N, (cfg4.win 7).flush t = true ∧ i ∈ ((cfg4.win 7).blk t).view.set := by
  have hi0 : (i 0).val < 50000 := (i 0).isLt
  have hi1 : (i 1).val < 64 := (i 1).isLt
  have hN : cfg4.N = 25 := N_4
  obtain ⟨t, ht⟩ : ∃ t : Fin cfg4.N, t.val = (i 0).val / 2000 := ⟨⟨(i 0).val / 2000, by rw [hN]; omega⟩, rfl⟩
  have e := (blockIndex4 t).2.2.2.2.2.2.2
  refine ⟨t, flush4_7 t, ?_⟩
  rw [inBlock4]
  intro a
  match a with
  | ⟨0, _⟩ =>
    show win4_7.index t (0 : Fin 2) * 2000 ≤ (i 0).val ∧ (i 0).val < win4_7.index t (0 : Fin 2) * 2000 + 2000
    rw [e.1, ht]; omega
  | ⟨1, _⟩ =>
    show win4_7.index t (1 : Fin 2) * 64 ≤ (i 1).val ∧ (i 1).val < win4_7.index t (1 : Fin 2) * 64 + 64
    rw [e.2]; omega

/-- The result at node p, feature j. -/
theorem result4_at (c : Dev nD) (p : Fin 50000) (j : Fin 64) :
    result4 V c (ix2 p j)
      = combineAt4 (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (V c (Pipeline.arrRef spec4 6)) p j := rfl

/-- The array region 4 leaves is the combine step of the arrays it finds. -/
theorem arr4 (c : Dev nD) : (dat4 (F := Ideal) V c).arrAt 7 cfg4.N = result4 V c :=
  (dat4 (F := Ideal) V c).arrAt_eq_of_cover 7 (result4 V c) (fun t _ => written4 V c t) tiled4

/-- Region 4's result at node p, feature j. -/
theorem arr4_apply (c : Dev nD) (p : Fin 50000) (j : Fin 64) :
    (dat4 (F := Ideal) V c).arrAt 7 cfg4.N (ix2 p j)
      = combineAt4 (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (V c (Pipeline.arrRef spec4 6)) p j :=
  (congrFun (arr4 V c) (ix2 p j)).trans (result4_at V c p j)

/-- Region 4's result at node p, feature j, written out: with A the array the region leaves and AGG, HW, LIN,
    SC, BIAS, SCALE, SHIFT the arrays it finds. -/
theorem arr4_at (V : (c : Dev nD) → (b : Ref sig .tc) → Buf (Elt Ideal) ((c : Thread nD τ).loc b)) (c : Dev nD)
    (A AGG HW LIN : FVec Ideal ⟨2, ![50000, 64]⟩ .f32) (SC : FVec Ideal ⟨2, ![50000, 1]⟩ .f32)
    (BIAS SCALE SHIFT : FVec Ideal ⟨2, ![1, 64]⟩ .f32)
    (hA : (dat4 (F := Ideal) V c).arrAt 7 cfg4.N = A)
    (h0 : V c (Pipeline.arrRef spec4 0) = AGG) (h1 : V c (Pipeline.arrRef spec4 1) = HW)
    (h2 : V c (Pipeline.arrRef spec4 2) = LIN) (h3 : V c (Pipeline.arrRef spec4 3) = SC)
    (h4 : V c (Pipeline.arrRef spec4 4) = BIAS) (h5 : V c (Pipeline.arrRef spec4 5) = SCALE)
    (h6 : V c (Pipeline.arrRef spec4 6) = SHIFT) (p : Fin 50000) (j : Fin 64) :
    A (ix2 p j) = max ((((AGG (ix2 p j) + HW (ix2 p j) * SC (ix2 p (0 : Fin 1))) + LIN (ix2 p j))
        + BIAS (ix2 (0 : Fin 1) j)) * SCALE (ix2 (0 : Fin 1) j) + SHIFT (ix2 (0 : Fin 1) j)) 0 := by
  subst hA h0 h1 h2 h3 h4 h5 h6
  exact arr4_apply V c p j

end Cert.KernelIdeal.KVal
-- ==== Proof.RegCombine6.lean ====
import proofs.«155966_j60198261620971_1_alg».proof.Proof.Gen.KernelIdeal.Frame
import proofs.«155966_j60198261620971_1_alg».proof.Proof.LibColumnRow
import Idealize.ShloMosaic.Lib.Pipeline.Value
import Idealize.ShloMosaic.Lib.ValueIdx
import Idealize.ShloMosaic.Lib.ValueLayout
import Idealize.ShloMosaic.PureOps.Ideal.Laws

/-!
  Combine region 6 of the network, read as an array.

  The combine region takes three [50000, 64] arrays (the aggregated neighbours, the node's own transformed
  features, a linear term), a per-node coefficient held as a column [50000, 1], and three per-feature rows
  [1, 64] (a bias, a scale, a shift), and leaves at node p, feature j

      max ((((agg p j + hw p j * coef p) + lin p j) + bias j) * scale j + shift j) 0.

  The region works on 25 blocks of 2000 nodes; block t of the result is that formula of block t of the
  node arrays and of the three rows, and the 25 blocks tile the result.
-/

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

theorem zeroOffsets6 : (![0, 0] : Fin 2 → Nat) = fun _ => 0 := funext fun a => by fin_cases a <;> rfl

/-- The combine step at node p, feature j. -/
def combineAt6 (AGG HW LIN : (⟨2, ![50000, 64]⟩ : Shape).Idx → EReal) (SC : (⟨2, ![50000, 1]⟩ : Shape).Idx → EReal)
    (BIAS SCALE SHIFT : (⟨2, ![1, 64]⟩ : Shape).Idx → EReal) (p : Fin 50000) (j : Fin 64) : EReal :=
  max ((((AGG (ix2 p j) + HW (ix2 p j) * SC (ix2 p (0 : Fin 1))) + LIN (ix2 p j)) + BIAS (ix2 (0 : Fin 1) j))
    * SCALE (ix2 (0 : Fin 1) j) + SHIFT (ix2 (0 : Fin 1) j)) 0

/-- The combine step as one array. -/
def combine6 (AGG HW LIN : (⟨2, ![50000, 64]⟩ : Shape).Idx → EReal) (SC : (⟨2, ![50000, 1]⟩ : Shape).Idx → EReal)
    (BIAS SCALE SHIFT : (⟨2, ![1, 64]⟩ : Shape).Idx → EReal) : (⟨2, ![50000, 64]⟩ : Shape).Idx → EReal :=
  fun i => combineAt6 AGG HW LIN SC BIAS SCALE SHIFT (i 0) (i 1)

theorem combine6_ix2 (AGG HW LIN : (⟨2, ![50000, 64]⟩ : Shape).Idx → EReal) (SC : (⟨2, ![50000, 1]⟩ : Shape).Idx → EReal)
    (BIAS SCALE SHIFT : (⟨2, ![1, 64]⟩ : Shape).Idx → EReal) (p : Fin 50000) (j : Fin 64) :
    combine6 AGG HW LIN SC BIAS SCALE SHIFT (ix2 p j) = combineAt6 AGG HW LIN SC BIAS SCALE SHIFT p j := rfl

/-- The combine step at node p, feature j, written out. -/
theorem combineAt6_eq (AGG HW LIN : (⟨2, ![50000, 64]⟩ : Shape).Idx → EReal) (SC : (⟨2, ![50000, 1]⟩ : Shape).Idx → EReal)
    (BIAS SCALE SHIFT : (⟨2, ![1, 64]⟩ : Shape).Idx → EReal) (p : Fin 50000) (j : Fin 64) :
    combineAt6 AGG HW LIN SC BIAS SCALE SHIFT p j
      = max ((((AGG (ix2 p j) + HW (ix2 p j) * SC (ix2 p (0 : Fin 1))) + LIN (ix2 p j)) + BIAS (ix2 (0 : Fin 1) j))
          * SCALE (ix2 (0 : Fin 1) j) + SHIFT (ix2 (0 : Fin 1) j)) 0 := rfl

variable (V : (c : Dev nD) → (b : Ref sig .tc) → Buf (Elt Ideal) ((c : Thread nD τ).loc b))

/-! ## Region 6 -/

/-- The combine body at one entry of a block. -/
theorem pay6_apply (x0 x1 x2 : Vec Ideal S2000x64 .f32) (x3 : Vec Ideal S2000x1 .f32)
    (x4 x5 x6 : Vec Ideal S1x64 .f32) (p : Fin 2000) (q : Fin 64) :
    k6_pay1 x0 x1 x2 x3 x4 x5 x6 (ix2 p q)
      = max ((((x0 (ix2 p q) + x1 (ix2 p q) * x3 (ix2 p (0 : Fin 1))) + x2 (ix2 p q)) + x4 (ix2 (0 : Fin 1) q))
          * x5 (ix2 (0 : Fin 1) q) + x6 (ix2 (0 : Fin 1) q)) (0 : EReal) := by
  unfold k6_pay1
  simp only [maximumf_apply, addf_apply, mulf_apply, broadcast_apply, shapeCast_self]
  rw [Cert.LibColumnRow.broadcastTo_a1_ab_apply, broadcastTo_1b_ab_apply, broadcastTo_1b_ab_apply, broadcastTo_1b_ab_apply]
  show max _ (Ideal.ofBits .f32 0x00000000#32) = _
  rw [Ideal.ofBits_zero_f32]

/-- Where the blocks sit, decided over the 25 points: point t takes block t of the node arrays and the one
    block of each row. -/
theorem blockIndex6 : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = t.val ∧ win6_2.index t (1 : Fin 2) = 0)
    ∧ (win6_3.index t (0 : Fin 2) = t.val ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = t.val ∧ win6_7.index t (1 : Fin 2) = 0) :=
  (by decide +kernel : ∀ t : Fin grid6.N, _)

/-- Block t of node array 0: its entry (p, q) is the array's entry (2000 t + p, q). -/
theorem nodeBlock6_0 (c : Dev nD) (t : Fin cfg6.N) (p : Fin 2000) (q : Fin 64) (P : Fin 50000)
    (hP : P.val = t.val * 2000 + p.val) :
    (iblk6 V c 0 t : Vec Ideal S2000x64 .f32) (ix2 p q)
      = (V c (Pipeline.arrRef spec6 0) : S50000x64.Idx → EReal) (ix2 P q) := by
  have e := (blockIndex6 t).1
  unfold iblk6
  rw [View.read_apply]
  show V c (Pipeline.arrRef spec6 0) _ = V c (Pipeline.arrRef spec6 0) _
  refine congrArg (V c (Pipeline.arrRef spec6 0)) (funext fun a => Fin.ext ?_)
  match a with
  | ⟨0, _⟩ => show win6_0.index t (0 : Fin 2) * 2000 + 1 * p.val = P.val; rw [e.1, hP]; omega
  | ⟨1, _⟩ => show win6_0.index t (1 : Fin 2) * 64 + 1 * q.val = q.val; rw [e.2]; omega

/-- Block t of node array 1: its entry (p, q) is the array's entry (2000 t + p, q). -/
theorem nodeBlock6_1 (c : Dev nD) (t : Fin cfg6.N) (p : Fin 2000) (q : Fin 64) (P : Fin 50000)
    (hP : P.val = t.val * 2000 + p.val) :
    (iblk6 V c 1 t : Vec Ideal S2000x64 .f32) (ix2 p q)
      = (V c (Pipeline.arrRef spec6 1) : S50000x64.Idx → EReal) (ix2 P q) := by
  have e := (blockIndex6 t).2.1
  unfold iblk6
  rw [View.read_apply]
  show V c (Pipeline.arrRef spec6 1) _ = V c (Pipeline.arrRef spec6 1) _
  refine congrArg (V c (Pipeline.arrRef spec6 1)) (funext fun a => Fin.ext ?_)
  match a with
  | ⟨0, _⟩ => show win6_1.index t (0 : Fin 2) * 2000 + 1 * p.val = P.val; rw [e.1, hP]; omega
  | ⟨1, _⟩ => show win6_1.index t (1 : Fin 2) * 64 + 1 * q.val = q.val; rw [e.2]; omega

/-- Block t of node array 2: its entry (p, q) is the array's entry (2000 t + p, q). -/
theorem nodeBlock6_2 (c : Dev nD) (t : Fin cfg6.N) (p : Fin 2000) (q : Fin 64) (P : Fin 50000)
    (hP : P.val = t.val * 2000 + p.val) :
    (iblk6 V c 2 t : Vec Ideal S2000x64 .f32) (ix2 p q)
      = (V c (Pipeline.arrRef spec6 2) : S50000x64.Idx → EReal) (ix2 P q) := by
  have e := (blockIndex6 t).2.2.1
  unfold iblk6
  rw [View.read_apply]
  show V c (Pipeline.arrRef spec6 2) _ = V c (Pipeline.arrRef spec6 2) _
  refine congrArg (V c (Pipeline.arrRef spec6 2)) (funext fun a => Fin.ext ?_)
  match a with
  | ⟨0, _⟩ => show win6_2.index t (0 : Fin 2) * 2000 + 1 * p.val = P.val; rw [e.1, hP]; omega
  | ⟨1, _⟩ => show win6_2.index t (1 : Fin 2) * 64 + 1 * q.val = q.val; rw [e.2]; omega

/-- Block t of the coefficient column: its entry (p, 0) is the column's entry (2000 t + p, 0). -/
theorem nodeBlock6_3 (c : Dev nD) (t : Fin cfg6.N) (p : Fin 2000) (P : Fin 50000)
    (hP : P.val = t.val * 2000 + p.val) :
    (iblk6 V c 3 t : Vec Ideal S2000x1 .f32) (ix2 p (0 : Fin 1))
      = (V c (Pipeline.arrRef spec6 3) : S50000x1.Idx → EReal) (ix2 P (0 : Fin 1)) := by
  have e := (blockIndex6 t).2.2.2.1
  unfold iblk6
  rw [View.read_apply]
  show V c (Pipeline.arrRef spec6 3) _ = V c (Pipeline.arrRef spec6 3) _
  refine congrArg (V c (Pipeline.arrRef spec6 3)) (funext fun a => Fin.ext ?_)
  match a with
  | ⟨0, _⟩ => show win6_3.index t (0 : Fin 2) * 2000 + 1 * p.val = P.val; rw [e.1, hP]; omega
  | ⟨1, _⟩ => show win6_3.index t (1 : Fin 2) * 1 + 1 * 0 = 0; rw [e.2]

/-- The one block of row 4 is the row. -/
theorem rowBlock6_4 (c : Dev nD) (t : Fin cfg6.N) (q : Fin 64) :
    (iblk6 V c 4 t : Vec Ideal S1x64 .f32) (ix2 (0 : Fin 1) q)
      = (V c (Pipeline.arrRef spec6 4) : S1x64.Idx → EReal) (ix2 (0 : Fin 1) q) := by
  have e := (blockIndex6 t).2.2.2.2.1
  unfold iblk6
  rw [View.read_apply]
  show V c (Pipeline.arrRef spec6 4) _ = V c (Pipeline.arrRef spec6 4) _
  refine congrArg (V c (Pipeline.arrRef spec6 4)) (funext fun a => Fin.ext ?_)
  match a with
  | ⟨0, _⟩ => show win6_4.index t (0 : Fin 2) * 1 + 1 * 0 = 0; rw [e.1]
  | ⟨1, _⟩ => show win6_4.index t (1 : Fin 2) * 64 + 1 * q.val = q.val; rw [e.2]; omega

/-- The one block of row 5 is the row. -/
theorem rowBlock6_5 (c : Dev nD) (t : Fin cfg6.N) (q : Fin 64) :
    (iblk6 V c 5 t : Vec Ideal S1x64 .f32) (ix2 (0 : Fin 1) q)
      = (V c (Pipeline.arrRef spec6 5) : S1x64.Idx → EReal) (ix2 (0 : Fin 1) q) := by
  have e := (blockIndex6 t).2.2.2.2.2.1
  unfold iblk6
  rw [View.read_apply]
  show V c (Pipeline.arrRef spec6 5) _ = V c (Pipeline.arrRef spec6 5) _
  refine congrArg (V c (Pipeline.arrRef spec6 5)) (funext fun a => Fin.ext ?_)
  match a with
  | ⟨0, _⟩ => show win6_5.index t (0 : Fin 2) * 1 + 1 * 0 = 0; rw [e.1]
  | ⟨1, _⟩ => show win6_5.index t (1 : Fin 2) * 64 + 1 * q.val = q.val; rw [e.2]; omega

/-- The one block of row 6 is the row. -/
theorem rowBlock6_6 (c : Dev nD) (t : Fin cfg6.N) (q : Fin 64) :
    (iblk6 V c 6 t : Vec Ideal S1x64 .f32) (ix2 (0 : Fin 1) q)
      = (V c (Pipeline.arrRef spec6 6) : S1x64.Idx → EReal) (ix2 (0 : Fin 1) q) := by
  have e := (blockIndex6 t).2.2.2.2.2.2.1
  unfold iblk6
  rw [View.read_apply]
  show V c (Pipeline.arrRef spec6 6) _ = V c (Pipeline.arrRef spec6 6) _
  refine congrArg (V c (Pipeline.arrRef spec6 6)) (funext fun a => Fin.ext ?_)
  match a with
  | ⟨0, _⟩ => show win6_6.index t (0 : Fin 2) * 1 + 1 * 0 = 0; rw [e.1]
  | ⟨1, _⟩ => show win6_6.index t (1 : Fin 2) * 64 + 1 * q.val = q.val; rw [e.2]; omega

/-- The result of region 6 as one array of the arrays the region finds. -/
def result6 (c : Dev nD) : (⟨2, ![50000, 64]⟩ : Shape).Idx → EReal :=
  combine6 (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (V c (Pipeline.arrRef spec6 6))

/-- What point t writes back is block t of the result. -/
theorem written6 (c : Dev nD) (t : Fin cfg6.N) :
    (dat6 (F := Ideal) V c).flushed 7 t = ((cfg6.win 7).blk t).view.read (Elt Ideal) (result6 V c) := by
  show (cfg6.win 7).cut (grid6.coords t) ((dat6 V c).after 7 t) = _
  rw [after6_7]
  unfold out6_7
  rw [View.canon_unit_zero zeroOffsets6]
  simp only [View.ld_unit_zero (S := S2000x64) zeroOffsets6, View.ld_unit_zero (S := S2000x1) zeroOffsets6,
    View.ld_unit_zero (S := S1x64) zeroOffsets6]
  have e := (blockIndex6 t).2.2.2.2.2.2.2
  have hN : cfg6.N = 25 := N_6
  funext y
  obtain ⟨p, q, rfl⟩ : ∃ (p : Fin 2000) (q : Fin 64), y = ix2 p q := ⟨y 0, y 1, @eq_ix2 2000 64 y⟩
  have ht : t.val < 25 := hN ▸ t.isLt
  have hp : p.val < 2000 := p.isLt
  obtain ⟨P, hP⟩ : ∃ P : Fin 50000, P.val = t.val * 2000 + p.val := ⟨⟨t.val * 2000 + p.val, by omega⟩, rfl⟩
  have hy : ((cfg6.win 7).blk t).view.emb (ix2 p q) = (ix2 P q : S50000x64.Idx) := by
    funext a; apply Fin.ext
    match a with
    | ⟨0, _⟩ => show win6_7.index t (0 : Fin 2) * 2000 + 1 * p.val = P.val; rw [e.1, hP]; omega
    | ⟨1, _⟩ => show win6_7.index t (1 : Fin 2) * 64 + 1 * q.val = q.val; rw [e.2]; omega
  show k6_pay1 (iblk6 V c 0 t) (iblk6 V c 1 t) (iblk6 V c 2 t) (iblk6 V c 3 t) (iblk6 V c 4 t)
      (iblk6 V c 5 t) (iblk6 V c 6 t) (ix2 p q) = result6 V c (((cfg6.win 7).blk t).view.emb (ix2 p q))
  rw [hy, pay6_apply, nodeBlock6_0 V c t p q P hP, nodeBlock6_1 V c t p q P hP, nodeBlock6_2 V c t p q P hP,
    nodeBlock6_3 V c t p P hP, rowBlock6_4 V c t q, rowBlock6_5 V c t q, rowBlock6_6 V c t q]
  rfl

/-- An index of the result is in point t's block iff each coordinate is in the block's range on its axis. -/
theorem inBlock6 (t : Fin cfg6.N) (i : S50000x64.Idx) :
    i ∈ ((cfg6.win 7).blk t).view.set ↔ ∀ a : Fin 2, win6_7.index t a * S2000x64.size a ≤ (i a).val
      ∧ (i a).val < win6_7.index t a * S2000x64.size a + S2000x64.size a := by
  show i ∈ ((View.whole main_v152).slice (win6_7.rect t)).set ↔ _
  rw [View.set_slice_whole, Rect.mem_set_unit]
  exact Iff.rfl

/-- Node r lies in block r / 2000: the 25 blocks tile the result. -/
theorem tiled6 (i : S50000x64.Idx) :
    ∃ t : Fin cfg6.N, (cfg6.win 7).flush t = true ∧ i ∈ ((cfg6.win 7).blk t).view.set := by
  have hi0 : (i 0).val < 50000 := (i 0).isLt
  have hi1 : (i 1).val < 64 := (i 1).isLt
  have hN : cfg6.N = 25 := N_6
  obtain ⟨t, ht⟩ : ∃ t : Fin cfg6.N, t.val = (i 0).val / 2000 := ⟨⟨(i 0).val / 2000, by rw [hN]; omega⟩, rfl⟩
  have e := (blockIndex6 t).2.2.2.2.2.2.2
  refine ⟨t, flush6_7 t, ?_⟩
  rw [inBlock6]
  intro a
  match a with
  | ⟨0, _⟩ =>
    show win6_7.index t (0 : Fin 2) * 2000 ≤ (i 0).val ∧ (i 0).val < win6_7.index t (0 : Fin 2) * 2000 + 2000
    rw [e.1, ht]; omega
  | ⟨1, _⟩ =>
    show win6_7.index t (1 : Fin 2) * 64 ≤ (i 1).val ∧ (i 1).val < win6_7.index t (1 : Fin 2) * 64 + 64
    rw [e.2]; omega

/-- The result at node p, feature j. -/
theorem result6_at (c : Dev nD) (p : Fin 50000) (j : Fin 64) :
    result6 V c (ix2 p j)
      = combineAt6 (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5))
          (V c (Pipeline.arrRef spec6 6)) p j := rfl

/-- The array region 6 leaves is the combine step of the arrays it finds. -/
theorem arr6 (c : Dev nD) : (dat6 (F := Ideal) V c).arrAt 7 cfg6.N = result6 V c :=
  (dat6 (F := Ideal) V c).arrAt_eq_of_cover 7 (result6 V c) (fun t _ => written6 V c t) tiled6

/-- Region 6's result at node p, feature j. -/
theorem arr6_apply (c : Dev nD) (p : Fin 50000) (j : Fin 64) :
    (dat6 (F := Ideal) V c).arrAt 7 cfg6.N (ix2 p j)
      = combineAt6 (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5))
          (V c (Pipeline.arrRef spec6 6)) p j :=
  (congrFun (arr6 V c) (ix2 p j)).trans (result6_at V c p j)

/-- Region 6's result at node p, feature j, written out: with A the array the region leaves and AGG, HW, LIN,
    SC, BIAS, SCALE, SHIFT the arrays it finds. -/
theorem arr6_at (V : (c : Dev nD) → (b : Ref sig .tc) → Buf (Elt Ideal) ((c : Thread nD τ).loc b)) (c : Dev nD)
    (A AGG HW LIN : FVec Ideal ⟨2, ![50000, 64]⟩ .f32) (SC : FVec Ideal ⟨2, ![50000, 1]⟩ .f32)
    (BIAS SCALE SHIFT : FVec Ideal ⟨2, ![1, 64]⟩ .f32)
    (hA : (dat6 (F := Ideal) V c).arrAt 7 cfg6.N = A)
    (h0 : V c (Pipeline.arrRef spec6 0) = AGG) (h1 : V c (Pipeline.arrRef spec6 1) = HW)
    (h2 : V c (Pipeline.arrRef spec6 2) = LIN) (h3 : V c (Pipeline.arrRef spec6 3) = SC)
    (h4 : V c (Pipeline.arrRef spec6 4) = BIAS) (h5 : V c (Pipeline.arrRef spec6 5) = SCALE)
    (h6 : V c (Pipeline.arrRef spec6 6) = SHIFT) (p : Fin 50000) (j : Fin 64) :
    A (ix2 p j) = max ((((AGG (ix2 p j) + HW (ix2 p j) * SC (ix2 p (0 : Fin 1))) + LIN (ix2 p j))
        + BIAS (ix2 (0 : Fin 1) j)) * SCALE (ix2 (0 : Fin 1) j) + SHIFT (ix2 (0 : Fin 1) j)) 0 := by
  subst hA h0 h1 h2 h3 h4 h5 h6
  exact arr6_apply V c p j

end Cert.KernelIdeal.KVal
-- ==== Proof.KFold.lean ====
/-
  The kernel program's result as the network's named stages of its arguments.

  The program is eight kernel regions among stretches of host operations. Walking the buffer contents from the launch
  to the return: the first region leaves the input layer x·Wf + bf; for each of the three layers a region leaves the
  two projections h·W and h·L, the host sums the projected features over each node's in-neighbours, and a region
  combines the sum, the node's own weighted projection, the residual and the biases, normalises with a scale and shift
  folded beforehand and clips at zero — the layer's value, by the law that the folded and the centred normalisation
  agree for real parameters —; the last region leaves the output layer.
-/
import proofs.«155966_j60198261620971_1_alg».proof.Proof.Gen.KernelIdeal.Frame
import proofs.«155966_j60198261620971_1_alg».proof.Proof.KKeep
import proofs.«155966_j60198261620971_1_alg».proof.Proof.KHost
import proofs.«155966_j60198261620971_1_alg».proof.Proof.Stages
import proofs.«155966_j60198261620971_1_alg».proof.Proof.RegLinear
import proofs.«155966_j60198261620971_1_alg».proof.Proof.RegDual1
import proofs.«155966_j60198261620971_1_alg».proof.Proof.RegDual3
import proofs.«155966_j60198261620971_1_alg».proof.Proof.RegDual5
import proofs.«155966_j60198261620971_1_alg».proof.Proof.RegCombine2
import proofs.«155966_j60198261620971_1_alg».proof.Proof.RegCombine4
import proofs.«155966_j60198261620971_1_alg».proof.Proof.RegCombine6

set_option maxRecDepth 16384

noncomputable section

namespace Cert.KernelIdeal.KVal

open Idealize.ShloMosaic Idealize.ShloMosaic.TcCoe Idealize.ShloMosaic.ValueIdx
open Idealize.SL Idealize.SL.Sem
open Cert.KernelIdeal Cert.KernelIdeal.Gen Cert.ReferenceIdeal.RefG

variable (m : (ℓ : Loc nD τ sig) → Buf (Elt Ideal) ℓ) (ρ : Dev nD → PrngReg) (c : Dev nD)

set_option quotPrecheck false

local notation "aX" => (m ((c : Thread nD τ).loc main_arg0))
local notation "aE" => (m ((c : Thread nD τ).loc main_arg1))
local notation "aWf" => (m ((c : Thread nD τ).loc main_arg2))
local notation "aBf" => (m ((c : Thread nD τ).loc main_arg3))
local notation "aCW" => (m ((c : Thread nD τ).loc main_arg4))
local notation "aCb" => (m ((c : Thread nD τ).loc main_arg5))
local notation "aLW" => (m ((c : Thread nD τ).loc main_arg6))
local notation "aLb" => (m ((c : Thread nD τ).loc main_arg7))
local notation "aGa" => (m ((c : Thread nD τ).loc main_arg8))
local notation "aBe" => (m ((c : Thread nD τ).loc main_arg9))
local notation "aMu" => (m ((c : Thread nD τ).loc main_arg10))
local notation "aVar" => (m ((c : Thread nD τ).loc main_arg11))
local notation "aPW" => (m ((c : Thread nD τ).loc main_arg12))
local notation "aPb" => (m ((c : Thread nD τ).loc main_arg13))

/-- The normalisation parameters of every layer are real numbers, the running variances nonnegative. -/
structure RealParams : Prop where
  ga0 : ∀ j : Fin 64, ∃ r : ℝ, vec0 aGa (ix1 j) = (r : EReal)
  var0 : ∀ j : Fin 64, ∃ r : ℝ, 0 ≤ r ∧ vec0 aVar (ix1 j) = (r : EReal)
  mu0 : ∀ j : Fin 64, ∃ r : ℝ, vec0 aMu (ix1 j) = (r : EReal)
  be0 : ∀ j : Fin 64, ∃ r : ℝ, vec0 aBe (ix1 j) = (r : EReal)
  ga1 : ∀ j : Fin 64, ∃ r : ℝ, vec1 aGa (ix1 j) = (r : EReal)
  var1 : ∀ j : Fin 64, ∃ r : ℝ, 0 ≤ r ∧ vec1 aVar (ix1 j) = (r : EReal)
  mu1 : ∀ j : Fin 64, ∃ r : ℝ, vec1 aMu (ix1 j) = (r : EReal)
  be1 : ∀ j : Fin 64, ∃ r : ℝ, vec1 aBe (ix1 j) = (r : EReal)
  ga2 : ∀ j : Fin 64, ∃ r : ℝ, vec2 aGa (ix1 j) = (r : EReal)
  var2 : ∀ j : Fin 64, ∃ r : ℝ, 0 ≤ r ∧ vec2 aVar (ix1 j) = (r : EReal)
  mu2 : ∀ j : Fin 64, ∃ r : ℝ, vec2 aMu (ix1 j) = (r : EReal)
  be2 : ∀ j : Fin 64, ∃ r : ℝ, vec2 aBe (ix1 j) = (r : EReal)

/-- Real parameters entry by entry give real parameters layer by layer. -/
theorem RealParams.of_entries
    (hga : ∀ i : S3x64.Idx, ∃ r : ℝ, aGa i = (r : EReal)) (hbe : ∀ i : S3x64.Idx, ∃ r : ℝ, aBe i = (r : EReal))
    (hmu : ∀ i : S3x64.Idx, ∃ r : ℝ, aMu i = (r : EReal)) (hvar : ∀ i : S3x64.Idx, ∃ r : ℝ, 0 ≤ r ∧ aVar i = (r : EReal)) :
    RealParams m c where
    ga0 := fun j => by rw [vec0_at]; exact hga _
    var0 := fun j => by rw [vec0_at]; exact hvar _
    mu0 := fun j => by rw [vec0_at]; exact hmu _
    be0 := fun j => by rw [vec0_at]; exact hbe _
    ga1 := fun j => by rw [vec1_at]; exact hga _
    var1 := fun j => by rw [vec1_at]; exact hvar _
    mu1 := fun j => by rw [vec1_at]; exact hmu _
    be1 := fun j => by rw [vec1_at]; exact hbe _
    ga2 := fun j => by rw [vec2_at]; exact hga _
    var2 := fun j => by rw [vec2_at]; exact hvar _
    mu2 := fun j => by rw [vec2_at]; exact hmu _
    be2 := fun j => by rw [vec2_at]; exact hbe _

/-! ### The input layer -/

/-- Region 0 leaves x·Wf + bf. -/
theorem val_h0 : Gen.W2 m ρ c (Proc.devRef .tc main_v29) = h0 aX aWf aBf := by
  refine (Gen.W2_arr m ρ c 3).trans ?_
  funext i
  obtain ⟨p, j, rfl⟩ : ∃ (p : Fin 50000) (j : Fin 64), i = ix2 p j := ⟨i 0, i 1, eq_ix2 i⟩
  have e0 : Gen.V1 m ρ c (Pipeline.arrRef spec0 0) = aX := keep_arg0_1 m ρ c
  have e1 : Gen.V1 m ρ c (Pipeline.arrRef spec0 1) = aWf := keep_arg2_1 m ρ c
  have e2 : Gen.V1 m ρ c (Pipeline.arrRef spec0 2) = shapeCast _ aBf shapeCasts_S64_S1x64 := host0_bias (Gen.W0 m ρ c)
  rw [arr0_at (Gen.V1 m ρ) c p j, e0, e1, e2]
  exact h0_at aX aWf aBf shapeCasts_S64_S1x64 p j

/-! ### Layer 1 -/

/-- The features entering layer 1's two projections. -/
theorem in1 : Gen.W3 m ρ c (Proc.devRef .tc main_v29) = (h0 aX aWf aBf) :=
  (keep_v29_3 m ρ c).trans (val_h0 m ρ c)

theorem convW1 : Gen.W3 m ρ c (Proc.devRef .tc main_v31) = mat0 aCW :=
  (host1_convW (Gen.W2 m ρ c)).trans (congrArg mat0 (keep_arg4_2 m ρ c))

theorem linW1 : Gen.W3 m ρ c (Proc.devRef .tc main_v33) = mat0 aLW :=
  (host1_linW (Gen.W2 m ρ c)).trans (congrArg mat0 (keep_arg6_2 m ρ c))

/-- The convolution's projection h·W leaves region 1 in its first output. -/
theorem val_hw1 : Gen.W4 m ρ c (Proc.devRef .tc main_v34_0) = dot64 (h0 aX aWf aBf) (mat0 aCW) := by
  refine (Gen.W4_arr m ρ c 3).trans ?_
  funext i
  obtain ⟨p, j, rfl⟩ : ∃ (p : Fin 50000) (j : Fin 64), i = ix2 p j := ⟨i 0, i 1, eq_ix2 i⟩
  exact (arr1_3_at (Gen.V3 m ρ) c _ _ _ rfl (in1 m ρ c) (convW1 m ρ c) p j).trans (dot64_at _ _ p j).symm

/-- The residual's projection h·L leaves region 1 in its second output. -/
theorem val_lin1 : Gen.W4 m ρ c (Proc.devRef .tc main_v34_1) = dot64 (h0 aX aWf aBf) (mat0 aLW) := by
  refine (Gen.W4_arr m ρ c 4).trans ?_
  funext i
  obtain ⟨p, j, rfl⟩ : ∃ (p : Fin 50000) (j : Fin 64), i = ix2 p j := ⟨i 0, i 1, eq_ix2 i⟩
  exact (arr1_4_at (Gen.V3 m ρ) c _ _ _ rfl (in1 m ρ c) (linW1 m ρ c) p j).trans (dot64_at _ _ p j).symm

set_option maxHeartbeats 2000000 in
/-- Layer 1's output leaves region 2. -/
theorem val_h1 (hP : RealParams m c) : Gen.W6 m ρ c (Proc.devRef .tc main_v70) = h1 aX aE aWf aBf aCW aCb aLW aLb aGa aBe aMu aVar := by
  refine (Gen.W6_arr m ρ c 7).trans ?_
  funext i
  obtain ⟨p, j, rfl⟩ : ∃ (p : Fin 50000) (j : Fin 64), i = ix2 p j := ⟨i 0, i 1, eq_ix2 i⟩
  have esrc : Gen.W4 m ρ c (Proc.devRef .tc main_v1) = srcv aE := (keep_v1_4 m ρ c).trans (host0_src (Gen.W0 m ρ c))
  have edst : Gen.W4 m ρ c (Proc.devRef .tc main_v3) = dstv aE := (keep_v3_4 m ρ c).trans (host0_dst (Gen.W0 m ρ c))
  have eec : Gen.W4 m ρ c (Proc.devRef .tc main_v25) = ecoef (srcv aE) (dstv aE) := (keep_v25_4 m ρ c).trans (host0_ecoef (Gen.W0 m ρ c))
  have ehw : Gen.W4 m ρ c (Proc.devRef .tc main_v34_0) = dot64 (h0 aX aWf aBf) (mat0 aCW) := val_hw1 m ρ c
  have e0 : Gen.V5 m ρ c (Pipeline.arrRef spec2 0) = aggOf (srcv aE) (dstv aE) (ecoef (srcv aE) (dstv aE)) (dot64 (h0 aX aWf aBf) (mat0 aCW)) := by
    refine (host2_agg (Gen.W4 m ρ c)).trans ?_
    rw [esrc, edst, eec, ehw]
  have e1 : Gen.V5 m ρ c (Pipeline.arrRef spec2 1) = dot64 (h0 aX aWf aBf) (mat0 aCW) := (keep_v34_0_5 m ρ c).trans ehw
  have e2 : Gen.V5 m ρ c (Pipeline.arrRef spec2 2) = dot64 (h0 aX aWf aBf) (mat0 aLW) := (keep_v34_1_5 m ρ c).trans (val_lin1 m ρ c)
  have e3 : Gen.V5 m ρ c (Pipeline.arrRef spec2 3) = scoefCol (dstv aE) := (keep_v27_5 m ρ c).trans (host0_scoef (Gen.W0 m ρ c))
  have a5 : Gen.W4 m ρ c (Proc.devRef .tc main_arg5) = aCb := (keep_arg5_4 m ρ c)
  have a7 : Gen.W4 m ρ c (Proc.devRef .tc main_arg7) = aLb := (keep_arg7_4 m ρ c)
  have a8 : Gen.W4 m ρ c (Proc.devRef .tc main_arg8) = aGa := (keep_arg8_4 m ρ c)
  have a9 : Gen.W4 m ρ c (Proc.devRef .tc main_arg9) = aBe := (keep_arg9_4 m ρ c)
  have a10 : Gen.W4 m ρ c (Proc.devRef .tc main_arg10) = aMu := (keep_arg10_4 m ρ c)
  have a11 : Gen.W4 m ρ c (Proc.devRef .tc main_arg11) = aVar := (keep_arg11_4 m ρ c)
  have e4 : Gen.V5 m ρ c (Pipeline.arrRef spec2 4) = shapeCast _ (addf (vec0 aCb) (vec0 aLb)) shapeCasts_S64_S1x64 := by
    refine (host2_bias (Gen.W4 m ρ c)).trans ?_
    rw [a5, a7]
  have e5 : Gen.V5 m ρ c (Pipeline.arrRef spec2 5) = shapeCast _ (scale (vec0 aGa) (vec0 aVar)) shapeCasts_S64_S1x64 := by
    refine (host2_scale (Gen.W4 m ρ c)).trans ?_
    rw [a8, a11]
  have e6 : Gen.V5 m ρ c (Pipeline.arrRef spec2 6)
      = shapeCast _ (subf (vec0 aBe) (mulf (vec0 aMu) (scale (vec0 aGa) (vec0 aVar)))) shapeCasts_S64_S1x64 := by
    refine (host2_shift (Gen.W4 m ρ c)).trans ?_
    rw [a9, a10, a8, a11]
  refine (arr2_at (Gen.V5 m ρ) c _ _ _ _ _ _ _ _ rfl e0 e1 e2 e3 e4 e5 e6 p j).trans ?_
  exact layer_eq_folded (srcv aE) (dstv aE) (h0 aX aWf aBf) (mat0 aCW) (mat0 aLW) (vec0 aCb) (vec0 aLb) (vec0 aMu) (vec0 aGa) (vec0 aVar) (vec0 aBe)
    shapeCasts_S64_S1x64 p j (hP.ga0 j) (hP.var0 j) (hP.mu0 j) (hP.be0 j)

/-! ### Layer 2 -/

/-- The features entering layer 2's two projections. -/
theorem in2 (hP : RealParams m c) : Gen.W7 m ρ c (Proc.devRef .tc main_v70) = (h1 aX aE aWf aBf aCW aCb aLW aLb aGa aBe aMu aVar) :=
  (keep_v70_7 m ρ c).trans (val_h1 m ρ c hP)

theorem convW2 : Gen.W7 m ρ c (Proc.devRef .tc main_v72) = mat1 aCW :=
  (host3_convW (Gen.W6 m ρ c)).trans (congrArg mat1 ((keep_arg4_6 m ρ c).trans (keep_arg4_2 m ρ c)))

theorem linW2 : Gen.W7 m ρ c (Proc.devRef .tc main_v74) = mat1 aLW :=
  (host3_linW (Gen.W6 m ρ c)).trans (congrArg mat1 ((keep_arg6_6 m ρ c).trans (keep_arg6_2 m ρ c)))

/-- The convolution's projection h·W leaves region 3 in its first output. -/
theorem val_hw2 (hP : RealParams m c) : Gen.W8 m ρ c (Proc.devRef .tc main_v75_0) = dot64 (h1 aX aE aWf aBf aCW aCb aLW aLb aGa aBe aMu aVar) (mat1 aCW) := by
  refine (Gen.W8_arr m ρ c 3).trans ?_
  funext i
  obtain ⟨p, j, rfl⟩ : ∃ (p : Fin 50000) (j : Fin 64), i = ix2 p j := ⟨i 0, i 1, eq_ix2 i⟩
  exact (arr3_3_at (Gen.V7 m ρ) c _ _ _ rfl (in2 m ρ c hP) (convW2 m ρ c) p j).trans (dot64_at _ _ p j).symm

/-- The residual's projection h·L leaves region 3 in its second output. -/
theorem val_lin2 (hP : RealParams m c) : Gen.W8 m ρ c (Proc.devRef .tc main_v75_1) = dot64 (h1 aX aE aWf aBf aCW aCb aLW aLb aGa aBe aMu aVar) (mat1 aLW) := by
  refine (Gen.W8_arr m ρ c 4).trans ?_
  funext i
  obtain ⟨p, j, rfl⟩ : ∃ (p : Fin 50000) (j : Fin 64), i = ix2 p j := ⟨i 0, i 1, eq_ix2 i⟩
  exact (arr3_4_at (Gen.V7 m ρ) c _ _ _ rfl (in2 m ρ c hP) (linW2 m ρ c) p j).trans (dot64_at _ _ p j).symm

set_option maxHeartbeats 2000000 in
/-- Layer 2's output leaves region 4. -/
theorem val_h2 (hP : RealParams m c) : Gen.W10 m ρ c (Proc.devRef .tc main_v111) = h2 aX aE aWf aBf aCW aCb aLW aLb aGa aBe aMu aVar := by
  refine (Gen.W10_arr m ρ c 7).trans ?_
  funext i
  obtain ⟨p, j, rfl⟩ : ∃ (p : Fin 50000) (j : Fin 64), i = ix2 p j := ⟨i 0, i 1, eq_ix2 i⟩
  have esrc : Gen.W8 m ρ c (Proc.devRef .tc main_v1) = srcv aE := ((keep_v1_8 m ρ c).trans (keep_v1_4 m ρ c)).trans (host0_src (Gen.W0 m ρ c))
  have edst : Gen.W8 m ρ c (Proc.devRef .tc main_v3) = dstv aE := ((keep_v3_8 m ρ c).trans (keep_v3_4 m ρ c)).trans (host0_dst (Gen.W0 m ρ c))
  have eec : Gen.W8 m ρ c (Proc.devRef .tc main_v25) = ecoef (srcv aE) (dstv aE) := ((keep_v25_8 m ρ c).trans (keep_v25_4 m ρ c)).trans (host0_ecoef (Gen.W0 m ρ c))
  have ehw : Gen.W8 m ρ c (Proc.devRef .tc main_v75_0) = dot64 (h1 aX aE aWf aBf aCW aCb aLW aLb aGa aBe aMu aVar) (mat1 aCW) := val_hw2 m ρ c hP
  have e0 : Gen.V9 m ρ c (Pipeline.arrRef spec4 0) = aggOf (srcv aE) (dstv aE) (ecoef (srcv aE) (dstv aE)) (dot64 (h1 aX aE aWf aBf aCW aCb aLW aLb aGa aBe aMu aVar) (mat1 aCW)) := by
    refine (host4_agg (Gen.W8 m ρ c)).trans ?_
    rw [esrc, edst, eec, ehw]
  have e1 : Gen.V9 m ρ c (Pipeline.arrRef spec4 1) = dot64 (h1 aX aE aWf aBf aCW aCb aLW aLb aGa aBe aMu aVar) (mat1 aCW) := (keep_v75_0_9 m ρ c).trans ehw
  have e2 : Gen.V9 m ρ c (Pipeline.arrRef spec4 2) = dot64 (h1 aX aE aWf aBf aCW aCb aLW aLb aGa aBe aMu aVar) (mat1 aLW) := (keep_v75_1_9 m ρ c).trans (val_lin2 m ρ c hP)
  have e3 : Gen.V9 m ρ c (Pipeline.arrRef spec4 3) = scoefCol (dstv aE) := ((keep_v27_9 m ρ c).trans (keep_v27_5 m ρ c)).trans (host0_scoef (Gen.W0 m ρ c))
  have a5 : Gen.W8 m ρ c (Proc.devRef .tc main_arg5) = aCb := ((keep_arg5_8 m ρ c).trans (keep_arg5_4 m ρ c))
  have a7 : Gen.W8 m ρ c (Proc.devRef .tc main_arg7) = aLb := ((keep_arg7_8 m ρ c).trans (keep_arg7_4 m ρ c))
  have a8 : Gen.W8 m ρ c (Proc.devRef .tc main_arg8) = aGa := ((keep_arg8_8 m ρ c).trans (keep_arg8_4 m ρ c))
  have a9 : Gen.W8 m ρ c (Proc.devRef .tc main_arg9) = aBe := ((keep_arg9_8 m ρ c).trans (keep_arg9_4 m ρ c))
  have a10 : Gen.W8 m ρ c (Proc.devRef .tc main_arg10) = aMu := ((keep_arg10_8 m ρ c).trans (keep_arg10_4 m ρ c))
  have a11 : Gen.W8 m ρ c (Proc.devRef .tc main_arg11) = aVar := ((keep_arg11_8 m ρ c).trans (keep_arg11_4 m ρ c))
  have e4 : Gen.V9 m ρ c (Pipeline.arrRef spec4 4) = shapeCast _ (addf (vec1 aCb) (vec1 aLb)) shapeCasts_S64_S1x64 := by
    refine (host4_bias (Gen.W8 m ρ c)).trans ?_
    rw [a5, a7]
  have e5 : Gen.V9 m ρ c (Pipeline.arrRef spec4 5) = shapeCast _ (scale (vec1 aGa) (vec1 aVar)) shapeCasts_S64_S1x64 := by
    refine (host4_scale (Gen.W8 m ρ c)).trans ?_
    rw [a8, a11]
  have e6 : Gen.V9 m ρ c (Pipeline.arrRef spec4 6)
      = shapeCast _ (subf (vec1 aBe) (mulf (vec1 aMu) (scale (vec1 aGa) (vec1 aVar)))) shapeCasts_S64_S1x64 := by
    refine (host4_shift (Gen.W8 m ρ c)).trans ?_
    rw [a9, a10, a8, a11]
  refine (arr4_at (Gen.V9 m ρ) c _ _ _ _ _ _ _ _ rfl e0 e1 e2 e3 e4 e5 e6 p j).trans ?_
  exact layer_eq_folded (srcv aE) (dstv aE) (h1 aX aE aWf aBf aCW aCb aLW aLb aGa aBe aMu aVar) (mat1 aCW) (mat1 aLW) (vec1 aCb) (vec1 aLb) (vec1 aMu) (vec1 aGa) (vec1 aVar) (vec1 aBe)
    shapeCasts_S64_S1x64 p j (hP.ga1 j) (hP.var1 j) (hP.mu1 j) (hP.be1 j)

/-! ### Layer 3 -/

/-- The features entering layer 3's two projections. -/
theorem in3 (hP : RealParams m c) : Gen.W11 m ρ c (Proc.devRef .tc main_v111) = (h2 aX aE aWf aBf aCW aCb aLW aLb aGa aBe aMu aVar) :=
  (keep_v111_11 m ρ c).trans (val_h2 m ρ c hP)

theorem convW3 : Gen.W11 m ρ c (Proc.devRef .tc main_v113) = mat2 aCW :=
  (host5_convW (Gen.W10 m ρ c)).trans (congrArg mat2 ((keep_arg4_10 m ρ c).trans ((keep_arg4_6 m ρ c).trans (keep_arg4_2 m ρ c))))

theorem linW3 : Gen.W11 m ρ c (Proc.devRef .tc main_v115) = mat2 aLW :=
  (host5_linW (Gen.W10 m ρ c)).trans (congrArg mat2 ((keep_arg6_10 m ρ c).trans ((keep_arg6_6 m ρ c).trans (keep_arg6_2 m ρ c))))

/-- The convolution's projection h·W leaves region 5 in its first output. -/
theorem val_hw3 (hP : RealParams m c) : Gen.W12 m ρ c (Proc.devRef .tc main_v116_0) = dot64 (h2 aX aE aWf aBf aCW aCb aLW aLb aGa aBe aMu aVar) (mat2 aCW) := by
  refine (Gen.W12_arr m ρ c 3).trans ?_
  funext i
  obtain ⟨p, j, rfl⟩ : ∃ (p : Fin 50000) (j : Fin 64), i = ix2 p j := ⟨i 0, i 1, eq_ix2 i⟩
  exact (arr5_3_at (Gen.V11 m ρ) c _ _ _ rfl (in3 m ρ c hP) (convW3 m ρ c) p j).trans (dot64_at _ _ p j).symm

/-- The residual's projection h·L leaves region 5 in its second output. -/
theorem val_lin3 (hP : RealParams m c) : Gen.W12 m ρ c (Proc.devRef .tc main_v116_1) = dot64 (h2 aX aE aWf aBf aCW aCb aLW aLb aGa aBe aMu aVar) (mat2 aLW) := by
  refine (Gen.W12_arr m ρ c 4).trans ?_
  funext i
  obtain ⟨p, j, rfl⟩ : ∃ (p : Fin 50000) (j : Fin 64), i = ix2 p j := ⟨i 0, i 1, eq_ix2 i⟩
  exact (arr5_4_at (Gen.V11 m ρ) c _ _ _ rfl (in3 m ρ c hP) (linW3 m ρ c) p j).trans (dot64_at _ _ p j).symm

set_option maxHeartbeats 2000000 in
/-- Layer 3's output leaves region 6. -/
theorem val_h3 (hP : RealParams m c) : Gen.W14 m ρ c (Proc.devRef .tc main_v152) = h3 aX aE aWf aBf aCW aCb aLW aLb aGa aBe aMu aVar := by
  refine (Gen.W14_arr m ρ c 7).trans ?_
  funext i
  obtain ⟨p, j, rfl⟩ : ∃ (p : Fin 50000) (j : Fin 64), i = ix2 p j := ⟨i 0, i 1, eq_ix2 i⟩
  have esrc : Gen.W12 m ρ c (Proc.devRef .tc main_v1) = srcv aE := ((keep_v1_12 m ρ c).trans ((keep_v1_8 m ρ c).trans (keep_v1_4 m ρ c))).trans (host0_src (Gen.W0 m ρ c))
  have edst : Gen.W12 m ρ c (Proc.devRef .tc main_v3) = dstv aE := ((keep_v3_12 m ρ c).trans ((keep_v3_8 m ρ c).trans (keep_v3_4 m ρ c))).trans (host0_dst (Gen.W0 m ρ c))
  have eec : Gen.W12 m ρ c (Proc.devRef .tc main_v25) = ecoef (srcv aE) (dstv aE) := ((keep_v25_12 m ρ c).trans ((keep_v25_8 m ρ c).trans (keep_v25_4 m ρ c))).trans (host0_ecoef (Gen.W0 m ρ c))
  have ehw : Gen.W12 m ρ c (Proc.devRef .tc main_v116_0) = dot64 (h2 aX aE aWf aBf aCW aCb aLW aLb aGa aBe aMu aVar) (mat2 aCW) := val_hw3 m ρ c hP
  have e0 : Gen.V13 m ρ c (Pipeline.arrRef spec6 0) = aggOf (srcv aE) (dstv aE) (ecoef (srcv aE) (dstv aE)) (dot64 (h2 aX aE aWf aBf aCW aCb aLW aLb aGa aBe aMu aVar) (mat2 aCW)) := by
    refine (host6_agg (Gen.W12 m ρ c)).trans ?_
    rw [esrc, edst, eec, ehw]
  have e1 : Gen.V13 m ρ c (Pipeline.arrRef spec6 1) = dot64 (h2 aX aE aWf aBf aCW aCb aLW aLb aGa aBe aMu aVar) (mat2 aCW) := (keep_v116_0_13 m ρ c).trans ehw
  have e2 : Gen.V13 m ρ c (Pipeline.arrRef spec6 2) = dot64 (h2 aX aE aWf aBf aCW aCb aLW aLb aGa aBe aMu aVar) (mat2 aLW) := (keep_v116_1_13 m ρ c).trans (val_lin3 m ρ c hP)
  have e3 : Gen.V13 m ρ c (Pipeline.arrRef spec6 3) = scoefCol (dstv aE) := ((keep_v27_13 m ρ c).trans ((keep_v27_9 m ρ c).trans (keep_v27_5 m ρ c))).trans (host0_scoef (Gen.W0 m ρ c))
  have a5 : Gen.W12 m ρ c (Proc.devRef .tc main_arg5) = aCb := ((keep_arg5_12 m ρ c).trans ((keep_arg5_8 m ρ c).trans (keep_arg5_4 m ρ c)))
  have a7 : Gen.W12 m ρ c (Proc.devRef .tc main_arg7) = aLb := ((keep_arg7_12 m ρ c).trans ((keep_arg7_8 m ρ c).trans (keep_arg7_4 m ρ c)))
  have a8 : Gen.W12 m ρ c (Proc.devRef .tc main_arg8) = aGa := ((keep_arg8_12 m ρ c).trans ((keep_arg8_8 m ρ c).trans (keep_arg8_4 m ρ c)))
  have a9 : Gen.W12 m ρ c (Proc.devRef .tc main_arg9) = aBe := ((keep_arg9_12 m ρ c).trans ((keep_arg9_8 m ρ c).trans (keep_arg9_4 m ρ c)))
  have a10 : Gen.W12 m ρ c (Proc.devRef .tc main_arg10) = aMu := ((keep_arg10_12 m ρ c).trans ((keep_arg10_8 m ρ c).trans (keep_arg10_4 m ρ c)))
  have a11 : Gen.W12 m ρ c (Proc.devRef .tc main_arg11) = aVar := ((keep_arg11_12 m ρ c).trans ((keep_arg11_8 m ρ c).trans (keep_arg11_4 m ρ c)))
  have e4 : Gen.V13 m ρ c (Pipeline.arrRef spec6 4) = shapeCast _ (addf (vec2 aCb) (vec2 aLb)) shapeCasts_S64_S1x64 := by
    refine (host6_bias (Gen.W12 m ρ c)).trans ?_
    rw [a5, a7]
  have e5 : Gen.V13 m ρ c (Pipeline.arrRef spec6 5) = shapeCast _ (scale (vec2 aGa) (vec2 aVar)) shapeCasts_S64_S1x64 := by
    refine (host6_scale (Gen.W12 m ρ c)).trans ?_
    rw [a8, a11]
  have e6 : Gen.V13 m ρ c (Pipeline.arrRef spec6 6)
      = shapeCast _ (subf (vec2 aBe) (mulf (vec2 aMu) (scale (vec2 aGa) (vec2 aVar)))) shapeCasts_S64_S1x64 := by
    refine (host6_shift (Gen.W12 m ρ c)).trans ?_
    rw [a9, a10, a8, a11]
  refine (arr6_at (Gen.V13 m ρ) c _ _ _ _ _ _ _ _ rfl e0 e1 e2 e3 e4 e5 e6 p j).trans ?_
  exact layer_eq_folded (srcv aE) (dstv aE) (h2 aX aE aWf aBf aCW aCb aLW aLb aGa aBe aMu aVar) (mat2 aCW) (mat2 aLW) (vec2 aCb) (vec2 aLb) (vec2 aMu) (vec2 aGa) (vec2 aVar) (vec2 aBe)
    shapeCasts_S64_S1x64 p j (hP.ga2 j) (hP.var2 j) (hP.mu2 j) (hP.be2 j)

/-! ### The output layer -/

/-- Region 7 leaves h·P + pb: the network's value. -/
theorem val_out (hP : RealParams m c) :
    Gen.W16 m ρ c (Proc.devRef .tc main_v154) = net aX aE aWf aBf aCW aCb aLW aLb aGa aBe aMu aVar aPW aPb := by
  refine (Gen.W16_arr m ρ c 3).trans ?_
  funext i
  obtain ⟨p, j, rfl⟩ : ∃ (p : Fin 50000) (j : Fin 40), i = ix2 p j := ⟨i 0, i 1, eq_ix2 i⟩
  have e0 : Gen.V15 m ρ c (Pipeline.arrRef spec7 0) = h3 aX aE aWf aBf aCW aCb aLW aLb aGa aBe aMu aVar :=
    (keep_v152_15 m ρ c).trans (val_h3 m ρ c hP)
  have e1 : Gen.V15 m ρ c (Pipeline.arrRef spec7 1) = aPW := keep_arg12_15 m ρ c
  have e2 : Gen.V15 m ρ c (Pipeline.arrRef spec7 2) = shapeCast _ aPb shapeCasts_S40_S1x40 :=
    (host7_bias (Gen.W14 m ρ c)).trans (by rw [keep_arg13_14 m ρ c])
  rw [arr7_at (Gen.V15 m ρ) c p j, e0, e1, e2]
  exact outL_at _ aPW aPb shapeCasts_S40_S1x40 p j

end Cert.KernelIdeal.KVal

end
-- ==== Proof.RefBridge.lean ====
/-
  The reference's result, as its run states it — one composed term of the arguments —, is the network of named stages:
  the same operations, each shared stage written once.
-/
import proofs.«155966_j60198261620971_1_alg».proof.Proof.Gen.ReferenceIdeal.Run
import proofs.«155966_j60198261620971_1_alg».proof.Proof.RefDefs

set_option maxRecDepth 16384

noncomputable section

namespace Cert.ReferenceIdeal.RefG

open Idealize.ShloMosaic Idealize.ShloMosaic.TcCoe Idealize.SL.Sem Cert.ReferenceIdeal

/-- The run's result term is the network applied to the argument arrays. -/
theorem res_eq_net (m : (ℓ : Loc nD τ sig) → Buf (Elt Ideal) ℓ) (c : Dev nD) :
    Cert.ReferenceIdeal.Value.res_main_v200 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) := by
  unfold Cert.ReferenceIdeal.Value.res_main_v200
  rfl

end Cert.ReferenceIdeal.RefG

end
-- ==== Proof.PreReal.lean ====
/-
  The precondition read back at the batch-normalisation parameters.  The generated predicate is a conjunction, one
  conjunct per float argument, each saying that every entry x of the array has max x (-x) < +∞, and a last conjunct
  saying that every entry of the running variance is ≥ 0.  In the extended reals max x (-x) < ⊤ holds exactly when x
  is neither ⊤ nor ⊥, that is, when x is a real number.  So under the precondition the scale, the shift and the running
  mean hold real numbers, and the running variance holds nonnegative real numbers.
-/
import proofs.«155966_j60198261620971_1_alg».proof.Defs
import proofs.«155966_j60198261620971_1_alg».proof.Proof.Gen.Pre_finite_inputs
import Idealize.ShloMosaic.Lib.ReduceAll

noncomputable section

namespace Cert.KernelIdeal.KVal

open Idealize.ShloMosaic Idealize.SL.Sem
open Cert.Pre_finite_inputs (S_ fn fn_part1 fn_part2 fn_part3)
open Cert.Pre_finite_inputs.Facts

/-- The rank-0 shape has one index. -/
instance subsingleton_scalar_idx : Subsingleton Cert.Pre_finite_inputs.S_.Idx := ⟨fun a b => funext fun d => d.elim0⟩

/-- A one-bit word made from a Boolean is 1 exactly when the Boolean is true. -/
theorem ofBool_eq_one_iff (b : Bool) : BitVec.ofBool b = 1#1 ↔ b = true := by cases b <;> decide

/-- The word 0x7F800000 is +∞. -/
theorem ofBits_inf : Ideal.ofBits .f32 0x7F800000#32 = (⊤ : EReal) := by simp [Ideal.ofBits, Ideal.ieee]

/-- The word 0x00000000 is 0. -/
theorem ofBits_zero : Ideal.ofBits .f32 0x00000000#32 = (0 : EReal) := by simp [Ideal.ofBits, Ideal.ieee]

/-- An extended real whose absolute value max x (-x) is below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The ordered comparison "x < +∞ word" on absolute values, when it answers 1, says x is real. -/
theorem real_of_cmp_olt (x : EReal) (h : Ideal.cmp .olt (max x (-x)) (Ideal.ofBits .f32 0x7F800000#32) = 1#1) :
    ∃ r : ℝ, x = (r : EReal) := by
  rw [ofBits_inf] at h
  unfold Ideal.cmp at h
  rw [ofBool_eq_one_iff] at h
  exact real_of_abs_lt_top x (of_decide_eq_true h)

/-- The ordered comparison "x ≥ zero word", when it answers 1, says 0 ≤ x. -/
theorem nonneg_of_cmp_oge (x : EReal) (h : Ideal.cmp .oge x (Ideal.ofBits .f32 0x00000000#32) = 1#1) : 0 ≤ x := by
  rw [ofBits_zero] at h
  unfold Ideal.cmp at h
  rw [ofBool_eq_one_iff] at h
  exact of_decide_eq_true h

/-- all(|x| < +∞) over a [3,64] array, as the predicate prints it, at the one result index. -/
abbrev AllFinite (x : FVec Ideal Cert.Pre_finite_inputs.S3x64 .f32) (j : S_.Idx) : Prop :=
  Host.reduce IntOp.andi
    (cmpf .olt (Host.absf x)
      (broadcastInDim Cert.Pre_finite_inputs.S3x64 ![] bcast_S_S3x64 (constant S_ .f32 0x7F800000#32)))
    (constantI S_ 1 1#1) reducesTo_S3x64_S_d0_1 h_S_ j = 1#1

/-- all(x ≥ 0) over a [3,64] array, as the predicate prints it, at the one result index. -/
abbrev AllNonneg (x : FVec Ideal Cert.Pre_finite_inputs.S3x64 .f32) (j : S_.Idx) : Prop :=
  Host.reduce IntOp.andi
    (cmpf .oge x
      (broadcastInDim Cert.Pre_finite_inputs.S3x64 ![] bcast_S_S3x64 (constant S_ .f32 0x00000000#32)))
    (constantI S_ 1 1#1) reducesTo_S3x64_S_d0_1 h_S_ j = 1#1

/-- all(|x| < +∞) gives a real number at every index. -/
theorem real_of_allFinite (x : FVec Ideal Cert.Pre_finite_inputs.S3x64 .f32) (j : S_.Idx) (h : AllFinite x j)
    (i : Cert.Pre_finite_inputs.S3x64.Idx) : ∃ r : ℝ, x i = (r : EReal) :=
  real_of_cmp_olt (x i) (Host.reduce_andi_all _ _ _ _ j h i)

/-- all(x ≥ 0) gives 0 ≤ x at every index. -/
theorem nonneg_of_allNonneg (x : FVec Ideal Cert.Pre_finite_inputs.S3x64 .f32) (j : S_.Idx) (h : AllNonneg x j)
    (i : Cert.Pre_finite_inputs.S3x64.Idx) : (0 : EReal) ≤ x i :=
  nonneg_of_cmp_oge (x i) (Host.reduce_andi_all _ _ _ _ j h i)

/-- The predicate's first part hands its running conjunction to the second part. -/
theorem part1_of_fn
    (a0 : FVec Ideal Cert.Pre_finite_inputs.S50000x128 .f32) (a1 : IVec Cert.Pre_finite_inputs.S2x800000 32)
    (a2 : FVec Ideal Cert.Pre_finite_inputs.S128x64 .f32) (a3 : FVec Ideal Cert.Pre_finite_inputs.S64 .f32)
    (a4 : FVec Ideal Cert.Pre_finite_inputs.S3x64x64 .f32) (a5 : FVec Ideal Cert.Pre_finite_inputs.S3x64 .f32)
    (a6 : FVec Ideal Cert.Pre_finite_inputs.S3x64x64 .f32) (a7 a8 a9 a10 a11 : FVec Ideal Cert.Pre_finite_inputs.S3x64 .f32)
    (a12 : FVec Ideal Cert.Pre_finite_inputs.S64x40 .f32) (a13 : FVec Ideal Cert.Pre_finite_inputs.S40 .f32) (j : S_.Idx)
    (h : fn (F := Ideal) a0 a1 a2 a3 a4 a5 a6 a7 a8 a9 a10 a11 a12 a13 j = 1#1) :
    ∃ v13 v16, fn_part1 (F := Ideal) a5 a6 a7 a8 a9 a10 a11 a12 a13 v13 v16 j = 1#1 :=
  ⟨_, _, h⟩

/-- The predicate's second part hands its running conjunction to the third part. -/
theorem part2_of_part1
    (a5 : FVec Ideal Cert.Pre_finite_inputs.S3x64 .f32)
    (a6 : FVec Ideal Cert.Pre_finite_inputs.S3x64x64 .f32) (a7 a8 a9 a10 a11 : FVec Ideal Cert.Pre_finite_inputs.S3x64 .f32)
    (a12 : FVec Ideal Cert.Pre_finite_inputs.S64x40 .f32) (a13 : FVec Ideal Cert.Pre_finite_inputs.S40 .f32)
    (v13 : IVec S_ 1) (v16 : IVec Cert.Pre_finite_inputs.S3x64x64 1) (j : S_.Idx)
    (h : fn_part1 (F := Ideal) a5 a6 a7 a8 a9 a10 a11 a12 a13 v13 v16 j = 1#1) :
    ∃ v33, fn_part2 (F := Ideal) a8 a9 a10 a11 a12 a13 v33 j = 1#1 :=
  ⟨_, h⟩

/-- The last two parts of the conjunction, split: the four [3,64] parameters are finite everywhere and the last of
    them is nonnegative everywhere. -/
theorem conjuncts_of_part2
    (a8 a9 a10 a11 : FVec Ideal Cert.Pre_finite_inputs.S3x64 .f32)
    (a12 : FVec Ideal Cert.Pre_finite_inputs.S64x40 .f32) (a13 : FVec Ideal Cert.Pre_finite_inputs.S40 .f32)
    (v33 : IVec S_ 1) (j : S_.Idx)
    (h : fn_part2 (F := Ideal) a8 a9 a10 a11 a12 a13 v33 j = 1#1) :
    AllFinite a8 j ∧ AllFinite a9 j ∧ AllFinite a10 j ∧ AllFinite a11 j ∧ AllNonneg a11 j := by
  unfold fn_part2 fn_part3 at h
  simp only [andi, IntOp.andi_eq_one] at h
  obtain ⟨⟨⟨⟨⟨⟨⟨-, h8⟩, h9⟩, h10⟩, h11⟩, -⟩, -⟩, hge⟩ := h
  exact ⟨h8, h9, h10, h11, hge⟩

/-- Under the precondition the scale, the shift and the running mean of the batch normalisation hold real numbers and
    its running variance holds nonnegative real numbers. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
      (∀ i : Cert.Pre_finite_inputs.S3x64.Idx, ∃ r : ℝ,
        m ((c.tc : Thread Cert.KernelIdeal.nD Cert.KernelIdeal.τ).loc Cert.KernelIdeal.main_arg8) i = (r : EReal))
    ∧ (∀ i : Cert.Pre_finite_inputs.S3x64.Idx, ∃ r : ℝ,
        m ((c.tc : Thread Cert.KernelIdeal.nD Cert.KernelIdeal.τ).loc Cert.KernelIdeal.main_arg9) i = (r : EReal))
    ∧ (∀ i : Cert.Pre_finite_inputs.S3x64.Idx, ∃ r : ℝ,
        m ((c.tc : Thread Cert.KernelIdeal.nD Cert.KernelIdeal.τ).loc Cert.KernelIdeal.main_arg10) i = (r : EReal))
    ∧ (∀ i : Cert.Pre_finite_inputs.S3x64.Idx, ∃ r : ℝ, 0 ≤ r ∧
        m ((c.tc : Thread Cert.KernelIdeal.nD Cert.KernelIdeal.τ).loc Cert.KernelIdeal.main_arg11) i = (r : EReal)) := by
  have e := congrFun (h c) (fun d => d.elim0)
  obtain ⟨v13, v16, e1⟩ := part1_of_fn _ _ _ _ _ _ _ _ _ _ _ _ _ _ _ e
  obtain ⟨v33, e2⟩ := part2_of_part1 _ _ _ _ _ _ _ _ _ _ _ _ e1
  obtain ⟨h8, h9, h10, h11, hge⟩ := conjuncts_of_part2 _ _ _ _ _ _ _ _ e2
  refine ⟨real_of_allFinite _ _ h8, real_of_allFinite _ _ h9, real_of_allFinite _ _ h10, fun i => ?_⟩
  obtain ⟨r, hr⟩ := real_of_allFinite _ _ h11 i
  have h0 := nonneg_of_allNonneg _ _ hge i
  rw [hr] at h0
  exact ⟨r, EReal.coe_nonneg.1 h0, hr⟩

end Cert.KernelIdeal.KVal

end
-- ==== Proof.lean ====
/-
  The certificate of a three-layer graph convolution network (a dense input layer, three layers of neighbourhood
  aggregation with a residual projection and an inference-mode batch normalisation, a dense output layer) computed by
  eight kernel regions among host operations, against its plain reference, on the extended reals.

  The two programs differ in three ways, none of which changes a value at the ideal instance: the kernel rounds the
  matrix products' operands to bfloat16 (the identity there); it adds the convolution's and the residual's biases as
  one precomputed row; and it folds the normalisation (P − μ)·s + β into P·s + (β − μ·s) with s = γ·rsqrt(v + ε). The
  last agrees with the centred form for real γ, μ, β and a real s, whatever P is; s is real because the running variance
  is a nonnegative real and ε a positive one. The precondition supplies exactly that: finite inputs and a nonnegative
  running variance.

  The frames are the programs' generated frames (the reference's is its generated run with the result dropped); the
  kernel's idealisation rewrote nothing, so the preservation claim is trivial; the equivalence puts the kernel
  program's result (read off its segments region by region) and the reference's result (its run's term) at one
  function of the arguments, the network of named stages.
-/
import proofs.«155966_j60198261620971_1_alg».proof.Defs
import proofs.«155966_j60198261620971_1_alg».proof.Proof.Gen.Kernel
import proofs.«155966_j60198261620971_1_alg».proof.Proof.Gen.Kernel.Frame
import proofs.«155966_j60198261620971_1_alg».proof.Proof.Gen.KernelIdeal
import proofs.«155966_j60198261620971_1_alg».proof.Proof.Gen.KernelIdeal.Frame
import proofs.«155966_j60198261620971_1_alg».proof.Proof.Gen.ReferenceIdeal
import proofs.«155966_j60198261620971_1_alg».proof.Proof.Gen.ReferenceIdeal.Run
import proofs.«155966_j60198261620971_1_alg».proof.Proof.Gen.Pre_finite_inputs
import proofs.«155966_j60198261620971_1_alg».proof.Proof.KRun
import proofs.«155966_j60198261620971_1_alg».proof.Proof.KFold
import proofs.«155966_j60198261620971_1_alg».proof.Proof.RefBridge
import proofs.«155966_j60198261620971_1_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's value of the arguments. -/
theorem algebraic : Cert.algebraic_KernelIdeal_ReferenceIdeal := by
  intro m ρ m' ρ' hpre hagree
  refine ⟨fun c => Cert.KernelIdeal.Gen.W16 m ρ c (Proc.devRef .tc Cert.KernelIdeal.main_v154),
    Cert.KernelIdeal.KVal.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  have hP : Cert.KernelIdeal.KVal.RealParams m c := by
    obtain ⟨hga, hbe, hmu, hvar⟩ := Cert.KernelIdeal.KVal.pre_real m hpre c
    exact Cert.KernelIdeal.KVal.RealParams.of_entries m c hga hbe hmu hvar
  rw [Cert.ReferenceIdeal.RefG.res_eq_net, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.KernelIdeal.KVal.val_out m ρ c hP).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
